-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S1x262144 : Shape := ⟨2, ![1, 262144]⟩
abbrev S_ : Shape := ⟨0, ![]⟩
abbrev S8192 : Shape := ⟨1, ![8192]⟩
abbrev S262144x1 : Shape := ⟨2, ![262144, 1]⟩

class Facts : Prop where
  slices_S2x262144_S1x262144_0_0 : S2x262144.Slices ![0, 0] S1x262144
  shapeCasts_S1x262144_S262144 : S1x262144.ShapeCasts S262144
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x128 : S_.BroadcastsInDim S8192x128 (![] : Fin 0 → Fin S8192x128.rank)
  reducesTo_S8192x128_S_d0_1 : S8192x128.ReducesTo [0, 1] S_
  h_S_ : 0 < S_.numel
  reducesTo_S262144_S_d0 : S262144.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x262144 : S_.BroadcastsInDim S2x262144 (![] : Fin 0 → Fin S2x262144.rank)
  reducesTo_S2x262144_S_d0_1 : S2x262144.ReducesTo [0, 1] S_
  reducesTo_S8192_S_d0 : S8192.ReducesTo [0] S_
  scatter_S8192_S262144x1_S262144_n_0_0_1_wf : ScatterDims.WF S8192 S262144x1 S262144 [] [0] [0] 1

variable [Facts]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def fn_part2 {F : FTy → Type} [FloatOps F] (main_arg1 : IVec S2x262144 32) (main_v11 : FVec F S8192 .f32) (main_v30 : IVec S_ 1) (main_v32 : IVec S2x262144 1) (main_v33 : IVec S2x262144 32) : IVec S_ 1 :=
  let main_v34 : IVec S2x262144 1 := cmpi .slt main_arg1 main_v33
  let main_v35 : IVec S2x262144 1 := andi main_v32 main_v34
  let main_c_12 : IVec S_ 1 := constantI S_ 1 1#1
  let main_v36 : IVec S_ 1 := (fun x v => Host.reduce IntOp.andi x v reducesTo_S2x262144_S_d0_1 h_S_) main_v35 main_c_12
  let main_v37 : IVec S_ 1 := andi main_v30 main_v36
  let main_cst_13 : FVec F S_ .f32 := constant S_ .f32 0x2EDBE6FF#32
  let main_v38 : FVec F S8192 .f32 := broadcastInDim S8192 ![] bcast_S_S8192 main_cst_13
  let main_v39 : FVec F S8192 .f32 := addf main_v11 main_v38
  let main_cst_14 : FVec F S_ .f32 := constant S_ .f32 0x00000000#32
  let main_v40 : FVec F S8192 .f32 := broadcastInDim S8192 ![] bcast_S_S8192 main_cst_14
  let main_v41 : IVec S8192 1 := cmpf .ogt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v37 main_v42
  main_v43

def fn_part1 {F : FTy → Type} [FloatOps F] (main_arg1 : IVec S2x262144 32) (main_arg3 : FVec F S128x128 .f32) (main_arg4 : FVec F S128 .f32) (main_v11 : FVec F S8192 .f32) (main_v15 : IVec S_ 1) (main_v16 : FVec F S262144 .f32) (main_cst_4 : FVec F S_ .f32) : IVec S_ 1 :=
  let main_v17 : FVec F S262144 .f32 := broadcastInDim S262144 ![] bcast_S_S262144 main_cst_4
  let main_v18 : IVec S262144 1 := cmpf .olt main_v16 main_v17
  let main_c_5 : IVec S_ 1 := constantI S_ 1 1#1
  let main_v19 : IVec S_ 1 := (fun x v => Host.reduce IntOp.andi x v reducesTo_S262144_S_d0 h_S_) main_v18 main_c_5
  let main_v20 : IVec S_ 1 := andi main_v15 main_v19
  let main_v21 : FVec F S128x128 .f32 := Host.absf main_arg3
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_c_7 : IVec S_ 1 := constantI S_ 1 1#1
  let main_v24 : IVec S_ 1 := (fun x v => Host.reduce IntOp.andi x v reducesTo_S128x128_S_d0_1 h_S_) main_v23 main_c_7
  let main_v25 : IVec S_ 1 := andi main_v20 main_v24
  let main_v26 : FVec F S128 .f32 := Host.absf main_arg4
  let main_cst_8 : FVec F S_ .f32 := constant S_ .f32 0x7F800000#32
  let main_v27 : FVec F S128 .f32 := broadcastInDim S128 ![] bcast_S_S128 main_cst_8
  let main_v28 : IVec S128 1 := cmpf .olt main_v26 main_v27
  let main_c_9 : IVec S_ 1 := constantI S_ 1 1#1
  let main_v29 : IVec S_ 1 := (fun x v => Host.reduce IntOp.andi x v reducesTo_S128_S_d0 h_S_) main_v28 main_c_9
  let main_v30 : IVec S_ 1 := andi main_v25 main_v29
  let main_c_10 : IVec S_ 32 := constantI S_ 32 0#32
  let main_v31 : IVec S2x262144 32 := broadcastInDim S2x262144 ![] bcast_S_S2x262144 main_c_10
  let main_v32 : IVec S2x262144 1 := cmpi .sge main_arg1 main_v31
  let main_c_11 : IVec S_ 32 := constantI S_ 32 8192#32
  let main_v33 : IVec S2x262144 32 := broadcastInDim S2x262144 ![] bcast_S_S2x262144 main_c_11
  fn_part2 (F := F) main_arg1 main_v11 main_v30 main_v32 main_v33

def fn {F : FTy → Type} [FloatOps F] (main_arg0 : FVec F S8192x128 .f32) (main_arg1 : IVec S2x262144 32) (main_arg2 : FVec F S262144 .f32) (main_arg3 : FVec F S128x128 .f32) (main_arg4 : FVec F S128 .f32) : IVec S_ 1 :=
  let main_v0 : IVec S1x262144 32 := (extractStridedSlice S1x262144 ![0, 0] · slices_S2x262144_S1x262144_0_0) main_arg1
  let main_v1 : IVec S262144 32 := shapeCast S262144 main_v0 shapeCasts_S1x262144_S262144
  let main_cst : FVec F S_ .f32 := constant S_ .f32 0x00000000#32
  let main_v2 : FVec F S8192 .f32 := broadcastInDim S8192 ![] bcast_S_S8192 main_cst
  let main_c : IVec S_ 32 := constantI S_ 32 0#32
  let main_v3 : IVec S262144 32 := broadcastInDim S262144 ![] bcast_S_S262144 main_c
  let main_v4 : IVec S262144 1 := cmpi .slt main_v1 main_v3
  let main_c_0 : IVec S_ 32 := constantI S_ 32 8192#32
  let main_v5 : IVec S262144 32 := broadcastInDim S262144 ![] bcast_S_S262144 main_c_0
  let main_v6 : IVec S262144 32 := addi main_v1 main_v5
  let main_v7 : IVec S262144 32 := select main_v4 main_v6 main_v1
  let main_v8 : IVec S262144x1 32 := broadcastInDim S262144x1 ![0] bcast_S262144_S262144x1_0 main_v7
  let main_v9 : FVec F S8192 .f32 := (fun x i u => Host.scatterAdd scatter_S8192_S262144x1_S262144_n_0_0_1 x i u) main_v2 main_v8 main_arg2
  let main_cst_1 : FVec F S_ .f32 := constant S_ .f32 0x3F800000#32
  let main_v10 : FVec F S8192 .f32 := broadcastInDim S8192 ![] bcast_S_S8192 main_cst_1
  let main_v11 : FVec F S8192 .f32 := addf main_v9 main_v10
  let main_v12 : FVec F S8192x128 .f32 := Host.absf main_arg0
  let main_cst_2 : FVec F S_ .f32 := constant S_ .f32 0x7F800000#32
  let main_v13 : FVec F S8192x128 .f32 := broadcastInDim S8192x128 ![] bcast_S_S8192x128 main_cst_2
  let main_v14 : IVec S8192x128 1 := cmpf .olt main_v12 main_v13
  let main_c_3 : IVec S_ 1 := constantI S_ 1 1#1
  let main_v15 : IVec S_ 1 := (fun x v => Host.reduce IntOp.andi x v reducesTo_S8192x128_S_d0_1 h_S_) main_v14 main_c_3
  let main_v16 : FVec F S262144 .f32 := Host.absf main_arg2
  let main_cst_4 : FVec F S_ .f32 := constant S_ .f32 0x7F800000#32
  fn_part1 (F := F) main_arg1 main_arg3 main_arg4 main_v11 main_v15 main_v16 main_cst_4
-- ==== Kernel.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S1x262144 : Shape := ⟨2, ![1, 262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1024x128 : Shape := ⟨2, ![1024, 128]⟩
abbrev S1024x1 : Shape := ⟨2, ![1024, 1]⟩
abbrev S1x128 : Shape := ⟨2, ![1, 128]⟩
abbrev S1024x2048 : Shape := ⟨2, ![1024, 2048]⟩
abbrev S2048x128 : Shape := ⟨2, ![2048, 128]⟩

abbrev nBuf : Space → Nat
  | .hbm => 54
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x128, .f32⟩
  | .hbm, ⟨4, _⟩ => ⟨S128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S_, .f32⟩
  | .hbm, ⟨10, _⟩ => ⟨S8192x8192, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x1, .i32⟩
  | .hbm, ⟨27, _⟩ => ⟨S262144x2, .i32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x128, .f32⟩
  | .hbm, ⟨52, _⟩ => ⟨S1x128, .f32⟩
  | .hbm, ⟨53, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x1, .f32⟩
  | .local _ .vmem, ⟨4, _⟩ => ⟨S1024x1, .f32⟩
  | .local _ .vmem, ⟨5, _⟩ => ⟨S1024x128, .f32⟩
  | .local _ .vmem, ⟨6, _⟩ => ⟨S1024x128, .f32⟩
  | .local _ .vmem, ⟨7, _⟩ => ⟨S1024x2048, .f32⟩
  | .local _ .vmem, ⟨8, _⟩ => ⟨S1024x2048, .f32⟩
  | .local _ .vmem, ⟨9, _⟩ => ⟨S2048x128, .f32⟩
  | .local _ .vmem, ⟨10, _⟩ => ⟨S2048x128, .f32⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | .local _ .vmem, ⟨14, _⟩ => ⟨S1024x1, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  shapeCasts_S8192_S8192x1 : S8192.ShapeCasts S8192x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  shapeCasts_S128_S1x128 : S128.ShapeCasts S1x128
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S1024x128_S128x128_S1024x128_1_0_0_1_n_n_wf : DotDims.WF S1024x128 S128x128 S1024x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x128, .f32⟩
  | .hbm, ⟨4, _⟩ => ⟨S128, .f32⟩
  | .hbm, ⟨5, _⟩ => ⟨S8192x128, .f32⟩
  | .hbm, ⟨6, _⟩ => ⟨S_, .f32⟩
  | .hbm, ⟨7, _⟩ => ⟨S8192x8192, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S1x8192, .f32⟩
  | .hbm, ⟨51, _⟩ => ⟨S8192x8192, .f32⟩
  | .hbm, ⟨52, _⟩ => ⟨S8192x8192, .f32⟩
  | .hbm, ⟨53, _⟩ => ⟨S8192x128, .f32⟩
  | .hbm, ⟨54, _⟩ => ⟨S1x128, .f32⟩
  | .hbm, ⟨55, _⟩ => ⟨S8192x128, .f32⟩
  | .hbm, ⟨56, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x128_S8192x128_1_0_0_1_n_n_wf : DotDims.WF S8192x128 S128x128 S8192x128 [1] [0] [0] [1] [] []
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Support.lean ====
/-
  The first kernel region: the scaled support. At grid point t (one of eight row tiles) the body loads the
  tile's 1024 rows of the features, the whole weight matrix and the tile's 1024 inverse square-root degrees,
  and stores the product (x tile) · W with each row scaled by that row's degree factor into the tile's output block.
  This module states what the body leaves in the output block as a function of the three input blocks, proves the
  body's triple on whole staging buffers, and packages it as the region's proof data at ANY contents `V` the region
  is entered from.
-/
import proofs.«111453_j27599459844749_1_alg».proof.Proof.Gen.Kernel.Launch
import proofs.«111453_j27599459844749_1_alg».proof.Proof.Gen.Kernel.Skeleton
import proofs.«111453_j27599459844749_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the support region, read off its array as the region finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the weight
    matrix is fetched once: its block index never moves). -/
theorem sbefore0_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)
theorem sbefore1_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)
theorem sbefore2_of {c : Dev nD} (dat : Dat τ (Elt F) Unit ℕ (UR sig nD τ) ℕ cfg0 c) (hA : dat.A 2 = V c (Pipeline.arrRef spec0 2))
    (hafter : ∀ t, dat.after 2 t = sblk V c 2 t) (t : Fin cfg0.N) (d) : dat.before 2 t d = sblk V c 2 t :=
  (dat.before_in_eq_fetched 2 rfl (fun _ => rfl) (fun _ _ _ => rfl) (fun t => by rw [hafter]; unfold Dat.blockOf sblk; rw [hA]; try rfl) t d).trans
    (by unfold Dat.fetched Dat.blockOf sblk; rw [hA]; try rfl)

/-- The whole-buffer rectangles the body loads and stores through. -/
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rD : Rect S1024x1 := Rect.unit (s := S1024x1) ![0, 0] S1024x1.size inb_S1024x1_S1024x1_0_0

/-- What the body leaves in the output block: its one store's payload of the three loaded blocks. -/
def sout (x0 : Vec F S1024x128 .f32) (x1 : Vec F S128x128 .f32) (x2 : Vec F S1024x1 .f32) : Vec F S1024x128 .f32 :=
  View.canon [⟨rX, k0_pay1 (View.ld x0 rX) (View.ld x1 rW) (View.ld x2 rD)⟩]

/-- The one store covers the output block. -/
theorem scover (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging buffers: the inputs at their contents are handed back unchanged, the output at `sout`. -/
theorem sound_support (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x128 .f32) (x1 : Vec F S128x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (sout x0 x1 x2)) -∗ K ⟨⟩))
      ⊢ wp frame (wpE (defs₀ (F := F)) Variants.none c none) E (cc0__support_kernel_body i arg1 harg1 arg2 harg2 arg3 harg3 arg4 harg4) K := by
  simp only [cc0__support_kernel_body_eq_skeleton]; unfold cc0__support_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scover _)

/-- The support region's proof data on core `c`: the arrays as the region finds them; after the body each input's
    buffer at its block, the output's at `sout` of the input blocks; the scoped rest and the generator register
    untouched; nothing owed; full shares. -/
def sdat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => sout (sblk V c 0 t) (sblk V c 1 t) (sblk V c 2 t)
  Φ _ := Pipeline.ΦA spec0 c
  q _ := fullShare
  owed _ := 0

theorem sA_eq (c : Dev nD) (w : Fin cfg0.W) : (sdat V c).A w = V c (Pipeline.arrRef spec0 w) := by
  dsimp only [sdat]
theorem safter0 (c : Dev nD) (t : Fin cfg0.N) : (sdat V c).after 0 t = sblk V c 0 t := by dsimp only [sdat]
theorem safter1 (c : Dev nD) (t : Fin cfg0.N) : (sdat V c).after 1 t = sblk V c 1 t := by dsimp only [sdat]
theorem safter2 (c : Dev nD) (t : Fin cfg0.N) : (sdat V c).after 2 t = sblk V c 2 t := by dsimp only [sdat]
theorem safter3 (c : Dev nD) (t : Fin cfg0.N) : (sdat V c).after 3 t = sout (sblk V c 0 t) (sblk V c 1 t) (sblk V c 2 t) := by dsimp only [sdat]

theorem sbefore0 (c : Dev nD) (t : Fin cfg0.N) (d) : (sdat V c).before 0 t d = sblk V c 0 t :=
  sbefore0_of V (sdat V c) (sA_eq V c 0) (safter0 V c) t d
theorem sbefore1 (c : Dev nD) (t : Fin cfg0.N) (d) : (sdat V c).before 1 t d = sblk V c 1 t :=
  sbefore1_of V (sdat V c) (sA_eq V c 1) (safter1 V c) t d
theorem sbefore2 (c : Dev nD) (t : Fin cfg0.N) (d) : (sdat V c).before 2 t d = sblk V c 2 t :=
  sbefore2_of V (sdat V c) (sA_eq V c 2) (safter2 V c) t d

/-- What the body is called with at point `t`, the windows one by one, -/
def sbodyPre (c : Dev nD) (t : Fin cfg0.N) : sProp 𝕄 :=
  iprop((sdat V c).Φ t.castSucc ∗ (sdat V c).owesAt () t.castSucc
    ∗ (∃ d, owns (c : Thread nD τ) (st0_0 t) fullShare ((sdat V c).before 0 t d))
    ∗ (∃ d, owns (c : Thread nD τ) (st0_1 t) fullShare ((sdat V c).before 1 t d))
    ∗ (∃ d, owns (c : Thread nD τ) (st0_2 t) fullShare ((sdat V c).before 2 t d))
    ∗ (∃ d, owns (c : Thread nD τ) (st0_3 t) fullShare ((sdat V c).before 3 t d)))

/-- and what it returns. -/
def sbodyPost (c : Dev nD) (t : Fin cfg0.N) : sProp 𝕄 :=
  iprop((sdat V c).Φ t.succ ∗ (sdat V c).owesAt () t.succ
    ∗ owns (c : Thread nD τ) (st0_0 t) fullShare ((sdat V c).after 0 t)
    ∗ owns (c : Thread nD τ) (st0_1 t) fullShare ((sdat V c).after 1 t)
    ∗ owns (c : Thread nD τ) (st0_2 t) fullShare ((sdat V c).after 2 t)
    ∗ owns (c : Thread nD τ) (st0_3 t) fullShare ((sdat V c).after 3 t))

theorem sound_sbody (c : Dev nD) (t : Fin cfg0.N) :
    sbodyPre V c t ⊢ wp frame (wpE (defs₀ (F := F)) Variants.none c none) Set.univ (bodyAt0 t) (fun _ => sbodyPost V c t) := by
  unfold sbodyPre sbodyPost bodyAt0
  simp only [sbefore0, sbefore1, sbefore2]
  rw [show (sdat V c).Φ t.succ = (sdat V c).Φ t.castSucc from rfl,
    show (sdat V c).owesAt () t.succ = (sdat V c).owesAt () t.castSucc from rfl,
    safter0, safter1, safter2, safter3]
  iintro ⟨HΦ, Ho, ⟨%d0, H0⟩, ⟨%d1, H1⟩, ⟨%d2, H2⟩, ⟨%d3, H3⟩⟩
  iapply (sound_support c Set.univ _ _ _ _ _ _ _ _ _ (sblk V c 0 t) (sblk V c 1 t) (sblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the support region, at every point. -/
theorem sbody_obligation (c : Dev nD) : BodyObligation (sdat (F := F) V c) (defs₀ (F := F)) Variants.none () Set.univ := fun t => by
  rw [bigSep_W0, bigSep_W0]
  exact sound_sbody V c t

end Cert.Kernel.Fr

end
-- ==== Proof.K.PropagateBase.lean ====
/-
  The second kernel region: propagation. The grid is 8 row tiles by 4 column tiles of the dense adjacency; at point
  (i, k) the body adds (adjacency tile (i, k)) · (scaled-support rows of column tile k) into a 1024 × 128 accumulator
  held in a scratch buffer, which it zeroes first when k = 0; when k = 3 it adds the tile's own scaled-support rows
  (the self loop), scales each row by its degree factor, adds the bias row, and stores the result into the output
  block. This module holds what the three control cases share: the two conditions in closed form over the grid, where
  the output window is idle, the staging buffers' names, and the region's scoped buffers split into the accumulator
  and the rest.
-/
import proofs.«111453_j27599459844749_1_alg».proof.Proof.Gen.Kernel.Launch
import proofs.«111453_j27599459844749_1_alg».proof.Proof.Gen.Kernel.Skeleton
import proofs.«111453_j27599459844749_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: the column-tile coordinate is 0. -/
abbrev condInit (i : grid1.Coords) : Prop := (Scalar.cmpi .ne (Scalar.extui (Scalar.cmpi .eq (BitVec.ofNat 32 (i 1).val) 0#32)) 0#32) = 1#1
theorem hcondInit : ∀ t : Fin cfg1.N, condInit (grid1.coords t) ↔ t.val % 4 = 0 :=
  (by decide +kernel : ∀ t : Fin grid1.N, condInit (grid1.coords t) ↔ t.val % 4 = 0)

/-- The output block is stored at this point: the column-tile coordinate is 3, the last. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Off the last column tile the output window is idle and its block is not written back. -/
theorem idle1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
/-- On the last column tile the output window is live. -/
theorem live1_5 : ∀ t : Fin cfg1.N, condLast (grid1.coords t) → cfg1.idle 5 (grid1.coords t) = false := by decide +kernel

/-- Each window's current staging buffer at point `t`, spelled as the pipeline passes it, and its wholeness. -/
abbrev pm0 (t : Fin cfg1.N) : Memref sig .tc .vmem S1024x2048 .f32 := win1_0.stage (cfg1.slots t 0)
abbrev ph0 (t : Fin cfg1.N) : (pm0 t).IsWhole := hstage1_0 ((cfg1.slots t 0).cast nbuf1_0)
abbrev pm1 (t : Fin cfg1.N) : Memref sig .tc .vmem S2048x128 .f32 := win1_1.stage (cfg1.slots t 1)
abbrev ph1 (t : Fin cfg1.N) : (pm1 t).IsWhole := hstage1_1 ((cfg1.slots t 1).cast nbuf1_1)
abbrev pm2 (t : Fin cfg1.N) : Memref sig .tc .vmem S1024x128 .f32 := win1_2.stage (cfg1.slots t 2)
abbrev ph2 (t : Fin cfg1.N) : (pm2 t).IsWhole := hstage1_2 ((cfg1.slots t 2).cast nbuf1_2)
abbrev pm3 (t : Fin cfg1.N) : Memref sig .tc .vmem S1024x1 .f32 := win1_3.stage (cfg1.slots t 3)
abbrev ph3 (t : Fin cfg1.N) : (pm3 t).IsWhole := hstage1_3 ((cfg1.slots t 3).cast nbuf1_3)
abbrev pm4 (t : Fin cfg1.N) : Memref sig .tc .vmem S1x128 .f32 := win1_4.stage (cfg1.slots t 4)
abbrev ph4 (t : Fin cfg1.N) : (pm4 t).IsWhole := hstage1_4 ((cfg1.slots t 4).cast nbuf1_4)
abbrev pm5 (t : Fin cfg1.N) : Memref sig .tc .vmem S1024x128 .f32 := win1_5.stage (cfg1.slots t 5)
abbrev ph5 (t : Fin cfg1.N) : (pm5 t).IsWhole := hstage1_5 ((cfg1.slots t 5).cast nbuf1_5)
/-- The accumulator: a whole scoped buffer of the kernel's own. -/
abbrev accM : Memref sig .tc .vmem S1024x128 .f32 := Memref.whole cc1_scratch0
/-- The accumulator as a view, and one staging buffer of the output window as a view: contents are stated through them. -/
abbrev accV : View sig .tc .vmem S1024x128 .f32 := accM.view
abbrev outV : View sig .tc .vmem S1024x128 .f32 := (Memref.whole cc1_stg5_0 : Memref sig .tc .vmem S1024x128 .f32).view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's scoped buffers other than the accumulator (the first region's staging buffers), each at anything. -/
def otherScoped (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg2_1 ∗ anyAt (F := F) c cc0_stg3_0 ∗ anyAt (F := F) c cc0_stg3_1)

/-- The class invariant (every scoped non-staging buffer at anything, the generator register at some state) with the
    accumulator singled out as an owned memref: one direction, -/
theorem phiA_open (c : Dev nD) :
    (Pipeline.ΦA spec1 c : sProp 𝕄)
      ⊢ iprop(otherScoped (F := F) c ∗ (∃ d, owns (c : Thread nD τ) accM fullShare d) ∗ (∃ r, prngReg c r)) := by
  unfold Pipeline.ΦA; rw [scopedRest1_eq]; unfold otherScoped
  simp only [accM, owns_whole]
  iintro ⟨⟨H0, H1, H2, H3, H4, H5, H6, H7⟩, Hg⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact Hg

/-- and the other. -/
theorem phiA_close (c : Dev nD) :
    (iprop(otherScoped (F := F) c ∗ (∃ d, owns (c : Thread nD τ) accM fullShare d) ∗ (∃ r, prngReg c r)) : sProp 𝕄)
      ⊢ Pipeline.ΦA spec1 c := by
  unfold Pipeline.ΦA; rw [scopedRest1_eq]; unfold otherScoped
  simp only [accM, owns_whole]
  iintro ⟨⟨H0, H1, H2, H3, H4, H5, H6⟩, H7, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.Kernel.Fr

end
-- ==== Proof.K.PropagateInit.lean ====
/-
  The propagation body at a point of the first column tile (k = 0, not the last): the accumulator, found at anything,
  is zeroed and then receives the tile's product; the output block is not touched. The stores into the accumulator,
  last first, are the witness the symbolic run finds.
-/
import proofs.«111453_j27599459844749_1_alg».proof.Proof.K.PropagateBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runInit (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i)
    (x0 : Vec F S1024x2048 .f32) (x1 : Vec F S2048x128 .f32) (x2 : Vec F S1024x128 .f32) (x3 : Vec F S1024x1 .f32) (x4 : Vec F S1x128 .f32) :
    { LS : List (View.Piece (Elt F) S1024x128 .f32) //
      ∀ (xo : Vec F S1024x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, fun xo E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

end Cert.Kernel.Fr

end
-- ==== Proof.K.PropagateMid.lean ====
/-
  The propagation body at a point of a middle column tile (k = 1 or 2): the accumulator, found at what the point
  before left, receives its contents plus the tile's product; the output block is not touched.
-/
import proofs.«111453_j27599459844749_1_alg».proof.Proof.K.PropagateBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i)
    (x0 : Vec F S1024x2048 .f32) (x1 : Vec F S2048x128 .f32) (x2 : Vec F S1024x128 .f32) (x3 : Vec F S1024x1 .f32) (x4 : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, fun xo E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfs
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

end Cert.Kernel.Fr

end
-- ==== Proof.K.PropagateLast.lean ====
/-
  The propagation body at a point of the last column tile (k = 3): the accumulator receives its contents plus the
  tile's product, and the output block is stored: (accumulator + the tile's own scaled-support rows) scaled row by row
  by the degree factor, plus the bias row.
-/
import proofs.«111453_j27599459844749_1_alg».proof.Proof.K.PropagateBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, ?_, fun E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h8.eq_unread hfs
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    iexists _; iexact HS

end Cert.Kernel.Fr

end
-- ==== Proof.K.PropagateData.lean ====
/-
  The propagation region's proof data. After each grid point the accumulator holds a definite array (`accAt`): at a
  point of column tile 0 what the zero-then-add case leaves, otherwise what the add case leaves over the point before;
  the output block after a point of the last column tile is what the finishing case stores, computed from the
  accumulator the point before left. The region invariant carries the accumulator at `accAt` from one point to the
  next. Stated at ANY contents `V` the region is entered from.
-/
import proofs.«111453_j27599459844749_1_alg».proof.Proof.K.PropagateInit
import proofs.«111453_j27599459844749_1_alg».proof.Proof.K.PropagateMid
import proofs.«111453_j27599459844749_1_alg».proof.Proof.K.PropagateLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the propagation region, read off its array as the region finds it. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index did not move since the point before is not fetched again). -/
theorem pbefore0_of {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pbefore3_of {c : Dev nD} (dat : Dat τ (Elt F) Unit ℕ (UR sig nD τ) ℕ cfg1 c) (hA : dat.A 3 = V c (Pipeline.arrRef spec1 3))
    (hafter : ∀ t, dat.after 3 t = pblk V c 3 t) (t : Fin cfg1.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pbefore4_of {c : Dev nD} (dat : Dat τ (Elt F) Unit ℕ (UR sig nD τ) ℕ cfg1 c) (hA : dat.A 4 = V c (Pipeline.arrRef spec1 4))
    (hafter : ∀ t, dat.after 4 t = pblk V c 4 t) (t : Fin cfg1.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## What each case leaves -/

theorem initCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i) (x0 : Vec F S1024x2048 .f32) (x1 : Vec F S2048x128 .f32) (x2 : Vec F S1024x128 .f32) (x3 : Vec F S1024x1 .f32) (x4 : Vec F S1x128 .f32) (y : S1024x128.Idx) :
    ∃ pc ∈ (runInit c i a2 h2 a3 h3 a4 h4 a5 h5 a6 h6 a7 h7 a8 h8 hc1 hc2 x0 x1 x2 x3 x4).1, y ∈ pc.1.set :=
  View.cover_of_tiledL (runInit c i a2 h2 a3 h3 a4 h4 a5 h5 a6 h6 a7 h7 a8 h8 hc1 hc2 x0 x1 x2 x3 x4).1 S1024x128.size (by sl_kernel_rfl) y
/-- The accumulator after a point of column tile 0. -/
def initAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i) (x0 : Vec F S1024x2048 .f32) (x1 : Vec F S2048x128 .f32) (x2 : Vec F S1024x128 .f32) (x3 : Vec F S1024x1 .f32) (x4 : Vec F S1x128 .f32) : Vec F S1024x128 .f32 :=
  accV.read (Elt F) (accV.writes (Elt F) accV.junk (runInit c i a2 h2 a3 h3 a4 h4 a5 h5 a6 h6 a7 h7 a8 h8 hc1 hc2 x0 x1 x2 x3 x4).1)

theorem midCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runMid c i a2 h2 a3 h3 a4 h4 a5 h5 a6 h6 a7 h7 a8 h8 hc1 hc2 x0 x1 x2 x3 x4 xs).1, y ∈ pc.1.set :=
  View.cover_of_tiledL (runMid c i a2 h2 a3 h3 a4 h4 a5 h5 a6 h6 a7 h7 a8 h8 hc1 hc2 x0 x1 x2 x3 x4 xs).1 S1024x128.size (by sl_kernel_rfl) y
/-- The accumulator after a point of a middle column tile, over what the point before left (`xs`). -/
def midAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  accV.read (Elt F) (accV.writes (Elt F) accV.junk (runMid c i a2 h2 a3 h3 a4 h4 a5 h5 a6 h6 a7 h7 a8 h8 hc1 hc2 x0 x1 x2 x3 x4 xs).1)

theorem lastCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runLast c i a2 h2 a3 h3 a4 h4 a5 h5 a6 h6 a7 h7 a8 h8 hc1 hc2 x0 x1 x2 x3 x4 xs).2.1, y ∈ pc.1.set :=
  View.cover_of_tiledL (runLast c i a2 h2 a3 h3 a4 h4 a5 h5 a6 h6 a7 h7 a8 h8 hc1 hc2 x0 x1 x2 x3 x4 xs).2.1 S1024x128.size (by sl_kernel_rfl) y
/-- The accumulator after a point of the last column tile. -/
def lastAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  accV.read (Elt F) (accV.writes (Elt F) accV.junk (runLast c i a2 h2 a3 h3 a4 h4 a5 h5 a6 h6 a7 h7 a8 h8 hc1 hc2 x0 x1 x2 x3 x4 xs).2.1)
theorem lastCoverOut (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runLast c i a2 h2 a3 h3 a4 h4 a5 h5 a6 h6 a7 h7 a8 h8 hc1 hc2 x0 x1 x2 x3 x4 xs).1, y ∈ pc.1.set :=
  View.cover_of_tiledL (runLast c i a2 h2 a3 h3 a4 h4 a5 h5 a6 h6 a7 h7 a8 h8 hc1 hc2 x0 x1 x2 x3 x4 xs).1 S1024x128.size (by sl_kernel_rfl) y
/-- The output block after a point of the last column tile. -/
def lastOut (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  outV.read (Elt F) (outV.writes (Elt F) outV.junk (runLast c i a2 h2 a3 h3 a4 h4 a5 h5 a6 h6 a7 h7 a8 h8 hc1 hc2 x0 x1 x2 x3 x4 xs).1)

/-! ## The accumulator point by point -/

/-- THE ACCUMULATION: what the accumulator holds after the body at position `n`. -/
def accAt (c : Dev nD) : (n : ℕ) → n < cfg1.N → Vec F S1024x128 .f32
  | 0, hn => initAcc c (grid1.coords ⟨0, hn⟩) (pm0 ⟨0, hn⟩) (ph0 ⟨0, hn⟩) (pm1 ⟨0, hn⟩) (ph1 ⟨0, hn⟩) (pm2 ⟨0, hn⟩) (ph2 ⟨0, hn⟩) (pm3 ⟨0, hn⟩) (ph3 ⟨0, hn⟩) (pm4 ⟨0, hn⟩) (ph4 ⟨0, hn⟩) (pm5 ⟨0, hn⟩) (ph5 ⟨0, hn⟩) accM (Memref.isWhole_whole _) ((hcondInit ⟨0, hn⟩).mpr (Nat.zero_mod _)) (fun h => (fun h => by (try dsimp only at h); omega) ((hcondLast ⟨0, hn⟩).mp h)) (pblk V c 0 ⟨0, hn⟩) (pblk V c 1 ⟨0, hn⟩) (pblk V c 2 ⟨0, hn⟩) (pblk V c 3 ⟨0, hn⟩) (pblk V c 4 ⟨0, hn⟩)
  | n + 1, hn =>
    if h0 : (n + 1) % 4 = 0 then
      initAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) ((hcondInit ⟨n + 1, hn⟩).mpr h0) (fun h => (fun h => by (try dsimp only at h); omega) ((hcondLast ⟨n + 1, hn⟩).mp h)) (pblk V c 0 ⟨n + 1, hn⟩) (pblk V c 1 ⟨n + 1, hn⟩) (pblk V c 2 ⟨n + 1, hn⟩) (pblk V c 3 ⟨n + 1, hn⟩) (pblk V c 4 ⟨n + 1, hn⟩)
    else
      if h3 : (n + 1) % 4 = 3 then
        lastAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) (fun h => h0 ((hcondInit ⟨n + 1, hn⟩).mp h)) ((hcondLast ⟨n + 1, hn⟩).mpr h3) (pblk V c 0 ⟨n + 1, hn⟩) (pblk V c 1 ⟨n + 1, hn⟩) (pblk V c 2 ⟨n + 1, hn⟩) (pblk V c 3 ⟨n + 1, hn⟩) (pblk V c 4 ⟨n + 1, hn⟩) (accAt c n (Nat.lt_of_succ_lt hn))
      else
        midAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) (fun h => h0 ((hcondInit ⟨n + 1, hn⟩).mp h)) (fun h => h3 ((hcondLast ⟨n + 1, hn⟩).mp h)) (pblk V c 0 ⟨n + 1, hn⟩) (pblk V c 1 ⟨n + 1, hn⟩) (pblk V c 2 ⟨n + 1, hn⟩) (pblk V c 3 ⟨n + 1, hn⟩) (pblk V c 4 ⟨n + 1, hn⟩) (accAt c n (Nat.lt_of_succ_lt hn))

theorem accAt_init (c : Dev nD) (t : Fin cfg1.N) (h0 : t.val % 4 = 0) (h3 : ¬t.val % 4 = 3) :
    accAt V c t.val t.isLt = initAcc c (grid1.coords t) (pm0 t) (ph0 t) (pm1 t) (ph1 t) (pm2 t) (ph2 t) (pm3 t) (ph3 t) (pm4 t) (ph4 t) (pm5 t) (ph5 t) accM (Memref.isWhole_whole _) ((hcondInit t).mpr h0) (fun h => h3 ((hcondLast t).mp h)) (pblk V c 0 t) (pblk V c 1 t) (pblk V c 2 t) (pblk V c 3 t) (pblk V c 4 t) := by
  obtain ⟨n, hn⟩ := t
  cases n with
  | zero => exact rfl
  | succ n => exact (dif_pos h0).trans rfl

theorem accAt_mid (c : Dev nD) (t : Fin cfg1.N) (h0 : ¬t.val % 4 = 0) (h3 : ¬t.val % 4 = 3) :
    accAt V c t.val t.isLt = midAcc c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) (fun h => h3 ((hcondLast t).mp h)) (pblk V c 0 t) (pblk V c 1 t) (pblk V c 2 t) (pblk V c 3 t) (pblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem accAt_last (c : Dev nD) (t : Fin cfg1.N) (h0 : ¬t.val % 4 = 0) (h3 : t.val % 4 = 3) :
    accAt V c t.val t.isLt = lastAcc c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- What the output window's staging buffer holds after the body at point `t`: at a point of the last column tile
    what the finishing case stores; elsewhere a placeholder nothing consults (the window is idle there and its block is
    not written back). -/
def outAt (c : Dev nD) (t : Fin cfg1.N) : Vec F S1024x128 .f32 :=
  if h3 : t.val % 4 = 3 then
    lastOut c (grid1.coords t) (pm0 t) (ph0 t) (pm1 t) (ph1 t) (pm2 t) (ph2 t) (pm3 t) (ph3 t) (pm4 t) (ph4 t) (pm5 t) (ph5 t) accM (Memref.isWhole_whole _) (fun h => (fun h => by (try dsimp only at h); omega) ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = lastOut c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt)) := by
  unfold outAt; exact dif_pos h3

/-! ## The invariant and the proof data -/

/-- The region invariant before position `n`: before the first point the class's (every scoped non-staging buffer at
    anything); afterwards the accumulator at what the point before left, the other scoped buffers at anything, the
    generator register at some state. -/
def PhiS (c : Dev nD) : (n : ℕ) → n ≤ cfg1.N → sProp 𝕄
  | 0, _ => Pipeline.ΦA spec1 c
  | n + 1, hn => iprop(otherScoped (F := F) c ∗ owns (c : Thread nD τ) accM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(otherScoped (F := F) c ∗ owns (c : Thread nD τ) accM fullShare (accAt V c n hn) ∗ (∃ r, prngReg c r)) := rfl
theorem PhiS_pos (c : Dev nD) (n : ℕ) (h : n ≤ cfg1.N) (hz : n ≠ 0) :
    PhiS V c n h = iprop(otherScoped (F := F) c ∗ owns (c : Thread nD τ) accM fullShare (accAt V c (n - 1) (by omega)) ∗ (∃ r, prngReg c r)) := by
  cases n with
  | zero => exact absurd rfl hz
  | succ n => rfl

/-- The propagation region's proof data on core `c`. The scaled support is read through two windows (the column
    tile's rows and the row tile's rows): each holds half of the array's share. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => outAt V c t
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem pA_eq (c : Dev nD) (w : Fin cfg1.W) : (pdat V c).A w = V c (Pipeline.arrRef spec1 w) := by
  dsimp only [pdat]
theorem PhiS_castSucc (c : Dev nD) (t : Fin cfg1.N) :
    (pdat V c).Φ t.castSucc = PhiS V c t.val (Nat.le_of_lt t.isLt) := by
  dsimp only [pdat]; simp only [Fin.coe_castSucc]
theorem pafter0 (c : Dev nD) (t : Fin cfg1.N) : (pdat V c).after 0 t = pblk V c 0 t := by dsimp only [pdat]
theorem pafter1 (c : Dev nD) (t : Fin cfg1.N) : (pdat V c).after 1 t = pblk V c 1 t := by dsimp only [pdat]
theorem pafter2 (c : Dev nD) (t : Fin cfg1.N) : (pdat V c).after 2 t = pblk V c 2 t := by dsimp only [pdat]
theorem pafter3 (c : Dev nD) (t : Fin cfg1.N) : (pdat V c).after 3 t = pblk V c 3 t := by dsimp only [pdat]
theorem pafter4 (c : Dev nD) (t : Fin cfg1.N) : (pdat V c).after 4 t = pblk V c 4 t := by dsimp only [pdat]
theorem pafter5 (c : Dev nD) (t : Fin cfg1.N) : (pdat V c).after 5 t = outAt V c t := by dsimp only [pdat]
theorem pbefore0 (c : Dev nD) (t : Fin cfg1.N) (d) : (pdat V c).before 0 t d = pblk V c 0 t :=
  pbefore0_of V (pdat V c) (pA_eq V c 0) (pafter0 V c) t d
theorem pbefore1 (c : Dev nD) (t : Fin cfg1.N) (d) : (pdat V c).before 1 t d = pblk V c 1 t :=
  pbefore1_of V (pdat V c) (pA_eq V c 1) (pafter1 V c) t d
theorem pbefore2 (c : Dev nD) (t : Fin cfg1.N) (d) : (pdat V c).before 2 t d = pblk V c 2 t :=
  pbefore2_of V (pdat V c) (pA_eq V c 2) (pafter2 V c) t d
theorem pbefore3 (c : Dev nD) (t : Fin cfg1.N) (d) : (pdat V c).before 3 t d = pblk V c 3 t :=
  pbefore3_of V (pdat V c) (pA_eq V c 3) (pafter3 V c) t d
theorem pbefore4 (c : Dev nD) (t : Fin cfg1.N) (d) : (pdat V c).before 4 t d = pblk V c 4 t :=
  pbefore4_of V (pdat V c) (pA_eq V c 4) (pafter4 V c) t d

end Cert.Kernel.Fr

end
-- ==== Proof.K.PropagateBody.lean ====
/-
  The propagation region's body obligation: at every grid point the body, started from the invariant and the windows'
  current staging buffers, runs to the invariant of the next position and the buffers at what the proof data say —
  by cases on the column tile (first, middle, last), each the corresponding symbolic run.
-/
import proofs.«111453_j27599459844749_1_alg».proof.Proof.K.PropagateData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def pbodyPre (c : Dev nD) (t : Fin cfg1.N) : sProp 𝕄 :=
  iprop((pdat V c).Φ t.castSucc ∗ (pdat V c).owesAt () t.castSucc
    ∗ (∃ d, owns (c : Thread nD τ) (pm0 t) fullShare ((pdat V c).before 0 t d))
    ∗ (∃ d, owns (c : Thread nD τ) (pm1 t) fullShare ((pdat V c).before 1 t d))
    ∗ (∃ d, owns (c : Thread nD τ) (pm2 t) fullShare ((pdat V c).before 2 t d))
    ∗ (∃ d, owns (c : Thread nD τ) (pm3 t) fullShare ((pdat V c).before 3 t d))
    ∗ (∃ d, owns (c : Thread nD τ) (pm4 t) fullShare ((pdat V c).before 4 t d))
    ∗ (∃ d, owns (c : Thread nD τ) (pm5 t) fullShare ((pdat V c).before 5 t d)))

/-- and what it returns. -/
def pbodyPost (c : Dev nD) (t : Fin cfg1.N) : sProp 𝕄 :=
  iprop((pdat V c).Φ t.succ ∗ (pdat V c).owesAt () t.succ
    ∗ (pdat V c).leavesExact 0 t
    ∗ (pdat V c).leavesExact 1 t
    ∗ (pdat V c).leavesExact 2 t
    ∗ (pdat V c).leavesExact 3 t
    ∗ (pdat V c).leavesExact 4 t
    ∗ (pdat V c).leavesExact 5 t)

set_option maxHeartbeats 4800000 in
theorem sound_pbody (c : Dev nD) (t : Fin cfg1.N) :
    pbodyPre V c t ⊢ wp frame (wpE (defs₀ (F := F)) Variants.none c none) Set.univ (bodyAt1 t) (fun _ => pbodyPost V c t) := by
  unfold pbodyPre pbodyPost bodyAt1
  simp only [pbefore0, pbefore1, pbefore2, pbefore3, pbefore4]
  rw [show (pdat V c).owesAt () t.succ = (pdat V c).owesAt () t.castSucc from rfl]
  rw [show (pdat V c).Φ t.succ = PhiS V c (t.val + 1) t.isLt from rfl, PhiS_succ]
  have hN : t.val < 32 := lt_of_lt_of_eq t.isLt (show cfg1.N = 32 from N_1)
  rw [show (pdat V c).leavesExact 0 t = owns (c : Thread nD τ) (pm0 t) fullShare ((pdat V c).after 0 t) from by
    unfold Dat.leavesExact; rw [live1_0 t], pafter0]
  rw [show (pdat V c).leavesExact 1 t = owns (c : Thread nD τ) (pm1 t) fullShare ((pdat V c).after 1 t) from by
    unfold Dat.leavesExact; rw [live1_1 t], pafter1]
  rw [show (pdat V c).leavesExact 2 t = owns (c : Thread nD τ) (pm2 t) fullShare ((pdat V c).after 2 t) from by
    unfold Dat.leavesExact; rw [live1_2 t], pafter2]
  rw [show (pdat V c).leavesExact 3 t = owns (c : Thread nD τ) (pm3 t) fullShare ((pdat V c).after 3 t) from by
    unfold Dat.leavesExact; rw [live1_3 t], pafter3]
  rw [show (pdat V c).leavesExact 4 t = owns (c : Thread nD τ) (pm4 t) fullShare ((pdat V c).after 4 t) from by
    unfold Dat.leavesExact; rw [live1_4 t], pafter4]
  by_cases h0 : t.val % 4 = 0
  · have h3 : ¬t.val % 4 = 3 := by omega
    rw [Dat.leavesExact_idle (pdat V c) 5 t (idle1_5 t (fun h => h3 ((hcondLast t).mp h))) (noFlush1_5 t (fun h => h3 ((hcondLast t).mp h)))]
    rw [accAt_init V c t h0 h3]
    unfold initAcc; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (phiA_open (F := F) c) $$ HΦ
      icases HΦ' with ⟨Hoth, HS, Hg⟩
      iapply ((runInit c (grid1.coords t) _ _ _ _ _ _ _ _ _ _ _ _ _ _ ((hcondInit t).mpr h0) (fun h => h3 ((hcondLast t).mp h)) (pblk V c 0 t) (pblk V c 1 t) (pblk V c 2 t) (pblk V c 3 t) (pblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (initCoverAcc c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runInit c (grid1.coords t) _ _ _ _ _ _ _ _ _ _ _ _ _ _ ((hcondInit t).mpr h0) (fun h => h3 ((hcondLast t).mp h)) (pblk V c 0 t) (pblk V c 1 t) (pblk V c 2 t) (pblk V c 3 t) (pblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (initCoverAcc c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h3 : t.val % 4 = 3
    · rw [show (pdat V c).leavesExact 5 t = owns (c : Thread nD τ) (pm5 t) fullShare ((pdat V c).after 5 t) from by
        unfold Dat.leavesExact; rw [live1_5 t ((hcondLast t).mpr h3)], pafter5]
      rw [accAt_last V c t h0 h3, outAt_last V c t h0 h3]
      unfold lastAcc lastOut; (try dsimp only)
      rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((hcondInit t).mp h)) ((hcondLast t).mpr h3) (pblk V c 0 t) (pblk V c 1 t) (pblk V c 2 t) (pblk V c 3 t) (pblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (lastCoverAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (lastCoverOut c _ _ _ _ _ _ _ _ _ _ _ _ _ _ _ _ _ _ _ _ _ _ _)
    · rw [Dat.leavesExact_idle (pdat V c) 5 t (idle1_5 t (fun h => h3 ((hcondLast t).mp h))) (noFlush1_5 t (fun h => h3 ((hcondLast t).mp h)))]
      rw [accAt_mid V c t h0 h3]
      unfold midAcc; (try dsimp only)
      rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((hcondInit t).mp h)) (fun h => h3 ((hcondLast t).mp h)) (pblk V c 0 t) (pblk V c 1 t) (pblk V c 2 t) (pblk V c 3 t) (pblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (midCoverAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for the propagation region, at every point. -/
theorem pbody_obligation (c : Dev nD) : BodyObligation (pdat (F := F) V c) (defs₀ (F := F)) Variants.none () Set.univ := fun t => by
  rw [bigSep_W1, bigSep_W1]
  exact sound_pbody V c t

/-- What the region is entered with (the class invariant) is the invariant before the first point. -/
theorem p_hin (c : Dev nD) : (Pipeline.ΦA spec1 c : sProp 𝕄) ⊢ (pdat V c).Φ 0 := by
  rw [show (pdat V c).Φ 0 = PhiS V c 0 (Nat.zero_le _) from rfl, PhiS_zero V c 0 _ rfl]
  try exact Idealize.SL.BI.Entails.refl _

/-- After the last point the invariant gives the class invariant back: the accumulator's contents are forgotten. -/
theorem p_hout (c : Dev nD) : (pdat V c).Φ (Fin.last cfg1.N) ⊢ (Pipeline.ΦA spec1 c : sProp 𝕄) := by
  rw [show (pdat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨Hoth, HS, Hg⟩
  iapply (phiA_close (F := F) c)
  isplitl [Hoth]; · iexact Hoth
  isplitl [HS]; · iexists _; iexact HS
  iexact Hg

end Cert.Kernel.Fr

end
-- ==== Proof.K.Bounds.lean ====
/-
  The whole program's run. @main is four items: the host operations that build the dense adjacency and the degree
  factors, the support region, one host reshape of the bias, the propagation region. The unscoped buffers' contents
  at each boundary are a fold from the launch memory: a host stretch applies its operations, a region replaces its
  output array by what its write-backs leave and keeps everything else. Each region is entered from "every unscoped
  buffer at the boundary's contents" and left at the next boundary's; the propagation region reads the scaled support
  through two windows, so at its entry that array's points-to is split into two half shares and at its exit joined
  again. The run ends with every unscoped buffer at the last boundary's contents, from which both the frame claim
  (the arguments as launched) and the result array are read.
-/
import proofs.«111453_j27599459844749_1_alg».proof.Proof.K.Support
import proofs.«111453_j27599459844749_1_alg».proof.Proof.K.PropagateBody
import proofs.«111453_j27599459844749_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the support region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the support region's exit: its arrays at what the pipeline leaves, every other buffer as entered. -/
def W2 (c : Dev nD) : Valuation τ sig (Elt F) :=
  Pipeline.withArrays spec0 c (W1 m ρ c) fun w => (sdat (V1 m ρ) c).arrAt w cfg0.N
theorem W2_arr (c : Dev nD) (w : Fin cfg0.W) :
    W2 m ρ c (Proc.devRef .tc (Pipeline.arrRef spec0 w)) = (sdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (sdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the propagation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the propagation region's exit: its output array at what the write-backs leave, every other buffer as entered
    (its input arrays are not written; two of its windows read one array). -/
def W4 (c : Dev nD) : Valuation τ sig (Elt F) :=
  Function.update (W3 m ρ c) (Proc.devRef .tc main_v37) ((pdat (V3 m ρ) c).arrAt 5 cfg1.N)
theorem W4_out (c : Dev nD) : W4 m ρ c (Proc.devRef .tc main_v37) = (pdat (V3 m ρ) c).arrAt 5 cfg1.N := by
  unfold W4; exact Function.update_self _ _ _
theorem W4_of_ne (c : Dev nD) (b : Ref sig .tc) (hb : b ≠ main_v37) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((sdat (V1 m ρ) c).arrAt_in 0 rfl _).trans (sA_eq (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((sdat (V1 m ρ) c).arrAt_in 1 rfl _).trans (sA_eq (V1 m ρ) c 1))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.Kernel.Fr

end
-- ==== Proof.K.SharedArrays.lean ====
/-
  The propagation region's arrays and a core's unscoped buffers. Five distinct buffers stand behind the region's six
  windows: the dense adjacency, the scaled support (read through TWO windows: the column tile's rows and the row
  tile's rows), the degree factors, the bias row and the output. Entering the region, the scaled support's points-to
  at the full share is split into a left and a right half, one per window; leaving it, the two halves, still at the
  contents the region found, are joined again.
-/
import proofs.«111453_j27599459844749_1_alg».proof.Proof.K.PropagateData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the windows' arrays, listed. -/
theorem arrImage : Finset.univ.image (Pipeline.arrRef spec1) = [main_v18, main_v35, main_v34, main_v36, main_v37].toFinset := by decide

/-- The buffers behind the arrays, each whole at the full share, one by one. -/
theorem arrBufs_list (c : Dev nD) (V' : (b : Ref sig .tc) → Buf (Elt F) ((c : Thread nD τ).loc b)) :
    (Pipeline.arrBufs spec1 c V' : sProp 𝕄)
      = iprop((((c : Thread nD τ).loc main_v18) ↦{fullShare} V' main_v18) ∗ (((c : Thread nD τ).loc main_v35) ↦{fullShare} V' main_v35)
          ∗ (((c : Thread nD τ).loc main_v34) ↦{fullShare} V' main_v34) ∗ (((c : Thread nD τ).loc main_v36) ↦{fullShare} V' main_v36)
          ∗ (((c : Thread nD τ).loc main_v37) ↦{fullShare} V' main_v37)) :=
  bigSep_eq_bigSepL_of_eq [main_v18, main_v35, main_v34, main_v36, main_v37] arrImage (by decide) _

/-- The share each window holds of its array: the scaled support's two windows a half each. -/
abbrev shr : Fin 6 → PosShare TreeShare := ![fullShare, fullShare.left, fullShare.right, fullShare, fullShare, fullShare]

theorem share_eq (c : Dev nD) : ∀ w, (pdat V c).share w = shr w
  | ⟨0, _⟩ => rfl | ⟨1, _⟩ => rfl | ⟨2, _⟩ => rfl | ⟨3, _⟩ => rfl | ⟨4, _⟩ => rfl | ⟨5, _⟩ => rfl

/-- The region's arrays at contents `G`, window by window, each a whole buffer at the window's share. -/
theorem arrays_windows (c : Dev nD) (G : (w : Fin cfg1.W) → Buf (Elt F) ((cfg1.win w).arr.view.loc (c : Thread nD τ))) :
    ((pdat V c).arrays G : sProp 𝕄)
      = bigSep Finset.univ fun w : Fin 6 => ((((c : Thread nD τ).loc (Pipeline.arrRef spec1 w)) ↦{shr w} G w : sProp 𝕄)) := by
  unfold Dat.arrays
  exact bigSep_congr fun w _ => by rw [(arr_whole1 w).set_eq_univ, share_eq V c w]

set_option maxHeartbeats 4000000 in
/-- ENTRY: a core's unscoped buffers at `V` are the region's arrays at contents read off `V` and the unscoped rest. -/
theorem p_arrays_in (c : Dev nD) (G : (w : Fin cfg1.W) → Buf (Elt F) ((cfg1.win w).arr.view.loc (c : Thread nD τ)))
    (hG : ∀ w, G w = V c (Pipeline.arrRef spec1 w)) :
    (unscopedBufs c (V c) : sProp 𝕄)
      ⊢ iprop((pdat V c).arrays G ∗ Pipeline.unscopedRest spec1 c (V c)) := by
  have e : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [e]
  refine sep_mono ?_ .rfl
  rw [arrBufs_list, arrays_windows, bigSep_W1, hG 0, hG 1, hG 2, hG 3, hG 4, hG 5]
  iintro ⟨H18, H35, H34, H36, H37⟩
  ihave H35' := (pointsTo_share (PosShare.mem_left_op_right fullShare)).1 $$ H35
  icases H35' with ⟨H35l, H35r⟩
  isplitl [H18]; · iexact H18
  isplitl [H35l]; · iexact H35l
  isplitl [H35r]; · iexact H35r
  isplitl [H34]; · iexact H34
  isplitl [H36]; · iexact H36
  iexact H37

set_option maxHeartbeats 4000000 in
/-- EXIT: the region's arrays at contents `G` and the unscoped rest at `V` are the core's unscoped buffers at any
    valuation `V'` that has the arrays at `G` and agrees with `V` off them. -/
theorem p_arrays_out (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((pdat V c).arrays G ∗ Pipeline.unscopedRest spec1 c (V c))
      ⊢ (unscopedBufs c V' : sProp 𝕄) := by
  have e : (unscopedBufs c V' : sProp 𝕄) = iprop(Pipeline.arrBufs spec1 c V' ∗ Pipeline.unscopedRest spec1 c V') :=
    Pipeline.unscopedBufs_split₀ cfgs 1 winFacts₀1.arr_unscoped c V'
  rw [e]
  refine sep_mono ?_ (Entails.of_eq ?_)
  · rw [arrBufs_list, arrays_windows, bigSep_W1, hG 0, hG 1, hG 2, hG 3, hG 4, hG 5]
    iintro ⟨H18, H35l, H35r, H34, H36, H37⟩
    isplitl [H18]; · iexact H18
    isplitl [H35l H35r]
    · iapply (pointsTo_share (PosShare.mem_left_op_right fullShare)).2
      isplitl [H35l]; · iexact H35l
      iexact H35r
    isplitl [H34]; · iexact H34
    isplitl [H36]; · iexact H36
    iexact H37
  · unfold Pipeline.unscopedRest
    exact bigSep_congr fun b hb => by rw [hrest b (Finset.mem_sdiff.mp hb).2]

end Cert.Kernel.Fr

end
-- ==== Proof.K.Run.lean ====
/-
  The run of the whole program over its four items, ending with every unscoped buffer at the last boundary's contents.
-/
import proofs.«111453_j27599459844749_1_alg».proof.Proof.K.Bounds
import proofs.«111453_j27599459844749_1_alg».proof.Proof.K.SharedArrays

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => sdat (V1 m ρ) c
  | ⟨1, _⟩ => fun c => pdat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- At the propagation region's exit each of its arrays holds what the pipeline leaves — an input array what the region
    found, the output array its write-backs — and every other buffer what it held at entry. -/
theorem hF1 (c : Dev nD) : ∀ w, (pdat (V3 m ρ) c).arrAt w cfg1.N = V4 m ρ c (Pipeline.arrRef spec1 w)
  | ⟨0, _⟩ => ((pdat (V3 m ρ) c).arrAt_in 0 rfl _).trans ((pA_eq (V3 m ρ) c 0).trans (W4_of_ne m ρ c main_v18 (by decide)).symm)
  | ⟨1, _⟩ => ((pdat (V3 m ρ) c).arrAt_in 1 rfl _).trans ((pA_eq (V3 m ρ) c 1).trans (W4_of_ne m ρ c main_v35 (by decide)).symm)
  | ⟨2, _⟩ => ((pdat (V3 m ρ) c).arrAt_in 2 rfl _).trans ((pA_eq (V3 m ρ) c 2).trans (W4_of_ne m ρ c main_v35 (by decide)).symm)
  | ⟨3, _⟩ => ((pdat (V3 m ρ) c).arrAt_in 3 rfl _).trans ((pA_eq (V3 m ρ) c 3).trans (W4_of_ne m ρ c main_v34 (by decide)).symm)
  | ⟨4, _⟩ => ((pdat (V3 m ρ) c).arrAt_in 4 rfl _).trans ((pA_eq (V3 m ρ) c 4).trans (W4_of_ne m ρ c main_v36 (by decide)).symm)
  | ⟨5, _⟩ => (W4_out m ρ c).symm
theorem hrest1 (c : Dev nD) : ∀ b, b ∉ Finset.univ.image (Pipeline.arrRef spec1) → V4 m ρ c b = V3 m ρ c b :=
  fun b hb => W4_of_ne m ρ c b (fun e => hb (by rw [e, arrImage]; decide))

set_option backward.isDefEq.respectTransparency.types false in
/-- The support region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (sbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation region over the thread state: entered from every unscoped buffer at `W3`, left at `W4`. Its
    arrays are split out of the unscoped buffers with the scaled support halved between its two windows, and joined
    back at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (pbody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) :=
      p_arrays_in (V3 m ρ) c ((pdat (V3 m ρ) c).arrAt · 0) (fun w => pA_eq (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (p_hin (V3 m ρ) c)
    unfold Pipeline.ΦA
    iintro ⟨Hp, -, Hr⟩
    isplitl [Hr]; · iexact Hr
    iexact Hp
  hout c := by
    rw [Pipeline.ownSems0_none]
    refine BIBase.Entails.trans (p_hout (V3 m ρ) c) ?_
    unfold Pipeline.ΦA
    iintro ⟨Hr, Hp⟩
    isplitl [Hp]; · iexact Hp
    isplitr; · iempintro
    iexact Hr
  hexit c := by
    have hjoin : (iprop((pdats m ρ 1 c).arrays ((pdats m ρ 1 c).arrAt · cfg1.N) ∗ Pipeline.unscopedRest spec1 c (V3 m ρ c)) : sProp 𝕄)
        ⊢ unscopedBufs c (V4 m ρ c) :=
      p_arrays_out (V3 m ρ) c (V4 m ρ c) ((pdat (V3 m ρ) c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result array named: it ends at what the propagation region's write-backs leave. -/
theorem run_result : θ_run defs (onTc (τ := τ) (main (F := F))) ⟨m, fun _ => 0, ρ⟩ (fun r => ∀ c : Dev nD,
      r.2.mem ((c.tc : Thread nD τ).loc main_v37) = (pdat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v37 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Fr

end
-- ==== Proof.KI.PropagateBase.lean ====
/-
  The second kernel region: propagation. The grid is 8 row tiles by 4 column tiles of the dense adjacency; at point
  (i, k) the body adds (adjacency tile (i, k)) · (scaled-support rows of column tile k) into a 1024 × 128 accumulator
  held in a scratch buffer, which it zeroes first when k = 0; when k = 3 it adds the tile's own scaled-support rows
  (the self loop), scales each row by its degree factor, adds the bias row, and stores the result into the output
  block. This module holds what the three control cases share: the two conditions in closed form over the grid, where
  the output window is idle, the staging buffers' names, and the region's scoped buffers split into the accumulator
  and the rest.
-/
import proofs.«111453_j27599459844749_1_alg».proof.Proof.Gen.KernelIdeal.Launch
import proofs.«111453_j27599459844749_1_alg».proof.Proof.Gen.KernelIdeal.Skeleton
import proofs.«111453_j27599459844749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is zeroed at this point: the column-tile coordinate is 0. -/
abbrev condInit (i : grid1.Coords) : Prop := (Scalar.cmpi .ne (Scalar.extui (Scalar.cmpi .eq (BitVec.ofNat 32 (i 1).val) 0#32)) 0#32) = 1#1
theorem hcondInit : ∀ t : Fin cfg1.N, condInit (grid1.coords t) ↔ t.val % 4 = 0 :=
  (by decide +kernel : ∀ t : Fin grid1.N, condInit (grid1.coords t) ↔ t.val % 4 = 0)

/-- The output block is stored at this point: the column-tile coordinate is 3, the last. -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
/-- Off the last column tile the output window is idle and its block is not written back. -/
theorem idle1_5 : ∀ t : Fin cfg1.N, ¬condLast (grid1.coords t) → cfg1.idle 5 (grid1.coords t) = true := by decide +kernel
theorem noFlush1_5 : ∀ t : Fin cfg1.N, ¬condLast (grid1.coords t) → (cfg1.win 5).flush t = false := by decide +kernel
/-- On the last column tile the output window is live. -/
theorem live1_5 : ∀ t : Fin cfg1.N, condLast (grid1.coords t) → cfg1.idle 5 (grid1.coords t) = false := by decide +kernel

/-- Each window's current staging buffer at point `t`, spelled as the pipeline passes it, and its wholeness. -/
abbrev pm0 (t : Fin cfg1.N) : Memref sig .tc .vmem S1024x2048 .f32 := win1_0.stage (cfg1.slots t 0)
abbrev ph0 (t : Fin cfg1.N) : (pm0 t).IsWhole := hstage1_0 ((cfg1.slots t 0).cast nbuf1_0)
abbrev pm1 (t : Fin cfg1.N) : Memref sig .tc .vmem S2048x128 .f32 := win1_1.stage (cfg1.slots t 1)
abbrev ph1 (t : Fin cfg1.N) : (pm1 t).IsWhole := hstage1_1 ((cfg1.slots t 1).cast nbuf1_1)
abbrev pm2 (t : Fin cfg1.N) : Memref sig .tc .vmem S1024x128 .f32 := win1_2.stage (cfg1.slots t 2)
abbrev ph2 (t : Fin cfg1.N) : (pm2 t).IsWhole := hstage1_2 ((cfg1.slots t 2).cast nbuf1_2)
abbrev pm3 (t : Fin cfg1.N) : Memref sig .tc .vmem S1024x1 .f32 := win1_3.stage (cfg1.slots t 3)
abbrev ph3 (t : Fin cfg1.N) : (pm3 t).IsWhole := hstage1_3 ((cfg1.slots t 3).cast nbuf1_3)
abbrev pm4 (t : Fin cfg1.N) : Memref sig .tc .vmem S1x128 .f32 := win1_4.stage (cfg1.slots t 4)
abbrev ph4 (t : Fin cfg1.N) : (pm4 t).IsWhole := hstage1_4 ((cfg1.slots t 4).cast nbuf1_4)
abbrev pm5 (t : Fin cfg1.N) : Memref sig .tc .vmem S1024x128 .f32 := win1_5.stage (cfg1.slots t 5)
abbrev ph5 (t : Fin cfg1.N) : (pm5 t).IsWhole := hstage1_5 ((cfg1.slots t 5).cast nbuf1_5)
/-- The accumulator: a whole scoped buffer of the kernel's own. -/
abbrev accM : Memref sig .tc .vmem S1024x128 .f32 := Memref.whole cc1_scratch0
/-- The accumulator as a view, and one staging buffer of the output window as a view: contents are stated through them. -/
abbrev accV : View sig .tc .vmem S1024x128 .f32 := accM.view
abbrev outV : View sig .tc .vmem S1024x128 .f32 := (Memref.whole cc1_stg5_0 : Memref sig .tc .vmem S1024x128 .f32).view

/-- A scoped buffer held whole at some contents. -/
abbrev anyAt (c : Dev nD) (b : Ref sig .tc) : sProp 𝕄 :=
  iprop(∃ f : Buf (Elt F) ((c : Thread nD τ).loc b), ((c : Thread nD τ).loc b) ↦{fullShare} f)

/-- The region's scoped buffers other than the accumulator (the first region's staging buffers), each at anything. -/
def otherScoped (c : Dev nD) : sProp 𝕄 :=
  iprop(anyAt (F := F) c cc0_stg0_0 ∗ anyAt (F := F) c cc0_stg0_1 ∗ anyAt (F := F) c cc0_stg1_0 ∗ anyAt (F := F) c cc0_stg2_0
    ∗ anyAt (F := F) c cc0_stg2_1 ∗ anyAt (F := F) c cc0_stg3_0 ∗ anyAt (F := F) c cc0_stg3_1)

/-- The class invariant (every scoped non-staging buffer at anything, the generator register at some state) with the
    accumulator singled out as an owned memref: one direction, -/
theorem phiA_open (c : Dev nD) :
    (Pipeline.ΦA spec1 c : sProp 𝕄)
      ⊢ iprop(otherScoped (F := F) c ∗ (∃ d, owns (c : Thread nD τ) accM fullShare d) ∗ (∃ r, prngReg c r)) := by
  unfold Pipeline.ΦA; rw [scopedRest1_eq]; unfold otherScoped
  simp only [accM, owns_whole]
  iintro ⟨⟨H0, H1, H2, H3, H4, H5, H6, H7⟩, Hg⟩
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  iexact Hg

/-- and the other. -/
theorem phiA_close (c : Dev nD) :
    (iprop(otherScoped (F := F) c ∗ (∃ d, owns (c : Thread nD τ) accM fullShare d) ∗ (∃ r, prngReg c r)) : sProp 𝕄)
      ⊢ Pipeline.ΦA spec1 c := by
  unfold Pipeline.ΦA; rw [scopedRest1_eq]; unfold otherScoped
  simp only [accM, owns_whole]
  iintro ⟨⟨H0, H1, H2, H3, H4, H5, H6⟩, H7, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hg

end Cert.KernelIdeal.Fr

end
-- ==== Proof.KI.PropagateInit.lean ====
/-
  The propagation body at a point of the first column tile (k = 0, not the last): the accumulator, found at anything,
  is zeroed and then receives the tile's product; the output block is not touched. The stores into the accumulator,
  last first, are the witness the symbolic run finds.
-/
import proofs.«111453_j27599459844749_1_alg».proof.Proof.KI.PropagateBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runInit (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i)
    (x0 : Vec F S1024x2048 .f32) (x1 : Vec F S2048x128 .f32) (x2 : Vec F S1024x128 .f32) (x3 : Vec F S1024x1 .f32) (x4 : Vec F S1x128 .f32) :
    { LS : List (View.Piece (Elt F) S1024x128 .f32) //
      ∀ (xo : Vec F S1024x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, fun xo E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

end Cert.KernelIdeal.Fr

end
-- ==== Proof.KI.PropagateMid.lean ====
/-
  The propagation body at a point of a middle column tile (k = 1 or 2): the accumulator, found at what the point
  before left, receives its contents plus the tile's product; the output block is not touched.
-/
import proofs.«111453_j27599459844749_1_alg».proof.Proof.KI.PropagateBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runMid (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i)
    (x0 : Vec F S1024x2048 .f32) (x1 : Vec F S2048x128 .f32) (x2 : Vec F S1024x128 .f32) (x3 : Vec F S1024x1 .f32) (x4 : Vec F S1x128 .f32) (xs : Vec F S1024x128 .f32) :
    { LS : List (View.Piece (Elt F) S1024x128 .f32) //
      ∀ (xo : Vec F S1024x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, fun xo E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hfs
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact HS

end Cert.KernelIdeal.Fr

end
-- ==== Proof.KI.PropagateLast.lean ====
/-
  The propagation body at a point of the last column tile (k = 3): the accumulator receives its contents plus the
  tile's product, and the output block is stored: (accumulator + the tile's own scaled-support rows) scaled row by row
  by the degree factor, plus the bias row.
-/
import proofs.«111453_j27599459844749_1_alg».proof.Proof.KI.PropagateBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def runLast (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i)
    (x0 : Vec F S1024x2048 .f32) (x1 : Vec F S2048x128 .f32) (x2 : Vec F S1024x128 .f32) (x3 : Vec F S1024x1 .f32) (x4 : Vec F S1x128 .f32) (xs : Vec F S1024x128 .f32) :
    Σ' (L5 : List (View.Piece (Elt F) S1024x128 .f32)), { LS : List (View.Piece (Elt F) S1024x128 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d) ∗ owns (c : Thread nD τ) a8 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L5) ∗ (∃ f, a8.view.loc (c : Thread nD τ) ↦[a8.view.set]{fullShare} a8.view.writes (Elt F) f LS)) -∗ K ⟨⟩))
          ⊢ wp frame (wpE (defs₀ (F := F)) Variants.none c none) E (cc1__propagate_kernel_body i a2 h2 a3 h3 a4 h4 a5 h5 a6 h6 a7 h7 a8 h8) K } := by
  refine ⟨?_, ?_, fun E K => ?run⟩
  case run =>
    simp only [cc1__propagate_kernel_body_eq_skeleton]; unfold cc1__propagate_kernel_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := h2.eq_unread hf0; obtain rfl := h3.eq_unread hf1; obtain rfl := h4.eq_unread hf2; obtain rfl := h5.eq_unread hf3; obtain rfl := h6.eq_unread hf4; obtain rfl := h8.eq_unread hfs
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    iexists _; iexact HS

end Cert.KernelIdeal.Fr

end
-- ==== Proof.KI.PropagateData.lean ====
/-
  The propagation region's proof data. After each grid point the accumulator holds a definite array (`accAt`): at a
  point of column tile 0 what the zero-then-add case leaves, otherwise what the add case leaves over the point before;
  the output block after a point of the last column tile is what the finishing case stores, computed from the
  accumulator the point before left. The region invariant carries the accumulator at `accAt` from one point to the
  next. Stated at ANY contents `V` the region is entered from.
-/
import proofs.«111453_j27599459844749_1_alg».proof.Proof.KI.PropagateInit
import proofs.«111453_j27599459844749_1_alg».proof.Proof.KI.PropagateMid
import proofs.«111453_j27599459844749_1_alg».proof.Proof.KI.PropagateLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the propagation region, read off its array as the region finds it. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index did not move since the point before is not fetched again). -/
theorem pbefore0_of {c : Dev nD} (dat : Dat τ (Elt F) Unit ℕ (UR sig nD τ) ℕ cfg1 c) (hA : dat.A 0 = V c (Pipeline.arrRef spec1 0))
    (hafter : ∀ t, dat.after 0 t = pblk V c 0 t) (t : Fin cfg1.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)
theorem pbefore1_of {c : Dev nD} (dat : Dat τ (Elt F) Unit ℕ (UR sig nD τ) ℕ cfg1 c) (hA : dat.A 1 = V c (Pipeline.arrRef spec1 1))
    (hafter : ∀ t, dat.after 1 t = pblk V c 1 t) (t : Fin cfg1.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)
theorem pbefore2_of {c : Dev nD} (dat : Dat τ (Elt F) Unit ℕ (UR sig nD τ) ℕ cfg1 c) (hA : dat.A 2 = V c (Pipeline.arrRef spec1 2))
    (hafter : ∀ t, dat.after 2 t = pblk V c 2 t) (t : Fin cfg1.N) (d) : dat.before 2 t d = pblk V c 2 t :=
  (dat.before_in_eq_fetched 2 rfl (fun _ => rfl) (fun _ _ _ => rfl) (fun t => by rw [hafter]; unfold Dat.blockOf pblk; rw [hA]; try rfl) t d).trans
    (by unfold Dat.fetched Dat.blockOf pblk; rw [hA]; try rfl)
theorem pbefore3_of {c : Dev nD} (dat : Dat τ (Elt F) Unit ℕ (UR sig nD τ) ℕ cfg1 c) (hA : dat.A 3 = V c (Pipeline.arrRef spec1 3))
    (hafter : ∀ t, dat.after 3 t = pblk V c 3 t) (t : Fin cfg1.N) (d) : dat.before 3 t d = pblk V c 3 t :=
  (dat.before_in_eq_fetched 3 rfl (fun _ => rfl) (fun _ _ _ => rfl) (fun t => by rw [hafter]; unfold Dat.blockOf pblk; rw [hA]; try rfl) t d).trans
    (by unfold Dat.fetched Dat.blockOf pblk; rw [hA]; try rfl)
theorem pbefore4_of {c : Dev nD} (dat : Dat τ (Elt F) Unit ℕ (UR sig nD τ) ℕ cfg1 c) (hA : dat.A 4 = V c (Pipeline.arrRef spec1 4))
    (hafter : ∀ t, dat.after 4 t = pblk V c 4 t) (t : Fin cfg1.N) (d) : dat.before 4 t d = pblk V c 4 t :=
  (dat.before_in_eq_fetched 4 rfl (fun _ => rfl) (fun _ _ _ => rfl) (fun t => by rw [hafter]; unfold Dat.blockOf pblk; rw [hA]; try rfl) t d).trans
    (by unfold Dat.fetched Dat.blockOf pblk; rw [hA]; try rfl)

/-! ## What each case leaves -/

theorem initCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i) (x0 : Vec F S1024x2048 .f32) (x1 : Vec F S2048x128 .f32) (x2 : Vec F S1024x128 .f32) (x3 : Vec F S1024x1 .f32) (x4 : Vec F S1x128 .f32) (y : S1024x128.Idx) :
    ∃ pc ∈ (runInit c i a2 h2 a3 h3 a4 h4 a5 h5 a6 h6 a7 h7 a8 h8 hc1 hc2 x0 x1 x2 x3 x4).1, y ∈ pc.1.set :=
  View.cover_of_tiledL (runInit c i a2 h2 a3 h3 a4 h4 a5 h5 a6 h6 a7 h7 a8 h8 hc1 hc2 x0 x1 x2 x3 x4).1 S1024x128.size (by sl_kernel_rfl) y
/-- The accumulator after a point of column tile 0. -/
def initAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i) (x0 : Vec F S1024x2048 .f32) (x1 : Vec F S2048x128 .f32) (x2 : Vec F S1024x128 .f32) (x3 : Vec F S1024x1 .f32) (x4 : Vec F S1x128 .f32) : Vec F S1024x128 .f32 :=
  accV.read (Elt F) (accV.writes (Elt F) accV.junk (runInit c i a2 h2 a3 h3 a4 h4 a5 h5 a6 h6 a7 h7 a8 h8 hc1 hc2 x0 x1 x2 x3 x4).1)

theorem midCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runMid c i a2 h2 a3 h3 a4 h4 a5 h5 a6 h6 a7 h7 a8 h8 hc1 hc2 x0 x1 x2 x3 x4 xs).1, y ∈ pc.1.set :=
  View.cover_of_tiledL (runMid c i a2 h2 a3 h3 a4 h4 a5 h5 a6 h6 a7 h7 a8 h8 hc1 hc2 x0 x1 x2 x3 x4 xs).1 S1024x128.size (by sl_kernel_rfl) y
/-- The accumulator after a point of a middle column tile, over what the point before left (`xs`). -/
def midAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  accV.read (Elt F) (accV.writes (Elt F) accV.junk (runMid c i a2 h2 a3 h3 a4 h4 a5 h5 a6 h6 a7 h7 a8 h8 hc1 hc2 x0 x1 x2 x3 x4 xs).1)

theorem lastCoverAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runLast c i a2 h2 a3 h3 a4 h4 a5 h5 a6 h6 a7 h7 a8 h8 hc1 hc2 x0 x1 x2 x3 x4 xs).2.1, y ∈ pc.1.set :=
  View.cover_of_tiledL (runLast c i a2 h2 a3 h3 a4 h4 a5 h5 a6 h6 a7 h7 a8 h8 hc1 hc2 x0 x1 x2 x3 x4 xs).2.1 S1024x128.size (by sl_kernel_rfl) y
/-- The accumulator after a point of the last column tile. -/
def lastAcc (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  accV.read (Elt F) (accV.writes (Elt F) accV.junk (runLast c i a2 h2 a3 h3 a4 h4 a5 h5 a6 h6 a7 h7 a8 h8 hc1 hc2 x0 x1 x2 x3 x4 xs).2.1)
theorem lastCoverOut (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) (y : S1024x128.Idx) :
    ∃ pc ∈ (runLast c i a2 h2 a3 h3 a4 h4 a5 h5 a6 h6 a7 h7 a8 h8 hc1 hc2 x0 x1 x2 x3 x4 xs).1, y ∈ pc.1.set :=
  View.cover_of_tiledL (runLast c i a2 h2 a3 h3 a4 h4 a5 h5 a6 h6 a7 h7 a8 h8 hc1 hc2 x0 x1 x2 x3 x4 xs).1 S1024x128.size (by sl_kernel_rfl) y
/-- The output block after a point of the last column tile. -/
def lastOut (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) : Vec F S1024x128 .f32 :=
  outV.read (Elt F) (outV.writes (Elt F) outV.junk (runLast c i a2 h2 a3 h3 a4 h4 a5 h5 a6 h6 a7 h7 a8 h8 hc1 hc2 x0 x1 x2 x3 x4 xs).1)

/-! ## The accumulator point by point -/

/-- THE ACCUMULATION: what the accumulator holds after the body at position `n`. -/
def accAt (c : Dev nD) : (n : ℕ) → n < cfg1.N → Vec F S1024x128 .f32
  | 0, hn => initAcc c (grid1.coords ⟨0, hn⟩) (pm0 ⟨0, hn⟩) (ph0 ⟨0, hn⟩) (pm1 ⟨0, hn⟩) (ph1 ⟨0, hn⟩) (pm2 ⟨0, hn⟩) (ph2 ⟨0, hn⟩) (pm3 ⟨0, hn⟩) (ph3 ⟨0, hn⟩) (pm4 ⟨0, hn⟩) (ph4 ⟨0, hn⟩) (pm5 ⟨0, hn⟩) (ph5 ⟨0, hn⟩) accM (Memref.isWhole_whole _) ((hcondInit ⟨0, hn⟩).mpr (Nat.zero_mod _)) (fun h => (fun h => by (try dsimp only at h); omega) ((hcondLast ⟨0, hn⟩).mp h)) (pblk V c 0 ⟨0, hn⟩) (pblk V c 1 ⟨0, hn⟩) (pblk V c 2 ⟨0, hn⟩) (pblk V c 3 ⟨0, hn⟩) (pblk V c 4 ⟨0, hn⟩)
  | n + 1, hn =>
    if h0 : (n + 1) % 4 = 0 then
      initAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) ((hcondInit ⟨n + 1, hn⟩).mpr h0) (fun h => (fun h => by (try dsimp only at h); omega) ((hcondLast ⟨n + 1, hn⟩).mp h)) (pblk V c 0 ⟨n + 1, hn⟩) (pblk V c 1 ⟨n + 1, hn⟩) (pblk V c 2 ⟨n + 1, hn⟩) (pblk V c 3 ⟨n + 1, hn⟩) (pblk V c 4 ⟨n + 1, hn⟩)
    else
      if h3 : (n + 1) % 4 = 3 then
        lastAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) (fun h => h0 ((hcondInit ⟨n + 1, hn⟩).mp h)) ((hcondLast ⟨n + 1, hn⟩).mpr h3) (pblk V c 0 ⟨n + 1, hn⟩) (pblk V c 1 ⟨n + 1, hn⟩) (pblk V c 2 ⟨n + 1, hn⟩) (pblk V c 3 ⟨n + 1, hn⟩) (pblk V c 4 ⟨n + 1, hn⟩) (accAt c n (Nat.lt_of_succ_lt hn))
      else
        midAcc c (grid1.coords ⟨n + 1, hn⟩) (pm0 ⟨n + 1, hn⟩) (ph0 ⟨n + 1, hn⟩) (pm1 ⟨n + 1, hn⟩) (ph1 ⟨n + 1, hn⟩) (pm2 ⟨n + 1, hn⟩) (ph2 ⟨n + 1, hn⟩) (pm3 ⟨n + 1, hn⟩) (ph3 ⟨n + 1, hn⟩) (pm4 ⟨n + 1, hn⟩) (ph4 ⟨n + 1, hn⟩) (pm5 ⟨n + 1, hn⟩) (ph5 ⟨n + 1, hn⟩) accM (Memref.isWhole_whole _) (fun h => h0 ((hcondInit ⟨n + 1, hn⟩).mp h)) (fun h => h3 ((hcondLast ⟨n + 1, hn⟩).mp h)) (pblk V c 0 ⟨n + 1, hn⟩) (pblk V c 1 ⟨n + 1, hn⟩) (pblk V c 2 ⟨n + 1, hn⟩) (pblk V c 3 ⟨n + 1, hn⟩) (pblk V c 4 ⟨n + 1, hn⟩) (accAt c n (Nat.lt_of_succ_lt hn))

theorem accAt_init (c : Dev nD) (t : Fin cfg1.N) (h0 : t.val % 4 = 0) (h3 : ¬t.val % 4 = 3) :
    accAt V c t.val t.isLt = initAcc c (grid1.coords t) (pm0 t) (ph0 t) (pm1 t) (ph1 t) (pm2 t) (ph2 t) (pm3 t) (ph3 t) (pm4 t) (ph4 t) (pm5 t) (ph5 t) accM (Memref.isWhole_whole _) ((hcondInit t).mpr h0) (fun h => h3 ((hcondLast t).mp h)) (pblk V c 0 t) (pblk V c 1 t) (pblk V c 2 t) (pblk V c 3 t) (pblk V c 4 t) := by
  obtain ⟨n, hn⟩ := t
  cases n with
  | zero => exact rfl
  | succ n => exact (dif_pos h0).trans rfl

theorem accAt_mid (c : Dev nD) (t : Fin cfg1.N) (h0 : ¬t.val % 4 = 0) (h3 : ¬t.val % 4 = 3) :
    accAt V c t.val t.isLt = midAcc c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) (fun h => h3 ((hcondLast t).mp h)) (pblk V c 0 t) (pblk V c 1 t) (pblk V c 2 t) (pblk V c 3 t) (pblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

theorem accAt_last (c : Dev nD) (t : Fin cfg1.N) (h0 : ¬t.val % 4 = 0) (h3 : t.val % 4 = 3) :
    accAt V c t.val t.isLt = lastAcc c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- What the output window's staging buffer holds after the body at point `t`: at a point of the last column tile
    what the finishing case stores; elsewhere a placeholder nothing consults (the window is idle there and its block is
    not written back). -/
def outAt (c : Dev nD) (t : Fin cfg1.N) : Vec F S1024x128 .f32 :=
  if h3 : t.val % 4 = 3 then
    lastOut c (grid1.coords t) (pm0 t) (ph0 t) (pm1 t) (ph1 t) (pm2 t) (ph2 t) (pm3 t) (ph3 t) (pm4 t) (ph4 t) (pm5 t) (ph5 t) accM (Memref.isWhole_whole _) (fun h => (fun h => by (try dsimp only at h); omega) ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt))
  else outV.read (Elt F) outV.junk

theorem outAt_last (c : Dev nD) (t : Fin cfg1.N) (h0 : ¬t.val % 4 = 0) (h3 : t.val % 4 = 3) :
    outAt V c t = lastOut c (grid1.coords t) (pm0 t) (ph0 t) (pm1 t) (ph1 t) (pm2 t) (ph2 t) (pm3 t) (ph3 t) (pm4 t) (ph4 t) (pm5 t) (ph5 t) accM (Memref.isWhole_whole _) (fun h => h0 ((hcondInit t).mp h)) ((hcondLast t).mpr h3) (pblk V c 0 t) (pblk V c 1 t) (pblk V c 2 t) (pblk V c 3 t) (pblk V c 4 t) (accAt V c (t.val - 1) (Nat.lt_of_le_of_lt (Nat.sub_le _ _) t.isLt)) := by
  unfold outAt; exact dif_pos h3

/-! ## The invariant and the proof data -/

/-- The region invariant before position `n`: before the first point the class's (every scoped non-staging buffer at
    anything); afterwards the accumulator at what the point before left, the other scoped buffers at anything, the
    generator register at some state. -/
def PhiS (c : Dev nD) : (n : ℕ) → n ≤ cfg1.N → sProp 𝕄
  | 0, _ => Pipeline.ΦA spec1 c
  | n + 1, hn => iprop(otherScoped (F := F) c ∗ owns (c : Thread nD τ) accM fullShare (accAt V c n hn) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(otherScoped (F := F) c ∗ owns (c : Thread nD τ) accM fullShare (accAt V c n hn) ∗ (∃ r, prngReg c r)) := rfl
theorem PhiS_pos (c : Dev nD) (n : ℕ) (h : n ≤ cfg1.N) (hz : n ≠ 0) :
    PhiS V c n h = iprop(otherScoped (F := F) c ∗ owns (c : Thread nD τ) accM fullShare (accAt V c (n - 1) (by omega)) ∗ (∃ r, prngReg c r)) := by
  cases n with
  | zero => exact absurd rfl hz
  | succ n => rfl

/-- The propagation region's proof data on core `c`. The scaled support is read through two windows (the column
    tile's rows and the row tile's rows): each holds half of the array's share. -/
def pdat (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => pblk V c 2 t
    | ⟨3, _⟩ => pblk V c 3 t
    | ⟨4, _⟩ => pblk V c 4 t
    | ⟨5, _⟩ => outAt V c t
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem pA_eq (c : Dev nD) (w : Fin cfg1.W) : (pdat V c).A w = V c (Pipeline.arrRef spec1 w) := by
  dsimp only [pdat]
theorem PhiS_castSucc (c : Dev nD) (t : Fin cfg1.N) :
    (pdat V c).Φ t.castSucc = PhiS V c t.val (Nat.le_of_lt t.isLt) := by
  dsimp only [pdat]; simp only [Fin.coe_castSucc]
theorem pafter0 (c : Dev nD) (t : Fin cfg1.N) : (pdat V c).after 0 t = pblk V c 0 t := by dsimp only [pdat]
theorem pafter1 (c : Dev nD) (t : Fin cfg1.N) : (pdat V c).after 1 t = pblk V c 1 t := by dsimp only [pdat]
theorem pafter2 (c : Dev nD) (t : Fin cfg1.N) : (pdat V c).after 2 t = pblk V c 2 t := by dsimp only [pdat]
theorem pafter3 (c : Dev nD) (t : Fin cfg1.N) : (pdat V c).after 3 t = pblk V c 3 t := by dsimp only [pdat]
theorem pafter4 (c : Dev nD) (t : Fin cfg1.N) : (pdat V c).after 4 t = pblk V c 4 t := by dsimp only [pdat]
theorem pafter5 (c : Dev nD) (t : Fin cfg1.N) : (pdat V c).after 5 t = outAt V c t := by dsimp only [pdat]
theorem pbefore0 (c : Dev nD) (t : Fin cfg1.N) (d) : (pdat V c).before 0 t d = pblk V c 0 t :=
  pbefore0_of V (pdat V c) (pA_eq V c 0) (pafter0 V c) t d
theorem pbefore1 (c : Dev nD) (t : Fin cfg1.N) (d) : (pdat V c).before 1 t d = pblk V c 1 t :=
  pbefore1_of V (pdat V c) (pA_eq V c 1) (pafter1 V c) t d
theorem pbefore2 (c : Dev nD) (t : Fin cfg1.N) (d) : (pdat V c).before 2 t d = pblk V c 2 t :=
  pbefore2_of V (pdat V c) (pA_eq V c 2) (pafter2 V c) t d
theorem pbefore3 (c : Dev nD) (t : Fin cfg1.N) (d) : (pdat V c).before 3 t d = pblk V c 3 t :=
  pbefore3_of V (pdat V c) (pA_eq V c 3) (pafter3 V c) t d
theorem pbefore4 (c : Dev nD) (t : Fin cfg1.N) (d) : (pdat V c).before 4 t d = pblk V c 4 t :=
  pbefore4_of V (pdat V c) (pA_eq V c 4) (pafter4 V c) t d

end Cert.KernelIdeal.Fr

end
-- ==== Proof.KI.Support.lean ====
/-
  The first kernel region: the scaled support. At grid point t (one of eight row tiles) the body loads the
  tile's 1024 rows of the features, the whole weight matrix and the tile's 1024 inverse square-root degrees,
  and stores the product (x tile) · W with each row scaled by that row's degree factor into the tile's output block.
  This module states what the body leaves in the output block as a function of the three input blocks, proves the
  body's triple on whole staging buffers, and packages it as the region's proof data at ANY contents `V` the region
  is entered from.
-/
import proofs.«111453_j27599459844749_1_alg».proof.Proof.Gen.KernelIdeal.Launch
import proofs.«111453_j27599459844749_1_alg».proof.Proof.Gen.KernelIdeal.Skeleton
import proofs.«111453_j27599459844749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the support region, read off its array as the region finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the weight
    matrix is fetched once: its block index never moves). -/
theorem sbefore0_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)
theorem sbefore1_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)
theorem sbefore2_of {c : Dev nD} (dat : Dat τ (Elt F) Unit ℕ (UR sig nD τ) ℕ cfg0 c) (hA : dat.A 2 = V c (Pipeline.arrRef spec0 2))
    (hafter : ∀ t, dat.after 2 t = sblk V c 2 t) (t : Fin cfg0.N) (d) : dat.before 2 t d = sblk V c 2 t :=
  (dat.before_in_eq_fetched 2 rfl (fun _ => rfl) (fun _ _ _ => rfl) (fun t => by rw [hafter]; unfold Dat.blockOf sblk; rw [hA]; try rfl) t d).trans
    (by unfold Dat.fetched Dat.blockOf sblk; rw [hA]; try rfl)

/-- The whole-buffer rectangles the body loads and stores through. -/
abbrev rX : Rect S1024x128 := Rect.unit (s := S1024x128) ![0, 0] S1024x128.size inb_S1024x128_S1024x128_0_0
abbrev rW : Rect S128x128 := Rect.unit (s := S128x128) ![0, 0] S128x128.size inb_S128x128_S128x128_0_0
abbrev rD : Rect S1024x1 := Rect.unit (s := S1024x1) ![0, 0] S1024x1.size inb_S1024x1_S1024x1_0_0

/-- What the body leaves in the output block: its one store's payload of the three loaded blocks. -/
def sout (x0 : Vec F S1024x128 .f32) (x1 : Vec F S128x128 .f32) (x2 : Vec F S1024x1 .f32) : Vec F S1024x128 .f32 :=
  View.canon [⟨rX, k0_pay1 (View.ld x0 rX) (View.ld x1 rW) (View.ld x2 rD)⟩]

/-- The one store covers the output block. -/
theorem scover (p0 : Vec F S1024x128 .f32) (y : S1024x128.Idx) :
    ∃ pc ∈ ([⟨rX, p0⟩] : List (View.Piece (Elt F) S1024x128 .f32)), y ∈ pc.1.set :=
  View.cover_of_tiled [⟨rX, p0⟩] S1024x128.size (by rfl) y

set_option maxHeartbeats 1000000 in
/-- The body on whole staging buffers: the inputs at their contents are handed back unchanged, the output at `sout`. -/
theorem sound_support (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S1024x1 .f32) (harg3 : arg3.IsWhole) (arg4 : Memref sig .tc .vmem S1024x128 .f32) (harg4 : arg4.IsWhole)
    (x0 : Vec F S1024x128 .f32) (x1 : Vec F S128x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (sout x0 x1 x2)) -∗ K ⟨⟩))
      ⊢ wp frame (wpE (defs₀ (F := F)) Variants.none c none) E (cc0__support_kernel_body i arg1 harg1 arg2 harg2 arg3 harg3 arg4 harg4) K := by
  simp only [cc0__support_kernel_body_eq_skeleton]; unfold cc0__support_kernel_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scover _)

/-- The support region's proof data on core `c`: the arrays as the region finds them; after the body each input's
    buffer at its block, the output's at `sout` of the input blocks; the scoped rest and the generator register
    untouched; nothing owed; full shares. -/
def sdat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => sblk V c 2 t
    | ⟨3, _⟩ => sout (sblk V c 0 t) (sblk V c 1 t) (sblk V c 2 t)
  Φ _ := Pipeline.ΦA spec0 c
  q _ := fullShare
  owed _ := 0

theorem sA_eq (c : Dev nD) (w : Fin cfg0.W) : (sdat V c).A w = V c (Pipeline.arrRef spec0 w) := by
  dsimp only [sdat]
theorem safter0 (c : Dev nD) (t : Fin cfg0.N) : (sdat V c).after 0 t = sblk V c 0 t := by dsimp only [sdat]
theorem safter1 (c : Dev nD) (t : Fin cfg0.N) : (sdat V c).after 1 t = sblk V c 1 t := by dsimp only [sdat]
theorem safter2 (c : Dev nD) (t : Fin cfg0.N) : (sdat V c).after 2 t = sblk V c 2 t := by dsimp only [sdat]
theorem safter3 (c : Dev nD) (t : Fin cfg0.N) : (sdat V c).after 3 t = sout (sblk V c 0 t) (sblk V c 1 t) (sblk V c 2 t) := by dsimp only [sdat]

theorem sbefore0 (c : Dev nD) (t : Fin cfg0.N) (d) : (sdat V c).before 0 t d = sblk V c 0 t :=
  sbefore0_of V (sdat V c) (sA_eq V c 0) (safter0 V c) t d
theorem sbefore1 (c : Dev nD) (t : Fin cfg0.N) (d) : (sdat V c).before 1 t d = sblk V c 1 t :=
  sbefore1_of V (sdat V c) (sA_eq V c 1) (safter1 V c) t d
theorem sbefore2 (c : Dev nD) (t : Fin cfg0.N) (d) : (sdat V c).before 2 t d = sblk V c 2 t :=
  sbefore2_of V (sdat V c) (sA_eq V c 2) (safter2 V c) t d

/-- What the body is called with at point `t`, the windows one by one, -/
def sbodyPre (c : Dev nD) (t : Fin cfg0.N) : sProp 𝕄 :=
  iprop((sdat V c).Φ t.castSucc ∗ (sdat V c).owesAt () t.castSucc
    ∗ (∃ d, owns (c : Thread nD τ) (st0_0 t) fullShare ((sdat V c).before 0 t d))
    ∗ (∃ d, owns (c : Thread nD τ) (st0_1 t) fullShare ((sdat V c).before 1 t d))
    ∗ (∃ d, owns (c : Thread nD τ) (st0_2 t) fullShare ((sdat V c).before 2 t d))
    ∗ (∃ d, owns (c : Thread nD τ) (st0_3 t) fullShare ((sdat V c).before 3 t d)))

/-- and what it returns. -/
def sbodyPost (c : Dev nD) (t : Fin cfg0.N) : sProp 𝕄 :=
  iprop((sdat V c).Φ t.succ ∗ (sdat V c).owesAt () t.succ
    ∗ owns (c : Thread nD τ) (st0_0 t) fullShare ((sdat V c).after 0 t)
    ∗ owns (c : Thread nD τ) (st0_1 t) fullShare ((sdat V c).after 1 t)
    ∗ owns (c : Thread nD τ) (st0_2 t) fullShare ((sdat V c).after 2 t)
    ∗ owns (c : Thread nD τ) (st0_3 t) fullShare ((sdat V c).after 3 t))

theorem sound_sbody (c : Dev nD) (t : Fin cfg0.N) :
    sbodyPre V c t ⊢ wp frame (wpE (defs₀ (F := F)) Variants.none c none) Set.univ (bodyAt0 t) (fun _ => sbodyPost V c t) := by
  unfold sbodyPre sbodyPost bodyAt0
  simp only [sbefore0, sbefore1, sbefore2]
  rw [show (sdat V c).Φ t.succ = (sdat V c).Φ t.castSucc from rfl,
    show (sdat V c).owesAt () t.succ = (sdat V c).owesAt () t.castSucc from rfl,
    safter0, safter1, safter2, safter3]
  iintro ⟨HΦ, Ho, ⟨%d0, H0⟩, ⟨%d1, H1⟩, ⟨%d2, H2⟩, ⟨%d3, H3⟩⟩
  iapply (sound_support c Set.univ _ _ _ _ _ _ _ _ _ (sblk V c 0 t) (sblk V c 1 t) (sblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the support region, at every point. -/
theorem sbody_obligation (c : Dev nD) : BodyObligation (sdat (F := F) V c) (defs₀ (F := F)) Variants.none () Set.univ := fun t => by
  rw [bigSep_W0, bigSep_W0]
  exact sound_sbody V c t

end Cert.KernelIdeal.Fr

end
-- ==== Proof.KI.Pieces.lean ====
/-
  What each control case of the two bodies leaves in a buffer, as the body's arithmetic applied to the buffers it loaded:
  the pieces the symbolic runs found, read back.
-/
import proofs.«111453_j27599459844749_1_alg».proof.Proof.KI.PropagateData
import proofs.«111453_j27599459844749_1_alg».proof.Proof.KI.Support
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The support body stores (x tile · W) scaled by the degree factors. -/
theorem sout_eq (x0 : Vec F S1024x128 .f32) (x1 : Vec F S128x128 .f32) (x2 : Vec F S1024x1 .f32) :
    sout x0 x1 x2 = k0_pay1 x0 x1 x2 := by
  unfold sout
  rw [View.canon_unit_zero hz2]
  simp only [View.ld_unit_zero (S := S1024x128) hz2, View.ld_unit_zero (S := S128x128) hz2, View.ld_unit_zero (S := S1024x1) hz2]

/-- The first column tile zeroes the accumulator and adds its product. -/
theorem initAcc_eq (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : condInit i) (hc2 : ¬condLast i) (x0 : Vec F S1024x2048 .f32) (x1 : Vec F S2048x128 .f32) (x2 : Vec F S1024x128 .f32) (x3 : Vec F S1024x1 .f32) (x4 : Vec F S1x128 .f32) :
    initAcc c i a2 h2 a3 h3 a4 h4 a5 h5 a6 h6 a7 h7 a8 h8 hc1 hc2 x0 x1 x2 x3 x4 = k1_pay2 x0 x1 (k1_pay1 (F := F)) := by
  unfold initAcc
  rw [View.read_writes_eq_canon _ _ _ (initCoverAcc c i a2 h2 a3 h3 a4 h4 a5 h5 a6 h6 a7 h7 a8 h8 hc1 hc2 x0 x1 x2 x3 x4)]
  unfold runInit
  dsimp only
  try sl_unfold_words
  rw [View.canon_cons_unit_zero hz2, View.readCov_unit_zero (S := S1024x128) _ hz2]
  simp only [View.readAt_eq_ld, h2.read_unread, h3.read_unread, h4.read_unread, h5.read_unread, h6.read_unread, h8.read_unread, View.ld_unit_zero (S := S1024x2048) hz2, View.ld_unit_zero (S := S2048x128) hz2, View.ld_unit_zero (S := S1024x128) hz2, View.ld_unit_zero (S := S1024x1) hz2, View.ld_unit_zero (S := S1x128) hz2]

/-- A middle column tile adds its product onto the accumulator. -/
theorem midAcc_eq (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : ¬condLast i) (x0 : Vec F S1024x2048 .f32) (x1 : Vec F S2048x128 .f32) (x2 : Vec F S1024x128 .f32) (x3 : Vec F S1024x1 .f32) (x4 : Vec F S1x128 .f32) (xs : Vec F S1024x128 .f32) :
    midAcc c i a2 h2 a3 h3 a4 h4 a5 h5 a6 h6 a7 h7 a8 h8 hc1 hc2 x0 x1 x2 x3 x4 xs = k1_pay2 x0 x1 xs := by
  unfold midAcc
  rw [View.read_writes_eq_canon _ _ _ (midCoverAcc c i a2 h2 a3 h3 a4 h4 a5 h5 a6 h6 a7 h7 a8 h8 hc1 hc2 x0 x1 x2 x3 x4 xs)]
  unfold runMid
  dsimp only
  try sl_unfold_words
  rw [View.canon_unit_zero hz2]
  simp only [View.readAt_eq_ld, h2.read_unread, h3.read_unread, h4.read_unread, h5.read_unread, h6.read_unread, h8.read_unread, View.ld_unit_zero (S := S1024x2048) hz2, View.ld_unit_zero (S := S2048x128) hz2, View.ld_unit_zero (S := S1024x128) hz2, View.ld_unit_zero (S := S1024x1) hz2, View.ld_unit_zero (S := S1x128) hz2]

/-- The last column tile adds its product onto the accumulator too, -/
theorem lastAcc_eq (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) :
    lastAcc c i a2 h2 a3 h3 a4 h4 a5 h5 a6 h6 a7 h7 a8 h8 hc1 hc2 x0 x1 x2 x3 x4 xs = k1_pay2 x0 x1 xs := by
  unfold lastAcc
  rw [View.read_writes_eq_canon _ _ _ (lastCoverAcc c i a2 h2 a3 h3 a4 h4 a5 h5 a6 h6 a7 h7 a8 h8 hc1 hc2 x0 x1 x2 x3 x4 xs)]
  unfold runLast
  dsimp only
  try sl_unfold_words
  rw [View.canon_unit_zero hz2]
  simp only [View.readAt_eq_ld, h2.read_unread, h3.read_unread, h4.read_unread, h5.read_unread, h6.read_unread, h8.read_unread, View.ld_unit_zero (S := S1024x2048) hz2, View.ld_unit_zero (S := S2048x128) hz2, View.ld_unit_zero (S := S1024x128) hz2, View.ld_unit_zero (S := S1024x1) hz2, View.ld_unit_zero (S := S1x128) hz2]

/-- and stores the output block: the finished accumulator plus the row tile's own scaled support, scaled by the degree
    factors, plus the bias row. -/
theorem lastOut_eq (c : Dev nD) (i : grid1.Coords) (a2 : Memref sig .tc .vmem S1024x2048 .f32) (h2 : a2.IsWhole) (a3 : Memref sig .tc .vmem S2048x128 .f32) (h3 : a3.IsWhole) (a4 : Memref sig .tc .vmem S1024x128 .f32) (h4 : a4.IsWhole) (a5 : Memref sig .tc .vmem S1024x1 .f32) (h5 : a5.IsWhole) (a6 : Memref sig .tc .vmem S1x128 .f32) (h6 : a6.IsWhole) (a7 : Memref sig .tc .vmem S1024x128 .f32) (h7 : a7.IsWhole) (a8 : Memref sig .tc .vmem S1024x128 .f32) (h8 : a8.IsWhole) (hc1 : ¬condInit i) (hc2 : condLast i) (x0 : Vec F S1024x2048 .f32) (x1 : Vec F S2048x128 .f32) (x2 : Vec F S1024x128 .f32) (x3 : Vec F S1024x1 .f32) (x4 : Vec F S1x128 .f32) (xs : Vec F S1024x128 .f32) :
    lastOut c i a2 h2 a3 h3 a4 h4 a5 h5 a6 h6 a7 h7 a8 h8 hc1 hc2 x0 x1 x2 x3 x4 xs = k1_pay3 (k1_pay2 x0 x1 xs) x2 x3 x4 := by
  unfold lastOut
  rw [View.read_writes_eq_canon _ _ _ (lastCoverOut c i a2 h2 a3 h3 a4 h4 a5 h5 a6 h6 a7 h7 a8 h8 hc1 hc2 x0 x1 x2 x3 x4 xs)]
  unfold runLast
  dsimp only
  try sl_unfold_words
  rw [View.canon_unit_zero hz2, View.readCov_unit_zero (S := S1024x128) _ hz2]
  simp only [View.readAt_eq_ld, h2.read_unread, h3.read_unread, h4.read_unread, h5.read_unread, h6.read_unread, h8.read_unread, View.ld_unit_zero (S := S1024x2048) hz2, View.ld_unit_zero (S := S2048x128) hz2, View.ld_unit_zero (S := S1024x128) hz2, View.ld_unit_zero (S := S1024x1) hz2, View.ld_unit_zero (S := S1x128) hz2]

end Cert.KernelIdeal.Fr

end
-- ==== Proof.KI.Payloads.lean ====
/-
  The two bodies' arithmetic read at one element, at the ideal instance (extended reals; a change of float format is
  the identity): the support body's store is (x tile · W)[p, q] · D[p]; the accumulator's update is the accumulator
  plus (adjacency tile · support tile)[p, q]; the zeroing store is 0; the finishing store is
  (accumulator + own support)[p, q] · D[p] + bias[q].
-/
import proofs.«111453_j27599459844749_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The matrix unit's product into a zero accumulator, at row `p`, column `q`: the sum over the contracted index. -/
theorem dotS_lhs0 (i : S1024x128.Idx) (k : dot_S1024x128_S128x128_S1024x128_1_0_0_1_n_n.contr.Idx) : (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem dotS_rhs1 (i : S1024x128.Idx) (k : dot_S1024x128_S128x128_S1024x128_1_0_0_1_n_n.contr.Idx) : (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
theorem dotS_apply {φ₁ φ₂ : FTy} (lhs : FVec Ideal S1024x128 φ₁) (rhs : FVec Ideal S128x128 φ₂) (p : Fin 1024) (q : Fin 128) :
    FloatOps.matmul dot_S1024x128_S128x128_S1024x128_1_0_0_1_n_n none lhs rhs (constant (F := Ideal) S1024x128 .f32 0x00000000#32) (ix2 p q)
      = ∑ k : Fin 128, lhs (ix2 p k) * rhs (ix2 k q) := by
  refine (Ideal.matmul_constant_zero_apply dot_S1024x128_S128x128_S1024x128_1_0_0_1_n_n none lhs rhs (ix2 p q)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact dotS_lhs0 _ _
    | ⟨1, _⟩ => exact (dot_S1024x128_S128x128_S1024x128_1_0_0_1_n_n.lhsIdx_val_of_single rfl _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (dot_S1024x128_S128x128_S1024x128_1_0_0_1_n_n.rhsIdx_val_of_single rfl _ _).trans hk
    | ⟨1, _⟩ => exact dotS_rhs1 _ _)
  rw [el, er]

/-- The matrix unit's product into a zero accumulator, at row `p`, column `q`: the sum over the contracted index. -/
theorem dotP_lhs0 (i : S1024x128.Idx) (k : dot_S1024x2048_S2048x128_S1024x128_1_0_0_1_n_n.contr.Idx) : (dot_S1024x2048_S2048x128_S1024x128_1_0_0_1_n_n.lhsIdx i k 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem dotP_rhs1 (i : S1024x128.Idx) (k : dot_S1024x2048_S2048x128_S1024x128_1_0_0_1_n_n.contr.Idx) : (dot_S1024x2048_S2048x128_S1024x128_1_0_0_1_n_n.rhsIdx i k 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl
theorem dotP_apply {φ₁ φ₂ : FTy} (lhs : FVec Ideal S1024x2048 φ₁) (rhs : FVec Ideal S2048x128 φ₂) (p : Fin 1024) (q : Fin 128) :
    FloatOps.matmul dot_S1024x2048_S2048x128_S1024x128_1_0_0_1_n_n none lhs rhs (constant (F := Ideal) S1024x128 .f32 0x00000000#32) (ix2 p q)
      = ∑ k : Fin 2048, lhs (ix2 p k) * rhs (ix2 k q) := by
  refine (Ideal.matmul_constant_zero_apply dot_S1024x2048_S2048x128_S1024x128_1_0_0_1_n_n none lhs rhs (ix2 p q)).trans ?_
  rw [← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p q) ((ValueIdx.contrEquiv1 dot_S1024x2048_S2048x128_S1024x128_1_0_0_1_n_n 2048 rfl rfl).symm k) = ix2 p k := funext fun a => Fin.ext (by
    match a with
    | ⟨0, _⟩ => exact dotP_lhs0 _ _
    | ⟨1, _⟩ => exact (dot_S1024x2048_S2048x128_S1024x128_1_0_0_1_n_n.lhsIdx_val_of_single rfl _ _).trans hk)
  have er : dot_S1024x2048_S2048x128_S1024x128_1_0_0_1_n_n.rhsIdx (ix2 p q) ((ValueIdx.contrEquiv1 dot_S1024x2048_S2048x128_S1024x128_1_0_0_1_n_n 2048 rfl rfl).symm k) = ix2 k q := funext fun a => Fin.ext (by
    match a with
    | ⟨0, _⟩ => exact (dot_S1024x2048_S2048x128_S1024x128_1_0_0_1_n_n.rhsIdx_val_of_single rfl _ _).trans hk
    | ⟨1, _⟩ => exact dotP_rhs1 _ _)
  rw [el, er]

/-- An array of extended reals at its literal shape (so that its elements multiply and add as extended reals). -/
abbrev fv {S : Shape} (x : FVec Ideal S .f32) : FVec Ideal S .f32 := x

/-- A column [1024, 1] broadcast along the lanes, read at (p, q): the column's entry p. -/
theorem bcastCol_apply (v : FVec Ideal S1024x1 .f32) (p : Fin 1024) (q : Fin 128) :
    broadcastTo S1024x128 v broadcasts_S1024x1_S1024x128 (ix2 p q) = v (ix2 p (0 : Fin 1)) :=
  broadcastTo_apply v broadcasts_S1024x1_S1024x128 (ix2 p q) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else q.val; rw [if_pos rfl])

/-- A row [1, 128] broadcast down the sublanes, read at (p, q): the row's entry q. -/
theorem bcastRow_apply (v : FVec Ideal S1x128 .f32) (p : Fin 1024) (q : Fin 128) :
    broadcastTo S1024x128 v broadcasts_S1x128_S1024x128 (ix2 p q) = v (ix2 (0 : Fin 1) q) :=
  broadcastTo_apply v broadcasts_S1x128_S1024x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- The support body's store at (p, q). -/
theorem pay0_apply (x0 : Vec Ideal S1024x128 .f32) (x1 : Vec Ideal S128x128 .f32) (x2 : Vec Ideal S1024x1 .f32) (p : Fin 1024) (q : Fin 128) :
    k0_pay1 (F := Ideal) x0 x1 x2 (ix2 p q) = (∑ k : Fin 128, x0 (ix2 p k) * x1 (ix2 k q)) * x2 (ix2 p (0 : Fin 1)) := by
  unfold k0_pay1
  simp only [shapeCast_self]
  exact congrArg₂ (fun a b : EReal => a * b) (dotS_apply _ _ p q) (bcastCol_apply x2 p q)

/-- The zeroing store at (p, q). -/
theorem pay1_apply (p : Fin 1024) (q : Fin 128) : k1_pay1 (F := Ideal) (ix2 p q) = 0 := by
  unfold k1_pay1
  simp only [shapeCast_self]
  exact Ideal.ofBits_zero_f32

/-- The accumulator's update at (p, q). -/
theorem pay2_apply (x0 : Vec Ideal S1024x2048 .f32) (x1 : Vec Ideal S2048x128 .f32) (xs : Vec Ideal S1024x128 .f32) (p : Fin 1024) (q : Fin 128) :
    k1_pay2 (F := Ideal) x0 x1 xs (ix2 p q) = xs (ix2 p q) + ∑ k : Fin 2048, x0 (ix2 p k) * x1 (ix2 k q) := by
  unfold k1_pay2
  simp only [shapeCast_self]
  exact congrArg (fun b : EReal => xs (ix2 p q) + b) (dotP_apply _ _ p q)

/-- The finishing store at (p, q). -/
theorem pay3_apply (a : Vec Ideal S1024x128 .f32) (x2 : Vec Ideal S1024x128 .f32) (x3 : Vec Ideal S1024x1 .f32) (x4 : Vec Ideal S1x128 .f32) (p : Fin 1024) (q : Fin 128) :
    k1_pay3 (F := Ideal) a x2 x3 x4 (ix2 p q) = (a (ix2 p q) + x2 (ix2 p q)) * x3 (ix2 p (0 : Fin 1)) + x4 (ix2 (0 : Fin 1) q) := by
  unfold k1_pay3
  simp only [shapeCast_self]
  exact congrArg₂ (fun u v : EReal => (a (ix2 p q) + x2 (ix2 p q)) * u + v) (bcastCol_apply x3 p q) (bcastRow_apply x4 p q)

end Cert.KernelIdeal.Pay

end
-- ==== Proof.LibSums.lean ====
/-
  General facts about finite sums.

  A sum over the index set of a rank-3 array is the triple sum over its coordinates; a double sum over `a < A`, `b < B`
  of a function of the row-major number `a·B + b` is the single sum over the numbers below `A·B`; and a finite
  nonnegative real factor distributes over every finite sum of extended reals, whatever the summands are (the factor is
  finite and cannot change a sign, so multiplying by it is additive at the infinities too). Last, a running sum that is restarted from a fixed value at every multiple of a period is, inside
  each period, that value plus the terms met since the period began.
-/
import Idealize.ShloMosaic.Lib.ValueIdx

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row-major numbering: the pairs `(a, b)` with `a < A`, `b < B` are numbered `a·B + b`, once each, by the numbers
    below `A·B`; so a double sum of a function of that number is the single sum over the numbers. -/
theorem sum_fin_mul {M : Type*} [AddCommMonoid M] (A B : ℕ) (f : ℕ → M) :
    ∑ a : Fin A, ∑ b : Fin B, f (a.val * B + b.val) = ∑ r : Fin (A * B), f r.val := by
  rw [← Equiv.sum_comp finProdFinEquiv (fun r : Fin (A * B) => f r.val), Fintype.sum_prod_type]
  refine Finset.sum_congr rfl fun a _ => Finset.sum_congr rfl fun b _ => ?_
  rw [finProdFinEquiv_apply_val, Nat.add_comm, Nat.mul_comm]

/-- A finite nonnegative real factor distributes over a finite sum of extended reals. No summand need be finite:
    multiplying by `0 ≤ a < ⊤` is additive on all of the extended reals. -/
theorem ereal_mul_sum {ι : Type*} (a : ℝ) (ha : 0 ≤ a) (s : Finset ι) (f : ι → EReal) :
    (a : EReal) * ∑ i ∈ s, f i = ∑ i ∈ s, (a : EReal) * f i := by
  classical
  refine Finset.induction_on s ?_ ?_
  · rw [Finset.sum_empty, Finset.sum_empty, mul_zero]
  · intro i s hi ih
    rw [Finset.sum_insert hi, Finset.sum_insert hi,
      EReal.left_distrib_of_nonneg_of_ne_top (EReal.coe_nonneg.2 ha) (EReal.coe_ne_top a), ih]

/-- A running sum that restarts with period `P`: if `S` is set to `z + G n` at every multiple `n` of `P` and grows by
    `G (n + 1)` at every other step, then inside the period that starts at `q·P` it is `z` plus the terms met so far. -/
theorem restart_sum {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) :
    ∀ q s, s < P → S (q * P + s) = z + ∑ i ∈ Finset.range (s + 1), G (q * P + i) := by
  intro q s
  induction s with
  | zero =>
    intro _
    rw [Finset.sum_range_one]
    exact h0 _ (Nat.mul_mod_left q P)
  | succ s ih =>
    intro hs1
    have hne : (q * P + s + 1) % P ≠ 0 := by
      rw [Nat.add_assoc, Nat.mul_add_mod_self_right, Nat.mod_eq_of_lt hs1]
      exact Nat.succ_ne_zero s
    have step : S (q * P + s + 1) = S (q * P + s) + G (q * P + s + 1) := hs _ hne
    show S (q * P + s + 1) = z + ∑ i ∈ Finset.range (s + 1 + 1), G (q * P + i)
    rw [step, ih (Nat.lt_of_succ_lt hs1), Finset.sum_range_succ _ (s + 1), add_assoc]
    rfl

/-- At the last step of a period the running sum is `z` plus all `P` terms of the period. -/
theorem restart_sum_last {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) (q : ℕ) :
    S (q * P + (P - 1)) = z + ∑ i : Fin P, G (q * P + i.val) := by
  rw [restart_sum P hP G S z h0 hs q (P - 1) (Nat.sub_lt hP Nat.one_pos), Nat.sub_add_cancel (Nat.succ_le_of_lt hP)]
  exact congrArg (fun t => z + t) (Fin.sum_univ_eq_sum_range (fun i => G (q * P + i)) P).symm

end Cert.LibSums

end
-- ==== Proof.KI.AccValue.lean ====
/-
  The propagation region's value, first half: the accumulator. Fix a row tile i, a row p of it and a feature q. Over
  the four column tiles k = 0..3 of the row tile the accumulator's element (p, q) is zeroed and then grows by the
  tile's product, the sum over the 2048 columns j of the tile of A[i·1024 + p, k·2048 + j] · SS[k·2048 + j, q]; after
  the last column tile it is the sum over all 8192 columns.
-/
import proofs.«111453_j27599459844749_1_alg».proof.Proof.KI.Pieces
import proofs.«111453_j27599459844749_1_alg».proof.Proof.KI.Payloads
import proofs.«111453_j27599459844749_1_alg».proof.Proof.LibSums
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- Where each window's block sits at point `t` = 4·(row tile) + (column tile), decided over the grid. -/
theorem pidx0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem pidx1 : ∀ t : Fin cfg1.N, win1_1.index t 0 = t.val % 4 ∧ win1_1.index t 1 = 0 :=
  (by decide +kernel : ∀ t : Fin grid1.N, win1_1.index t 0 = t.val % 4 ∧ win1_1.index t 1 = 0)
theorem pidx2 : ∀ t : Fin cfg1.N, win1_2.index t 0 = t.val / 4 ∧ win1_2.index t 1 = 0 :=
  (by decide +kernel : ∀ t : Fin grid1.N, win1_2.index t 0 = t.val / 4 ∧ win1_2.index t 1 = 0)
theorem pidx3 : ∀ t : Fin cfg1.N, win1_3.index t 0 = t.val / 4 ∧ win1_3.index t 1 = 0 :=
  (by decide +kernel : ∀ t : Fin grid1.N, win1_3.index t 0 = t.val / 4 ∧ win1_3.index t 1 = 0)
theorem pidx4 : ∀ t : Fin cfg1.N, win1_4.index t 0 = 0 ∧ win1_4.index t 1 = 0 :=
  (by decide +kernel : ∀ t : Fin grid1.N, win1_4.index t 0 = 0 ∧ win1_4.index t 1 = 0)
theorem pidx5 : ∀ t : Fin cfg1.N, win1_5.index t 0 = t.val / 4 ∧ win1_5.index t 1 = 0 :=
  (by decide +kernel : ∀ t : Fin grid1.N, win1_5.index t 0 = t.val / 4 ∧ win1_5.index t 1 = 0)

/-- Window 0's block at point `t`, element (y0, y1), is the array's element at the block's offset plus (y0, y1). -/
theorem pblk0_apply (c : Dev nD) (t : Fin cfg1.N) (y0 : Fin 1024) (y1 : Fin 2048) (k : S8192x8192.Idx)
    (hk0 : (k 0).val = t.val / 4 * 1024 + y0.val) (hk1 : (k 1).val = t.val % 4 * 2048 + y1.val) :
    (pblk V c 0 t : Vec Ideal S1024x2048 .f32) (ix2 y0 y1) = fv (S := S8192x8192) (V c main_v18) k := by
  have hi := pidx0 t
  unfold pblk
  rw [View.read_apply]
  show V c main_v18 _ = V c main_v18 _
  congr 1
  funext a
  apply Fin.ext
  match a with
  | ⟨0, _⟩ => show win1_0.index t 0 * 1024 + 1 * y0.val = (k 0).val; rw [hi.1, hk0]; omega
  | ⟨1, _⟩ => show win1_0.index t 1 * 2048 + 1 * y1.val = (k 1).val; rw [hi.2, hk1]; omega

/-- Window 1's block at point `t`, element (y0, y1), is the array's element at the block's offset plus (y0, y1). -/
theorem pblk1_apply (c : Dev nD) (t : Fin cfg1.N) (y0 : Fin 2048) (y1 : Fin 128) (k : S8192x128.Idx)
    (hk0 : (k 0).val = t.val % 4 * 2048 + y0.val) (hk1 : (k 1).val = 0 + y1.val) :
    (pblk V c 1 t : Vec Ideal S2048x128 .f32) (ix2 y0 y1) = fv (S := S8192x128) (V c main_v35) k := by
  have hi := pidx1 t
  unfold pblk
  rw [View.read_apply]
  show V c main_v35 _ = V c main_v35 _
  congr 1
  funext a
  apply Fin.ext
  match a with
  | ⟨0, _⟩ => show win1_1.index t 0 * 2048 + 1 * y0.val = (k 0).val; rw [hi.1, hk0]; omega
  | ⟨1, _⟩ => show win1_1.index t 1 * 128 + 1 * y1.val = (k 1).val; rw [hi.2, hk1]; omega

/-- Window 2's block at point `t`, element (y0, y1), is the array's element at the block's offset plus (y0, y1). -/
theorem pblk2_apply (c : Dev nD) (t : Fin cfg1.N) (y0 : Fin 1024) (y1 : Fin 128) (k : S8192x128.Idx)
    (hk0 : (k 0).val = t.val / 4 * 1024 + y0.val) (hk1 : (k 1).val = 0 + y1.val) :
    (pblk V c 2 t : Vec Ideal S1024x128 .f32) (ix2 y0 y1) = fv (S := S8192x128) (V c main_v35) k := by
  have hi := pidx2 t
  unfold pblk
  rw [View.read_apply]
  show V c main_v35 _ = V c main_v35 _
  congr 1
  funext a
  apply Fin.ext
  match a with
  | ⟨0, _⟩ => show win1_2.index t 0 * 1024 + 1 * y0.val = (k 0).val; rw [hi.1, hk0]; omega
  | ⟨1, _⟩ => show win1_2.index t 1 * 128 + 1 * y1.val = (k 1).val; rw [hi.2, hk1]; omega

/-- Window 3's block at point `t`, element (y0, y1), is the array's element at the block's offset plus (y0, y1). -/
theorem pblk3_apply (c : Dev nD) (t : Fin cfg1.N) (y0 : Fin 1024) (y1 : Fin 1) (k : S8192x1.Idx)
    (hk0 : (k 0).val = t.val / 4 * 1024 + y0.val) (hk1 : (k 1).val = 0 + y1.val) :
    (pblk V c 3 t : Vec Ideal S1024x1 .f32) (ix2 y0 y1) = fv (S := S8192x1) (V c main_v34) k := by
  have hi := pidx3 t
  unfold pblk
  rw [View.read_apply]
  show V c main_v34 _ = V c main_v34 _
  congr 1
  funext a
  apply Fin.ext
  match a with
  | ⟨0, _⟩ => show win1_3.index t 0 * 1024 + 1 * y0.val = (k 0).val; rw [hi.1, hk0]; omega
  | ⟨1, _⟩ => show win1_3.index t 1 * 1 + 1 * y1.val = (k 1).val; rw [hi.2, hk1]; omega

/-- Window 4's block at point `t`, element (y0, y1), is the array's element at the block's offset plus (y0, y1). -/
theorem pblk4_apply (c : Dev nD) (t : Fin cfg1.N) (y0 : Fin 1) (y1 : Fin 128) (k : S1x128.Idx)
    (hk0 : (k 0).val = 0 + y0.val) (hk1 : (k 1).val = 0 + y1.val) :
    (pblk V c 4 t : Vec Ideal S1x128 .f32) (ix2 y0 y1) = fv (S := S1x128) (V c main_v36) k := by
  have hi := pidx4 t
  unfold pblk
  rw [View.read_apply]
  show V c main_v36 _ = V c main_v36 _
  congr 1
  funext a
  apply Fin.ext
  match a with
  | ⟨0, _⟩ => show win1_4.index t 0 * 1 + 1 * y0.val = (k 0).val; rw [hi.1, hk0]; omega
  | ⟨1, _⟩ => show win1_4.index t 1 * 128 + 1 * y1.val = (k 1).val; rw [hi.2, hk1]; omega

/-- The product A[r, n] · SS[n, q] at column number `n` (zero past the last column). -/
def colTerm (c : Dev nD) (r : Fin 8192) (q : Fin 128) (n : ℕ) : EReal :=
  if h : n < 8192 then fv (S := S8192x8192) (V c main_v18) (ix2 r ⟨n, h⟩) * fv (S := S8192x128) (V c main_v35) (ix2 ⟨n, h⟩ q) else 0

/-- One grid point's product at element (p, q): the sum over the column tile's 2048 columns. -/
theorem tile_product (c : Dev nD) (t : Fin cfg1.N) (p : Fin 1024) (q : Fin 128) (hr : t.val / 4 * 1024 + p.val < 8192) :
    (∑ j : Fin 2048, fv (S := S1024x2048) (pblk V c 0 t) (ix2 p j) * fv (S := S2048x128) (pblk V c 1 t) (ix2 j q))
      = ∑ j : Fin 2048, colTerm V c ⟨t.val / 4 * 1024 + p.val, hr⟩ q (t.val % 4 * 2048 + j.val) := by
  refine Finset.sum_congr rfl fun j _ => ?_
  have hN : t.val < 32 := lt_of_lt_of_eq t.isLt N_1
  have hc : t.val % 4 * 2048 + j.val < 8192 := by have := j.isLt; omega
  unfold colTerm
  rw [dif_pos hc]
  refine congrArg₂ (fun a b : EReal => a * b) ?_ ?_
  · exact pblk0_apply V c t p j (ix2 ⟨t.val / 4 * 1024 + p.val, hr⟩ ⟨t.val % 4 * 2048 + j.val, hc⟩) rfl rfl
  · exact pblk1_apply V c t j q (ix2 ⟨t.val % 4 * 2048 + j.val, hc⟩ q) rfl (by show q.val = 0 + q.val; omega)

/-- The accumulator's element (p, q) after position `n` (zero past the grid), and the product the point at position
    `n` adds to it. -/
def accS (c : Dev nD) (p : Fin 1024) (q : Fin 128) (n : ℕ) : EReal :=
  if h : n < cfg1.N then (accAt V c n h) (ix2 p q) else 0
def tileG (c : Dev nD) (p : Fin 1024) (q : Fin 128) (n : ℕ) : EReal :=
  if h : n < cfg1.N then ∑ j : Fin 2048, fv (S := S1024x2048) (pblk V c 0 ⟨n, h⟩) (ix2 p j) * fv (S := S2048x128) (pblk V c 1 ⟨n, h⟩) (ix2 j q) else 0

/-- At the first column tile of a row tile the accumulator restarts from zero. -/
theorem accS_init (c : Dev nD) (p : Fin 1024) (q : Fin 128) (n : ℕ) (h0 : n % 4 = 0) :
    accS V c p q n = 0 + tileG V c p q n := by
  unfold accS tileG
  by_cases h : n < cfg1.N
  · rw [dif_pos h, dif_pos h]
    have h3 : ¬n % 4 = 3 := by omega
    refine (congrFun (accAt_init V c ⟨n, h⟩ h0 h3) (ix2 p q)).trans ?_
    rw [initAcc_eq, pay2_apply, pay1_apply]
  · rw [dif_neg h, dif_neg h, add_zero]

/-- At every other column tile it grows by the tile's product. -/
theorem accS_step (c : Dev nD) (p : Fin 1024) (q : Fin 128) (n : ℕ) (hn : (n + 1) % 4 ≠ 0) :
    accS V c p q (n + 1) = accS V c p q n + tileG V c p q (n + 1) := by
  unfold accS tileG
  have hN : cfg1.N = 32 := N_1
  by_cases h : n + 1 < cfg1.N
  · have h' : n < cfg1.N := by omega
    rw [dif_pos h, dif_pos h', dif_pos h]
    by_cases h3 : (n + 1) % 4 = 3
    · refine (congrFun (accAt_last V c ⟨n + 1, h⟩ hn h3) (ix2 p q)).trans ?_
      rw [lastAcc_eq, pay2_apply]
      rfl
    · refine (congrFun (accAt_mid V c ⟨n + 1, h⟩ hn h3) (ix2 p q)).trans ?_
      rw [midAcc_eq, pay2_apply]
      rfl
  · have h' : ¬n < cfg1.N := by omega
    rw [dif_neg h, dif_neg h', dif_neg h, add_zero]

/-- One column tile's product as a sum over its 2048 column numbers. -/
theorem tileG_eq (c : Dev nD) (i : Fin 8) (k : Fin 4) (p : Fin 1024) (q : Fin 128) (hr : i.val * 1024 + p.val < 8192) :
    tileG V c p q (i.val * 4 + k.val) = ∑ j : Fin 2048, colTerm V c ⟨i.val * 1024 + p.val, hr⟩ q (k.val * 2048 + j.val) := by
  have hN : cfg1.N = 32 := N_1
  have h : i.val * 4 + k.val < cfg1.N := by have := i.isLt; have := k.isLt; omega
  have hd : (i.val * 4 + k.val) / 4 = i.val := by have := k.isLt; omega
  have hm : (i.val * 4 + k.val) % 4 = k.val := by have := k.isLt; omega
  unfold tileG
  rw [dif_pos h, tile_product V c ⟨i.val * 4 + k.val, h⟩ p q (by show (i.val * 4 + k.val) / 4 * 1024 + p.val < 8192; rw [hd]; exact hr)]
  refine Finset.sum_congr rfl fun j _ => ?_
  have e1 : (⟨(i.val * 4 + k.val) / 4 * 1024 + p.val, by rw [hd]; exact hr⟩ : Fin 8192) = ⟨i.val * 1024 + p.val, hr⟩ :=
    Fin.ext (by show (i.val * 4 + k.val) / 4 * 1024 + p.val = i.val * 1024 + p.val; rw [hd])
  show colTerm V c ⟨(i.val * 4 + k.val) / 4 * 1024 + p.val, _⟩ q ((i.val * 4 + k.val) % 4 * 2048 + j.val) = _
  rw [e1, hm]

/-- THE ACCUMULATOR after the last column tile of row tile `i`: at (p, q) the sum over ALL columns of
    A[i·1024 + p, col] · SS[col, q]. -/
theorem acc_row (c : Dev nD) (i : Fin 8) (p : Fin 1024) (q : Fin 128) (hr : i.val * 1024 + p.val < 8192)
    (ht : i.val * 4 + 3 < cfg1.N) :
    (accAt V c (i.val * 4 + 3) ht) (ix2 p q)
      = ∑ col : Fin 8192, fv (S := S8192x8192) (V c main_v18) (ix2 ⟨i.val * 1024 + p.val, hr⟩ col) * fv (S := S8192x128) (V c main_v35) (ix2 col q) := by
  have hS := Cert.LibSums.restart_sum_last 4 (by decide) (tileG V c p q) (accS V c p q) 0
    (accS_init V c p q) (accS_step V c p q) i.val
  have e0 : accS V c p q (i.val * 4 + (4 - 1)) = (accAt V c (i.val * 4 + 3) ht) (ix2 p q) := by
    unfold accS; exact dif_pos ht
  rw [← e0, hS, zero_add]
  have e1 : ∀ k : Fin 4, tileG V c p q (i.val * 4 + k.val) = ∑ j : Fin 2048, colTerm V c ⟨i.val * 1024 + p.val, hr⟩ q (k.val * 2048 + j.val) :=
    fun k => tileG_eq V c i k p q hr
  rw [Finset.sum_congr rfl fun k _ => e1 k, Cert.LibSums.sum_fin_mul 4 2048 (colTerm V c ⟨i.val * 1024 + p.val, hr⟩ q)]
  show ∑ r : Fin 8192, colTerm V c ⟨i.val * 1024 + p.val, hr⟩ q r.val = _
  refine Finset.sum_congr rfl fun col _ => ?_
  unfold colTerm
  rw [dif_pos col.isLt]

end Cert.KernelIdeal.Fr

end
-- ==== Proof.KI.PropagateValue.lean ====
/-
  The propagation region's value, second half: the result array. At the last column tile of row tile i the body
  stores, at (p, q), (the accumulator + the row tile's own scaled support) · D + bias; with the accumulator the sum
  over all columns this is one function of the arrays the region found, and the eight row tiles' write-backs cover
  the result array.
-/
import proofs.«111453_j27599459844749_1_alg».proof.Proof.KI.AccValue

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

theorem accAt_congr (c : Dev nD) {n n' : ℕ} (h : n = n') (hn : n < cfg1.N) (hn' : n' < cfg1.N) :
    accAt V c n hn = accAt V c n' hn' := by subst h; rfl

/-- The result at row `r`, feature `f`, from the arrays the region found: the dense adjacency A, the scaled support SS,
    the degree factors D and the bias row. -/
def propAt (c : Dev nD) (r : Fin 8192) (f : Fin 128) : EReal :=
  ((∑ col : Fin 8192, fv (S := S8192x8192) (V c main_v18) (ix2 r col) * fv (S := S8192x128) (V c main_v35) (ix2 col f))
      + fv (S := S8192x128) (V c main_v35) (ix2 r f)) * fv (S := S8192x1) (V c main_v34) (ix2 r (0 : Fin 1))
    + fv (S := S1x128) (V c main_v36) (ix2 (0 : Fin 1) f)

/-- The result array as one function. -/
def propG (c : Dev nD) : Buf (Elt Ideal) ((c : Thread nD τ).loc main_v37) := fun i => propAt V c (i 0) (i 1)

/-- What the body leaves in the output block at a point of the last column tile, element (p, q). -/
theorem pafter5_apply (c : Dev nD) (t : Fin cfg1.N) (h3 : t.val % 4 = 3) (p : Fin 1024) (q : Fin 128)
    (hr : t.val / 4 * 1024 + p.val < 8192) :
    ((pdat V c).after 5 t : Vec Ideal S1024x128 .f32) (ix2 p q) = propAt V c ⟨t.val / 4 * 1024 + p.val, hr⟩ q := by
  have hN : t.val < 32 := lt_of_lt_of_eq t.isLt N_1
  have h0 : ¬t.val % 4 = 0 := by omega
  have hi : t.val / 4 < 8 := by omega
  have ht : t.val / 4 * 4 + 3 < cfg1.N := lt_of_lt_of_eq (by omega : t.val / 4 * 4 + 3 < 32) N_1.symm
  have eacc : accAt V c t.val t.isLt = k1_pay2 (F := Ideal) (pblk V c 0 t) (pblk V c 1 t)
      (accAt V c (t.val - 1) (Nat.lt_of_le_of_lt (Nat.sub_le _ _) t.isLt)) :=
    (accAt_last V c t h0 h3).trans (lastAcc_eq _ _ _ _ _ _ _ _ _ _ _ _ _ _ _ _ _ _ _ _ _ _ _ _)
  rw [pafter5, outAt_last V c t h0 h3, lastOut_eq, ← eacc, pay3_apply,
    accAt_congr V c (show t.val = t.val / 4 * 4 + 3 by omega) t.isLt ht,
    acc_row V c ⟨t.val / 4, hi⟩ p q hr ht]
  unfold propAt
  refine congrArg₂ (fun a b : EReal => a + b) (congrArg₂ (fun a b : EReal => a * b) (congrArg (fun a : EReal => _ + a) ?_) ?_) ?_
  · exact pblk2_apply V c t p q (ix2 ⟨t.val / 4 * 1024 + p.val, hr⟩ q) rfl (by show q.val = 0 + q.val; omega)
  · exact pblk3_apply V c t p (0 : Fin 1) (ix2 ⟨t.val / 4 * 1024 + p.val, hr⟩ (0 : Fin 1)) rfl rfl
  · exact pblk4_apply V c t (0 : Fin 1) q (ix2 (0 : Fin 1) q) rfl (by show q.val = 0 + q.val; omega)

/-- WHAT A WRITING POINT WRITES BACK is its tile of the one function. -/
theorem pflushed_eq (c : Dev nD) (t : Fin cfg1.N) (hf : (cfg1.win 5).flush t = true) :
    (pdat V c).flushed 5 t = ((cfg1.win 5).blk t).view.read (Elt Ideal) (propG V c) := by
  have h3 : t.val % 4 = 3 := (flush1_5 t).mp hf
  show (cfg1.win 5).cut (grid1.coords t) ((pdat V c).after 5 t) = _
  funext j
  have hN : t.val < 32 := lt_of_lt_of_eq t.isLt N_1
  have hj0 : (j 0).val < 1024 := (j 0).isLt
  have hj1 : (j 1).val < 128 := (j 1).isLt
  have hr : t.val / 4 * 1024 + (j 0).val < 8192 := by omega
  have hjj : j = ix2 (⟨(j 0).val, hj0⟩ : Fin 1024) (⟨(j 1).val, hj1⟩ : Fin 128) :=
    funext fun a => by match a with | ⟨0, _⟩ => rfl | ⟨1, _⟩ => rfl
  show ((pdat V c).after 5 t : Vec Ideal S1024x128 .f32) j = propG V c (((cfg1.win 5).blk t).view.emb j)
  refine (congrArg ((pdat V c).after 5 t : Vec Ideal S1024x128 .f32) hjj).trans ((pafter5_apply V c t h3 _ _ hr).trans ?_)
  unfold propG
  refine congrArg₂ (propAt V c) (Fin.ext ?_) (Fin.ext ?_)
  · show t.val / 4 * 1024 + (j 0).val = win1_5.index t 0 * 1024 + 1 * (j 0).val; rw [(pidx5 t).1]; omega
  · show (j 1).val = win1_5.index t 1 * 128 + 1 * (j 1).val; rw [(pidx5 t).2]; omega

theorem pmem_blk (t : Fin cfg1.N) (i : S8192x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v37).slice (win1_5.rect t)).set ↔ _
  rw [View.set_slice_whole, Rect.mem_set_unit]
  exact Iff.rfl

/-- THE RESULT ARRAY after the region: the one function, everywhere. -/
theorem pfinal (c : Dev nD) : (pdat V c).arrAt 5 cfg1.N = propG V c :=
  (pdat V c).arrAt_eq_of_cover 5 (propG V c) (pflushed_eq V c) fun i => by
    have hi0 : (i 0).val < 8192 := (i 0).isLt
    have hi1 : (i 1).val < 128 := (i 1).isLt
    have hN : cfg1.N = 32 := N_1
    have ht : (i 0).val / 1024 * 4 + 3 < cfg1.N := by rw [hN]; omega
    refine ⟨⟨(i 0).val / 1024 * 4 + 3, ht⟩, (flush1_5 _).mpr (by show ((i 0).val / 1024 * 4 + 3) % 4 = 3; omega), ?_⟩
    rw [pmem_blk]
    intro a
    match a with
    | ⟨0, _⟩ => show win1_5.index _ 0 * 1024 ≤ (i 0).val ∧ (i 0).val < win1_5.index _ 0 * 1024 + 1024; rw [(pidx5 _).1]; show ((i 0).val / 1024 * 4 + 3) / 4 * 1024 ≤ (i 0).val ∧ (i 0).val < ((i 0).val / 1024 * 4 + 3) / 4 * 1024 + 1024; omega
    | ⟨1, _⟩ => show win1_5.index _ 1 * 128 ≤ (i 1).val ∧ (i 1).val < win1_5.index _ 1 * 128 + 128; rw [(pidx5 _).2]; omega

end Cert.KernelIdeal.Fr

end
-- ==== Proof.KI.SupportValue.lean ====
/-
  The support region's value: after its eight row tiles the scaled-support array holds, at row r and feature f,
  (the sum over j of x[r, j] · W[j, f]) · D[r], read off the arrays the region found. Each tile's write-back is the
  tile of that one function, and the eight tiles cover the array.
-/
import proofs.«111453_j27599459844749_1_alg».proof.Proof.KI.Pieces
import proofs.«111453_j27599459844749_1_alg».proof.Proof.KI.Payloads
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay

variable (V : (c : Dev nD) → (b : Ref sig .tc) → Buf (Elt Ideal) ((c : Thread nD τ).loc b))

/-- Where each window's block sits at point `t`, decided over the grid. -/
theorem sidx0 : ∀ t : Fin cfg0.N, win0_0.index t 0 = t.val ∧ win0_0.index t 1 = 0 :=
  (by decide +kernel : ∀ t : Fin grid0.N, win0_0.index t 0 = t.val ∧ win0_0.index t 1 = 0)
theorem sidx1 : ∀ t : Fin cfg0.N, win0_1.index t 0 = 0 ∧ win0_1.index t 1 = 0 :=
  (by decide +kernel : ∀ t : Fin grid0.N, win0_1.index t 0 = 0 ∧ win0_1.index t 1 = 0)
theorem sidx2 : ∀ t : Fin cfg0.N, win0_2.index t 0 = t.val ∧ win0_2.index t 1 = 0 :=
  (by decide +kernel : ∀ t : Fin grid0.N, win0_2.index t 0 = t.val ∧ win0_2.index t 1 = 0)
theorem sidx3 : ∀ t : Fin cfg0.N, win0_3.index t 0 = t.val ∧ win0_3.index t 1 = 0 :=
  (by decide +kernel : ∀ t : Fin grid0.N, win0_3.index t 0 = t.val ∧ win0_3.index t 1 = 0)

/-- Window 0's block at point `t`, element (y0, y1), is the array's element at the block's offset plus (y0, y1). -/
theorem sblk0_apply (c : Dev nD) (t : Fin cfg0.N) (y0 : Fin 1024) (y1 : Fin 128) (k : S8192x128.Idx)
    (hk0 : (k 0).val = t.val * 1024 + y0.val) (hk1 : (k 1).val = 0 + y1.val) :
    (sblk V c 0 t : Vec Ideal S1024x128 .f32) (ix2 y0 y1) = fv (S := S8192x128) (V c main_arg0) k := by
  have hi := sidx0 t
  unfold sblk
  rw [View.read_apply]
  show V c main_arg0 _ = V c main_arg0 _
  congr 1
  funext a
  apply Fin.ext
  match a with
  | ⟨0, _⟩ => show win0_0.index t 0 * 1024 + 1 * y0.val = (k 0).val; rw [hi.1, hk0]; omega
  | ⟨1, _⟩ => show win0_0.index t 1 * 128 + 1 * y1.val = (k 1).val; rw [hi.2, hk1]; omega

/-- Window 1's block at point `t`, element (y0, y1), is the array's element at the block's offset plus (y0, y1). -/
theorem sblk1_apply (c : Dev nD) (t : Fin cfg0.N) (y0 : Fin 128) (y1 : Fin 128) (k : S128x128.Idx)
    (hk0 : (k 0).val = 0 + y0.val) (hk1 : (k 1).val = 0 + y1.val) :
    (sblk V c 1 t : Vec Ideal S128x128 .f32) (ix2 y0 y1) = fv (S := S128x128) (V c main_arg3) k := by
  have hi := sidx1 t
  unfold sblk
  rw [View.read_apply]
  show V c main_arg3 _ = V c main_arg3 _
  congr 1
  funext a
  apply Fin.ext
  match a with
  | ⟨0, _⟩ => show win0_1.index t 0 * 128 + 1 * y0.val = (k 0).val; rw [hi.1, hk0]; omega
  | ⟨1, _⟩ => show win0_1.index t 1 * 128 + 1 * y1.val = (k 1).val; rw [hi.2, hk1]; omega

/-- Window 2's block at point `t`, element (y0, y1), is the array's element at the block's offset plus (y0, y1). -/
theorem sblk2_apply (c : Dev nD) (t : Fin cfg0.N) (y0 : Fin 1024) (y1 : Fin 1) (k : S8192x1.Idx)
    (hk0 : (k 0).val = t.val * 1024 + y0.val) (hk1 : (k 1).val = 0 + y1.val) :
    (sblk V c 2 t : Vec Ideal S1024x1 .f32) (ix2 y0 y1) = fv (S := S8192x1) (V c main_v34) k := by
  have hi := sidx2 t
  unfold sblk
  rw [View.read_apply]
  show V c main_v34 _ = V c main_v34 _
  congr 1
  funext a
  apply Fin.ext
  match a with
  | ⟨0, _⟩ => show win0_2.index t 0 * 1024 + 1 * y0.val = (k 0).val; rw [hi.1, hk0]; omega
  | ⟨1, _⟩ => show win0_2.index t 1 * 1 + 1 * y1.val = (k 1).val; rw [hi.2, hk1]; omega

/-- The scaled support as one function of the arrays the region found. -/
def suppG (c : Dev nD) : Buf (Elt Ideal) ((c : Thread nD τ).loc main_v35) :=
  fun i => (∑ k : Fin 128, fv (S := S8192x128) (V c main_arg0) (ix2 (i 0) k) * fv (S := S128x128) (V c main_arg3) (ix2 k (i 1)))
    * fv (S := S8192x1) (V c main_v34) (ix2 (i 0) (0 : Fin 1))

/-- What the body leaves in the output block at point `t`, element (p, q). -/
theorem safter3_apply (c : Dev nD) (t : Fin cfg0.N) (p : Fin 1024) (q : Fin 128) (hr : t.val * 1024 + p.val < 8192) :
    ((sdat V c).after 3 t : Vec Ideal S1024x128 .f32) (ix2 p q) = suppG V c (ix2 (⟨t.val * 1024 + p.val, hr⟩ : Fin 8192) q) := by
  rw [safter3, sout_eq, pay0_apply]
  unfold suppG
  refine congrArg₂ (fun a b : EReal => a * b) (Finset.sum_congr rfl fun k _ => congrArg₂ (fun a b : EReal => a * b) ?_ ?_) ?_
  · exact sblk0_apply V c t p k (ix2 ⟨t.val * 1024 + p.val, hr⟩ k) rfl (by show k.val = 0 + k.val; omega)
  · exact sblk1_apply V c t k q (ix2 k q) (by show k.val = 0 + k.val; omega) (by show q.val = 0 + q.val; omega)
  · exact sblk2_apply V c t p (0 : Fin 1) (ix2 ⟨t.val * 1024 + p.val, hr⟩ (0 : Fin 1)) rfl rfl

/-- WHAT POINT `t` WRITES BACK is tile `t` of the one function. -/
theorem sflushed_eq (c : Dev nD) (t : Fin cfg0.N) :
    (sdat V c).flushed 3 t = ((cfg0.win 3).blk t).view.read (Elt Ideal) (suppG V c) := by
  show (cfg0.win 3).cut (grid0.coords t) ((sdat V c).after 3 t) = _
  funext j
  have hN : t.val < 8 := lt_of_lt_of_eq t.isLt N_0
  have hj0 : (j 0).val < 1024 := (j 0).isLt
  have hj1 : (j 1).val < 128 := (j 1).isLt
  have hr : t.val * 1024 + (j 0).val < 8192 := by omega
  have hjj : j = ix2 (⟨(j 0).val, hj0⟩ : Fin 1024) (⟨(j 1).val, hj1⟩ : Fin 128) :=
    funext fun a => by match a with | ⟨0, _⟩ => rfl | ⟨1, _⟩ => rfl
  show ((sdat V c).after 3 t : Vec Ideal S1024x128 .f32) j = suppG V c (((cfg0.win 3).blk t).view.emb j)
  refine (congrArg ((sdat V c).after 3 t : Vec Ideal S1024x128 .f32) hjj).trans
    ((safter3_apply V c t _ _ hr).trans (congrArg (suppG V c) ?_))
  funext a; apply Fin.ext
  match a with
  | ⟨0, _⟩ => show t.val * 1024 + (j 0).val = win0_3.index t 0 * 1024 + 1 * (j 0).val; rw [(sidx3 t).1]; omega
  | ⟨1, _⟩ => show (j 1).val = win0_3.index t 1 * 128 + 1 * (j 1).val; rw [(sidx3 t).2]; omega

/-- An index of the array is in point `t`'s block iff each coordinate is in the block's range on its axis. -/
theorem smem_blk (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v35).slice (win0_3.rect t)).set ↔ _
  rw [View.set_slice_whole, Rect.mem_set_unit]
  exact Iff.rfl

/-- THE SCALED SUPPORT after the region: the one function, everywhere (the eight row tiles cover the array). -/
theorem sfinal (c : Dev nD) : (sdat V c).arrAt 3 cfg0.N = suppG V c :=
  (sdat V c).arrAt_eq_of_cover 3 (suppG V c) (fun t _ => sflushed_eq V c t) fun i => by
    have hi0 : (i 0).val < 8192 := (i 0).isLt
    have hi1 : (i 1).val < 128 := (i 1).isLt
    have hN : cfg0.N = 8 := N_0
    refine ⟨⟨(i 0).val / 1024, by rw [hN]; omega⟩, flush0_3 _, ?_⟩
    rw [smem_blk]
    intro a
    match a with
    | ⟨0, _⟩ => show win0_3.index _ 0 * 1024 ≤ (i 0).val ∧ (i 0).val < win0_3.index _ 0 * 1024 + 1024; rw [(sidx3 _).1]; show (i 0).val / 1024 * 1024 ≤ (i 0).val ∧ (i 0).val < (i 0).val / 1024 * 1024 + 1024; omega
    | ⟨1, _⟩ => show win0_3.index _ 1 * 128 ≤ (i 1).val ∧ (i 1).val < win0_3.index _ 1 * 128 + 128; rw [(sidx3 _).2]; omega

end Cert.KernelIdeal.Fr

end
-- ==== Proof.KI.PropagateBody.lean ====
/-
  The propagation region's body obligation: at every grid point the body, started from the invariant and the windows'
  current staging buffers, runs to the invariant of the next position and the buffers at what the proof data say —
  by cases on the column tile (first, middle, last), each the corresponding symbolic run.
-/
import proofs.«111453_j27599459844749_1_alg».proof.Proof.KI.PropagateData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def pbodyPre (c : Dev nD) (t : Fin cfg1.N) : sProp 𝕄 :=
  iprop((pdat V c).Φ t.castSucc ∗ (pdat V c).owesAt () t.castSucc
    ∗ (∃ d, owns (c : Thread nD τ) (pm0 t) fullShare ((pdat V c).before 0 t d))
    ∗ (∃ d, owns (c : Thread nD τ) (pm1 t) fullShare ((pdat V c).before 1 t d))
    ∗ (∃ d, owns (c : Thread nD τ) (pm2 t) fullShare ((pdat V c).before 2 t d))
    ∗ (∃ d, owns (c : Thread nD τ) (pm3 t) fullShare ((pdat V c).before 3 t d))
    ∗ (∃ d, owns (c : Thread nD τ) (pm4 t) fullShare ((pdat V c).before 4 t d))
    ∗ (∃ d, owns (c : Thread nD τ) (pm5 t) fullShare ((pdat V c).before 5 t d)))

/-- and what it returns. -/
def pbodyPost (c : Dev nD) (t : Fin cfg1.N) : sProp 𝕄 :=
  iprop((pdat V c).Φ t.succ ∗ (pdat V c).owesAt () t.succ
    ∗ (pdat V c).leavesExact 0 t
    ∗ (pdat V c).leavesExact 1 t
    ∗ (pdat V c).leavesExact 2 t
    ∗ (pdat V c).leavesExact 3 t
    ∗ (pdat V c).leavesExact 4 t
    ∗ (pdat V c).leavesExact 5 t)

set_option maxHeartbeats 4800000 in
theorem sound_pbody (c : Dev nD) (t : Fin cfg1.N) :
    pbodyPre V c t ⊢ wp frame (wpE (defs₀ (F := F)) Variants.none c none) Set.univ (bodyAt1 t) (fun _ => pbodyPost V c t) := by
  unfold pbodyPre pbodyPost bodyAt1
  simp only [pbefore0, pbefore1, pbefore2, pbefore3, pbefore4]
  rw [show (pdat V c).owesAt () t.succ = (pdat V c).owesAt () t.castSucc from rfl]
  rw [show (pdat V c).Φ t.succ = PhiS V c (t.val + 1) t.isLt from rfl, PhiS_succ]
  have hN : t.val < 32 := lt_of_lt_of_eq t.isLt (show cfg1.N = 32 from N_1)
  rw [show (pdat V c).leavesExact 0 t = owns (c : Thread nD τ) (pm0 t) fullShare ((pdat V c).after 0 t) from by
    unfold Dat.leavesExact; rw [live1_0 t], pafter0]
  rw [show (pdat V c).leavesExact 1 t = owns (c : Thread nD τ) (pm1 t) fullShare ((pdat V c).after 1 t) from by
    unfold Dat.leavesExact; rw [live1_1 t], pafter1]
  rw [show (pdat V c).leavesExact 2 t = owns (c : Thread nD τ) (pm2 t) fullShare ((pdat V c).after 2 t) from by
    unfold Dat.leavesExact; rw [live1_2 t], pafter2]
  rw [show (pdat V c).leavesExact 3 t = owns (c : Thread nD τ) (pm3 t) fullShare ((pdat V c).after 3 t) from by
    unfold Dat.leavesExact; rw [live1_3 t], pafter3]
  rw [show (pdat V c).leavesExact 4 t = owns (c : Thread nD τ) (pm4 t) fullShare ((pdat V c).after 4 t) from by
    unfold Dat.leavesExact; rw [live1_4 t], pafter4]
  by_cases h0 : t.val % 4 = 0
  · have h3 : ¬t.val % 4 = 3 := by omega
    rw [Dat.leavesExact_idle (pdat V c) 5 t (idle1_5 t (fun h => h3 ((hcondLast t).mp h))) (noFlush1_5 t (fun h => h3 ((hcondLast t).mp h)))]
    rw [accAt_init V c t h0 h3]
    unfold initAcc; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (phiA_open (F := F) c) $$ HΦ
      icases HΦ' with ⟨Hoth, HS, Hg⟩
      iapply ((runInit c (grid1.coords t) _ _ _ _ _ _ _ _ _ _ _ _ _ _ ((hcondInit t).mpr h0) (fun h => h3 ((hcondLast t).mp h)) (pblk V c 0 t) (pblk V c 1 t) (pblk V c 2 t) (pblk V c 3 t) (pblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (initCoverAcc c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runInit c (grid1.coords t) _ _ _ _ _ _ _ _ _ _ _ _ _ _ ((hcondInit t).mpr h0) (fun h => h3 ((hcondLast t).mp h)) (pblk V c 0 t) (pblk V c 1 t) (pblk V c 2 t) (pblk V c 3 t) (pblk V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (initCoverAcc c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h3 : t.val % 4 = 3
    · rw [show (pdat V c).leavesExact 5 t = owns (c : Thread nD τ) (pm5 t) fullShare ((pdat V c).after 5 t) from by
        unfold Dat.leavesExact; rw [live1_5 t ((hcondLast t).mpr h3)], pafter5]
      rw [accAt_last V c t h0 h3, outAt_last V c t h0 h3]
      unfold lastAcc lastOut; (try dsimp only)
      rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((hcondInit t).mp h)) ((hcondLast t).mpr h3) (pblk V c 0 t) (pblk V c 1 t) (pblk V c 2 t) (pblk V c 3 t) (pblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (lastCoverAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (lastCoverOut c _ _ _ _ _ _ _ _ _ _ _ _ _ _ _ _ _ _ _ _ _ _ _)
    · rw [Dat.leavesExact_idle (pdat V c) 5 t (idle1_5 t (fun h => h3 ((hcondLast t).mp h))) (noFlush1_5 t (fun h => h3 ((hcondLast t).mp h)))]
      rw [accAt_mid V c t h0 h3]
      unfold midAcc; (try dsimp only)
      rw [PhiS_castSucc V c t, PhiS_pos V c _ _ hz]
      iintro ⟨⟨Hoth, HS, Hg⟩, Ho, ⟨%d0, H0⟩, ⟨%d1, H1⟩, ⟨%d2, H2⟩, ⟨%d3, H3⟩, ⟨%d4, H4⟩, ⟨%d5, H5⟩⟩
      iapply ((runMid c (grid1.coords t) _ _ _ _ _ _ _ _ _ _ _ _ _ _ (fun h => h0 ((hcondInit t).mp h)) (fun h => h3 ((hcondLast t).mp h)) (pblk V c 0 t) (pblk V c 1 t) (pblk V c 2 t) (pblk V c 3 t) (pblk V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (midCoverAcc c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation for the propagation region, at every point. -/
theorem pbody_obligation (c : Dev nD) : BodyObligation (pdat (F := F) V c) (defs₀ (F := F)) Variants.none () Set.univ := fun t => by
  rw [bigSep_W1, bigSep_W1]
  exact sound_pbody V c t

/-- What the region is entered with (the class invariant) is the invariant before the first point. -/
theorem p_hin (c : Dev nD) : (Pipeline.ΦA spec1 c : sProp 𝕄) ⊢ (pdat V c).Φ 0 := by
  rw [show (pdat V c).Φ 0 = PhiS V c 0 (Nat.zero_le _) from rfl, PhiS_zero V c 0 _ rfl]
  try exact Idealize.SL.BI.Entails.refl _

/-- After the last point the invariant gives the class invariant back: the accumulator's contents are forgotten. -/
theorem p_hout (c : Dev nD) : (pdat V c).Φ (Fin.last cfg1.N) ⊢ (Pipeline.ΦA spec1 c : sProp 𝕄) := by
  rw [show (pdat V c).Φ (Fin.last cfg1.N) = PhiS V c (Fin.last cfg1.N).val (Nat.le_of_lt_succ (Fin.last cfg1.N).isLt) from rfl,
    PhiS_pos V c _ _ (by rw [Fin.val_last]; have : cfg1.N = 32 := N_1; omega)]
  iintro ⟨Hoth, HS, Hg⟩
  iapply (phiA_close (F := F) c)
  isplitl [Hoth]; · iexact Hoth
  isplitl [HS]; · iexists _; iexact HS
  iexact Hg

end Cert.KernelIdeal.Fr

end
-- ==== Proof.KI.Bounds.lean ====
/-
  The whole program's run. @main is four items: the host operations that build the dense adjacency and the degree
  factors, the support region, one host reshape of the bias, the propagation region. The unscoped buffers' contents
  at each boundary are a fold from the launch memory: a host stretch applies its operations, a region replaces its
  output array by what its write-backs leave and keeps everything else. Each region is entered from "every unscoped
  buffer at the boundary's contents" and left at the next boundary's; the propagation region reads the scaled support
  through two windows, so at its entry that array's points-to is split into two half shares and at its exit joined
  again. The run ends with every unscoped buffer at the last boundary's contents, from which both the frame claim
  (the arguments as launched) and the result array are read.
-/
import proofs.«111453_j27599459844749_1_alg».proof.Proof.KI.Support
import proofs.«111453_j27599459844749_1_alg».proof.Proof.KI.PropagateBody
import proofs.«111453_j27599459844749_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the support region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the support region's exit: its arrays at what the pipeline leaves, every other buffer as entered. -/
def W2 (c : Dev nD) : Valuation τ sig (Elt F) :=
  Pipeline.withArrays spec0 c (W1 m ρ c) fun w => (sdat (V1 m ρ) c).arrAt w cfg0.N
theorem W2_arr (c : Dev nD) (w : Fin cfg0.W) :
    W2 m ρ c (Proc.devRef .tc (Pipeline.arrRef spec0 w)) = (sdat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (sdat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the propagation region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the propagation region's exit: its output array at what the write-backs leave, every other buffer as entered
    (its input arrays are not written; two of its windows read one array). -/
def W4 (c : Dev nD) : Valuation τ sig (Elt F) :=
  Function.update (W3 m ρ c) (Proc.devRef .tc main_v37) ((pdat (V3 m ρ) c).arrAt 5 cfg1.N)
theorem W4_out (c : Dev nD) : W4 m ρ c (Proc.devRef .tc main_v37) = (pdat (V3 m ρ) c).arrAt 5 cfg1.N := by
  unfold W4; exact Function.update_self _ _ _
theorem W4_of_ne (c : Dev nD) (b : Ref sig .tc) (hb : b ≠ main_v37) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((sdat (V1 m ρ) c).arrAt_in 0 rfl _).trans (sA_eq (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((sdat (V1 m ρ) c).arrAt_in 1 rfl _).trans (sA_eq (V1 m ρ) c 1))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

end Cert.KernelIdeal.Fr

end
-- ==== Proof.KernelHost.lean ====
/-
  The kernel program's host-side values as functions of the arguments, and the whole result as ONE function.
  From the edge list (row e, column e), with a negative index moved up by 8192, the program scatters the edge weights
  into a dense 8192 × 8192 adjacency A (A[r, c] = the sum of the weights of the edges (r, c)) and into the row degrees
  (deg[r] = the sum of the weights of the edges leaving r), and forms the degree factor D[r] = 1 / sqrt (deg[r] + 1 + eps).
  With S = x · W the support, the two kernel regions compute
      out[r, f] = ((sum over c of A[r, c] · (S[c, f] · D[c])) + S[r, f] · D[r]) · D[r] + bias[f].
-/
import proofs.«111453_j27599459844749_1_alg».proof.KernelIdeal
import proofs.«111453_j27599459844749_1_alg».proof.Proof.Gen.KernelIdeal
import Idealize.ShloMosaic.Lib.ValueIdx
import Idealize.ShloMosaic.PureOps.Ideal

noncomputable section

namespace Cert.KernelIdeal.HostVal

open Cert.KernelIdeal Cert.KernelIdeal.Gen Idealize.ShloMosaic Idealize.ShloMosaic.ValueIdx

variable {F : FTy → Type} [FloatOps F]

/-- Row 0 (the edges' rows) and row 1 (their columns) of the edge list, as vectors over the edges. -/
def edgeRowsRaw (x1 : IVec S2x262144 32) : IVec S262144 32 :=
  shapeCast S262144 (extractStridedSlice S1x262144 ![0, 0] x1 slices_S2x262144_S1x262144_0_0) shapeCasts_S1x262144_S262144
def edgeColsRaw (x1 : IVec S2x262144 32) : IVec S262144 32 :=
  shapeCast S262144 (extractStridedSlice S1x262144 ![1, 0] x1 slices_S2x262144_S1x262144_1_0) shapeCasts_S1x262144_S262144

/-- A negative index counts from the end: moved up by 8192. -/
def wrapIdx (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

def edgeRows (x1 : IVec S2x262144 32) : IVec S262144 32 := wrapIdx (edgeRowsRaw x1)
def edgeCols (x1 : IVec S2x262144 32) : IVec S262144 32 := wrapIdx (edgeColsRaw x1)

/-- The (row, column) pairs, one per edge. -/
def edgePairs (x1 : IVec S2x262144 32) : IVec S262144x2 32 :=
  concatenate S262144x2 1 [⟨S262144x1, broadcastInDim S262144x1 ![0] bcast_S262144_S262144x1_0 (edgeRows x1)⟩,
    ⟨S262144x1, broadcastInDim S262144x1 ![0] bcast_S262144_S262144x1_0 (edgeCols x1)⟩] concatenates_S262144x1_S262144x1_S262144x2_d1

/-- The dense adjacency: the edge weights scattered, with addition, into a zero matrix. -/
def adjDense (x1 : IVec S2x262144 32) (x2 : FVec F S262144 .f32) : FVec F S8192x8192 .f32 :=
  Host.scatterAdd scatter_S8192x8192_S262144x2_S262144_n_01_01_1
    (broadcastInDim S8192x8192 ![] bcast_S_S8192x8192 (constant S_ .f32 0x00000000#32)) (edgePairs x1) x2

/-- The weighted out-degrees: the edge weights scattered, with addition, by row into a zero vector. -/
def degRaw (x1 : IVec S2x262144 32) (x2 : FVec F S262144 .f32) : FVec F S8192 .f32 :=
  Host.scatterAdd scatter_S8192_S262144x1_S262144_n_0_0_1
    (broadcastInDim S8192 ![] bcast_S_S8192 (constant S_ .f32 0x00000000#32))
    (broadcastInDim S262144x1 ![0] bcast_S262144_S262144x1_0 (edgeRows x1)) x2

/-- deg + 1 (the self loop) + eps, the argument of the square root. -/
def degShift (x1 : IVec S2x262144 32) (x2 : FVec F S262144 .f32) : FVec F S8192 .f32 :=
  addf (addf (degRaw x1 x2) (broadcastInDim S8192 ![] bcast_S_S8192 (constant S_ .f32 0x3F800000#32)))
    (broadcastInDim S8192 ![] bcast_S_S8192 (constant S_ .f32 0x2EDBE6FF#32))

/-- The degree factor 1 / sqrt (deg + 1 + eps), as a vector and as a column. -/
def degFactor (x1 : IVec S2x262144 32) (x2 : FVec F S262144 .f32) : FVec F S8192 .f32 :=
  Host.divf (broadcastInDim S8192 ![] bcast_S_S8192 (constant S_ .f32 0x3F800000#32)) (Host.sqrt (degShift x1 x2))
def degFactorCol (x1 : IVec S2x262144 32) (x2 : FVec F S262144 .f32) : FVec F S8192x1 .f32 :=
  shapeCast S8192x1 (degFactor x1 x2) shapeCasts_S8192_S8192x1

/-- The bias as a row. -/
def biasRow (x4 : FVec F S128 .f32) : FVec F S1x128 .f32 := shapeCast S1x128 x4 shapeCasts_S128_S1x128

/-! ## The result as one function (at the ideal instance: extended reals) -/

/-- The support S = x · W at row `r`, feature `f`. -/
def support (x0 : FVec Ideal S8192x128 .f32) (x3 : FVec Ideal S128x128 .f32) (r : Fin 8192) (f : Fin 128) : EReal :=
  ∑ j : Fin 128, x0 (ix2 r j) * x3 (ix2 j f)

/-- The kernel program's result at row `r`, feature `f`, from an adjacency `A`, a column of degree factors `D`,
    the features, the weights and the bias row. -/
def resultAt (A : FVec Ideal S8192x8192 .f32) (D : FVec Ideal S8192x1 .f32) (x0 : FVec Ideal S8192x128 .f32)
    (x3 : FVec Ideal S128x128 .f32) (b : FVec Ideal S1x128 .f32) (r : Fin 8192) (f : Fin 128) : EReal :=
  ((∑ c : Fin 8192, A (ix2 r c) * (support x0 x3 c f * D (ix2 c (0 : Fin 1)))) + support x0 x3 r f * D (ix2 r (0 : Fin 1)))
      * D (ix2 r (0 : Fin 1)) + b (ix2 (0 : Fin 1) f)

/-- The kernel program's result array as one function of its arguments. -/
def result (x0 : FVec Ideal S8192x128 .f32) (x1 : IVec S2x262144 32) (x2 : FVec Ideal S262144 .f32)
    (x3 : FVec Ideal S128x128 .f32) (x4 : FVec Ideal S128 .f32) : FVec Ideal S8192x128 .f32 :=
  fun i => resultAt (adjDense (F := Ideal) x1 x2) (degFactorCol (F := Ideal) x1 x2) x0 x3 (biasRow (F := Ideal) x4) (i 0) (i 1)

end Cert.KernelIdeal.HostVal

end
-- ==== Proof.KI.HostVals.lean ====
/-
  What the two regions find in their input arrays, as functions of the program's arguments: the dense adjacency and
  the degree factors are the first host stretch's results; the scaled support is what the support region's write-backs
  leave; the bias row is the second host stretch's reshape.
-/
import proofs.«111453_j27599459844749_1_alg».proof.Proof.KI.Bounds
import proofs.«111453_j27599459844749_1_alg».proof.Proof.KernelHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.HostVal

variable (m : (ℓ : Loc nD τ sig) → Buf (Elt F) ℓ) (ρ : Dev nD → PrngReg)

set_option maxHeartbeats 8000000 in
/-- The dense adjacency after the first host stretch. -/
theorem W1_adj (c : Dev nD) :
    (W1 m ρ c (Proc.devRef .tc main_v18) : (⟨S8192x8192, .f32⟩ : BufTy).Contents (Elt F))
      = adjDense (F := F) (m ((c : Thread nD τ).loc main_arg1)) (m ((c : Thread nD τ).loc main_arg2)) := by
  dsimp only [W1, W0, hostOps0]; after_results_simp; rfl

set_option maxHeartbeats 8000000 in
/-- The column of degree factors after the first host stretch. -/
theorem W1_dinv (c : Dev nD) :
    (W1 m ρ c (Proc.devRef .tc main_v34) : (⟨S8192x1, .f32⟩ : BufTy).Contents (Elt F))
      = degFactorCol (F := F) (m ((c : Thread nD τ).loc main_arg1)) (m ((c : Thread nD τ).loc main_arg2)) := by
  dsimp only [W1, W0, hostOps0]; after_results_simp; rfl

/-- The arguments are as launched after the first host stretch. -/
theorem W1_arg0 (c : Dev nD) : W1 m ρ c (Proc.devRef .tc main_arg0) = m ((c : Thread nD τ).loc main_arg0) :=
  (StableHlo.after_of_writes_sub hostOps0 _ hostOps0_writes (by decide)).trans rfl
theorem W1_arg3 (c : Dev nD) : W1 m ρ c (Proc.devRef .tc main_arg3) = m ((c : Thread nD τ).loc main_arg3) :=
  (StableHlo.after_of_writes_sub hostOps0 _ hostOps0_writes (by decide)).trans rfl
theorem W1_arg4 (c : Dev nD) : W1 m ρ c (Proc.devRef .tc main_arg4) = m ((c : Thread nD τ).loc main_arg4) :=
  (StableHlo.after_of_writes_sub hostOps0 _ hostOps0_writes (by decide)).trans rfl

/-- What the propagation region finds: the adjacency and the degree factors as the first host stretch left them, -/
theorem W3_adj (c : Dev nD) : W3 m ρ c (Proc.devRef .tc main_v18) = W1 m ρ c (Proc.devRef .tc main_v18) :=
  (StableHlo.after_of_writes_sub hostOps1 _ hostOps1_writes (by decide)).trans (W2_of_ne m ρ c main_v18 (by decide))
theorem W3_dinv (c : Dev nD) : W3 m ρ c (Proc.devRef .tc main_v34) = W1 m ρ c (Proc.devRef .tc main_v34) :=
  (StableHlo.after_of_writes_sub hostOps1 _ hostOps1_writes (by decide)).trans
    ((W2_arr m ρ c 2).trans (((sdat (V1 m ρ) c).arrAt_in 2 rfl _).trans (sA_eq (V1 m ρ) c 2)))
/-- the scaled support as the support region's write-backs left it, -/
theorem W3_supp (c : Dev nD) : W3 m ρ c (Proc.devRef .tc main_v35) = (sdat (V1 m ρ) c).arrAt 3 cfg0.N :=
  (StableHlo.after_of_writes_sub hostOps1 _ hostOps1_writes (by decide)).trans (W2_arr m ρ c 3)
/-- and the bias as a row. -/
theorem W3_bias (c : Dev nD) :
    (W3 m ρ c (Proc.devRef .tc main_v36) : (⟨S1x128, .f32⟩ : BufTy).Contents (Elt F))
      = biasRow (F := F) (m ((c : Thread nD τ).loc main_arg4)) := by
  have e : (W3 m ρ c (Proc.devRef .tc main_v36) : (⟨S1x128, .f32⟩ : BufTy).Contents (Elt F))
      = biasRow (F := F) (W2 m ρ c (Proc.devRef .tc main_arg4)) := by
    dsimp only [W3, hostOps1]; after_results; rfl
  rw [e, W2_of_ne m ρ c main_arg4 (by decide), W1_arg4]

end Cert.KernelIdeal.Fr

end
-- ==== Proof.KI.SharedArrays.lean ====
/-
  The propagation region's arrays and a core's unscoped buffers. Five distinct buffers stand behind the region's six
  windows: the dense adjacency, the scaled support (read through TWO windows: the column tile's rows and the row
  tile's rows), the degree factors, the bias row and the output. Entering the region, the scaled support's points-to
  at the full share is split into a left and a right half, one per window; leaving it, the two halves, still at the
  contents the region found, are joined again.
-/
import proofs.«111453_j27599459844749_1_alg».proof.Proof.KI.PropagateData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the windows' arrays, listed. -/
theorem arrImage : Finset.univ.image (Pipeline.arrRef spec1) = [main_v18, main_v35, main_v34, main_v36, main_v37].toFinset := by decide

/-- The buffers behind the arrays, each whole at the full share, one by one. -/
theorem arrBufs_list (c : Dev nD) (V' : (b : Ref sig .tc) → Buf (Elt F) ((c : Thread nD τ).loc b)) :
    (Pipeline.arrBufs spec1 c V' : sProp 𝕄)
      = iprop((((c : Thread nD τ).loc main_v18) ↦{fullShare} V' main_v18) ∗ (((c : Thread nD τ).loc main_v35) ↦{fullShare} V' main_v35)
          ∗ (((c : Thread nD τ).loc main_v34) ↦{fullShare} V' main_v34) ∗ (((c : Thread nD τ).loc main_v36) ↦{fullShare} V' main_v36)
          ∗ (((c : Thread nD τ).loc main_v37) ↦{fullShare} V' main_v37)) :=
  bigSep_eq_bigSepL_of_eq [main_v18, main_v35, main_v34, main_v36, main_v37] arrImage (by decide) _

/-- The share each window holds of its array: the scaled support's two windows a half each. -/
abbrev shr : Fin 6 → PosShare TreeShare := ![fullShare, fullShare.left, fullShare.right, fullShare, fullShare, fullShare]

theorem share_eq (c : Dev nD) : ∀ w, (pdat V c).share w = shr w
  | ⟨0, _⟩ => rfl | ⟨1, _⟩ => rfl | ⟨2, _⟩ => rfl | ⟨3, _⟩ => rfl | ⟨4, _⟩ => rfl | ⟨5, _⟩ => rfl

/-- The region's arrays at contents `G`, window by window, each a whole buffer at the window's share. -/
theorem arrays_windows (c : Dev nD) (G : (w : Fin cfg1.W) → Buf (Elt F) ((cfg1.win w).arr.view.loc (c : Thread nD τ))) :
    ((pdat V c).arrays G : sProp 𝕄)
      = bigSep Finset.univ fun w : Fin 6 => ((((c : Thread nD τ).loc (Pipeline.arrRef spec1 w)) ↦{shr w} G w : sProp 𝕄)) := by
  unfold Dat.arrays
  exact bigSep_congr fun w _ => by rw [(arr_whole1 w).set_eq_univ, share_eq V c w]

set_option maxHeartbeats 4000000 in
/-- ENTRY: a core's unscoped buffers at `V` are the region's arrays at contents read off `V` and the unscoped rest. -/
theorem p_arrays_in (c : Dev nD) (G : (w : Fin cfg1.W) → Buf (Elt F) ((cfg1.win w).arr.view.loc (c : Thread nD τ)))
    (hG : ∀ w, G w = V c (Pipeline.arrRef spec1 w)) :
    (unscopedBufs c (V c) : sProp 𝕄)
      ⊢ iprop((pdat V c).arrays G ∗ Pipeline.unscopedRest spec1 c (V c)) := by
  have e : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [e]
  refine sep_mono ?_ .rfl
  rw [arrBufs_list, arrays_windows, bigSep_W1, hG 0, hG 1, hG 2, hG 3, hG 4, hG 5]
  iintro ⟨H18, H35, H34, H36, H37⟩
  ihave H35' := (pointsTo_share (PosShare.mem_left_op_right fullShare)).1 $$ H35
  icases H35' with ⟨H35l, H35r⟩
  isplitl [H18]; · iexact H18
  isplitl [H35l]; · iexact H35l
  isplitl [H35r]; · iexact H35r
  isplitl [H34]; · iexact H34
  isplitl [H36]; · iexact H36
  iexact H37

set_option maxHeartbeats 4000000 in
/-- EXIT: the region's arrays at contents `G` and the unscoped rest at `V` are the core's unscoped buffers at any
    valuation `V'` that has the arrays at `G` and agrees with `V` off them. -/
theorem p_arrays_out (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((pdat V c).arrays G ∗ Pipeline.unscopedRest spec1 c (V c))
      ⊢ (unscopedBufs c V' : sProp 𝕄) := by
  have e : (unscopedBufs c V' : sProp 𝕄) = iprop(Pipeline.arrBufs spec1 c V' ∗ Pipeline.unscopedRest spec1 c V') :=
    Pipeline.unscopedBufs_split₀ cfgs 1 winFacts₀1.arr_unscoped c V'
  rw [e]
  refine sep_mono ?_ (Entails.of_eq ?_)
  · rw [arrBufs_list, arrays_windows, bigSep_W1, hG 0, hG 1, hG 2, hG 3, hG 4, hG 5]
    iintro ⟨H18, H35l, H35r, H34, H36, H37⟩
    isplitl [H18]; · iexact H18
    isplitl [H35l H35r]
    · iapply (pointsTo_share (PosShare.mem_left_op_right fullShare)).2
      isplitl [H35l]; · iexact H35l
      iexact H35r
    isplitl [H34]; · iexact H34
    isplitl [H36]; · iexact H36
    iexact H37
  · unfold Pipeline.unscopedRest
    exact bigSep_congr fun b hb => by rw [hrest b (Finset.mem_sdiff.mp hb).2]

end Cert.KernelIdeal.Fr

end
-- ==== Proof.KI.Run.lean ====
/-
  The run of the whole program over its four items, ending with every unscoped buffer at the last boundary's contents.
-/
import proofs.«111453_j27599459844749_1_alg».proof.Proof.KI.Bounds
import proofs.«111453_j27599459844749_1_alg».proof.Proof.KI.SharedArrays

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => sdat (V1 m ρ) c
  | ⟨1, _⟩ => fun c => pdat (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- At the propagation region's exit each of its arrays holds what the pipeline leaves — an input array what the region
    found, the output array its write-backs — and every other buffer what it held at entry. -/
theorem hF1 (c : Dev nD) : ∀ w, (pdat (V3 m ρ) c).arrAt w cfg1.N = V4 m ρ c (Pipeline.arrRef spec1 w)
  | ⟨0, _⟩ => ((pdat (V3 m ρ) c).arrAt_in 0 rfl _).trans ((pA_eq (V3 m ρ) c 0).trans (W4_of_ne m ρ c main_v18 (by decide)).symm)
  | ⟨1, _⟩ => ((pdat (V3 m ρ) c).arrAt_in 1 rfl _).trans ((pA_eq (V3 m ρ) c 1).trans (W4_of_ne m ρ c main_v35 (by decide)).symm)
  | ⟨2, _⟩ => ((pdat (V3 m ρ) c).arrAt_in 2 rfl _).trans ((pA_eq (V3 m ρ) c 2).trans (W4_of_ne m ρ c main_v35 (by decide)).symm)
  | ⟨3, _⟩ => ((pdat (V3 m ρ) c).arrAt_in 3 rfl _).trans ((pA_eq (V3 m ρ) c 3).trans (W4_of_ne m ρ c main_v34 (by decide)).symm)
  | ⟨4, _⟩ => ((pdat (V3 m ρ) c).arrAt_in 4 rfl _).trans ((pA_eq (V3 m ρ) c 4).trans (W4_of_ne m ρ c main_v36 (by decide)).symm)
  | ⟨5, _⟩ => (W4_out m ρ c).symm
theorem hrest1 (c : Dev nD) : ∀ b, b ∉ Finset.univ.image (Pipeline.arrRef spec1) → V4 m ρ c b = V3 m ρ c b :=
  fun b hb => W4_of_ne m ρ c b (fun e => hb (by rw [e, arrImage]; decide))

set_option backward.isDefEq.respectTransparency.types false in
/-- The support region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (sbody_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The propagation region over the thread state: entered from every unscoped buffer at `W3`, left at `W4`. Its
    arrays are split out of the unscoped buffers with the scaled support halved between its two windows, and joined
    back at the exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (pbody_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) :=
      p_arrays_in (V3 m ρ) c ((pdat (V3 m ρ) c).arrAt · 0) (fun w => pA_eq (V3 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (p_hin (V3 m ρ) c)
    unfold Pipeline.ΦA
    iintro ⟨Hp, -, Hr⟩
    isplitl [Hr]; · iexact Hr
    iexact Hp
  hout c := by
    rw [Pipeline.ownSems0_none]
    refine BIBase.Entails.trans (p_hout (V3 m ρ) c) ?_
    unfold Pipeline.ΦA
    iintro ⟨Hr, Hp⟩
    isplitl [Hp]; · iexact Hp
    isplitr; · iempintro
    iexact Hr
  hexit c := by
    have hjoin : (iprop((pdats m ρ 1 c).arrays ((pdats m ρ 1 c).arrAt · cfg1.N) ∗ Pipeline.unscopedRest spec1 c (V3 m ρ c)) : sProp 𝕄)
        ⊢ unscopedBufs c (V4 m ρ c) :=
      p_arrays_out (V3 m ρ) c (V4 m ρ c) ((pdat (V3 m ρ) c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

/-- The run with the result array named: it ends at what the propagation region's write-backs leave. -/
theorem run_result : θ_run defs (onTc (τ := τ) (main (F := F))) ⟨m, fun _ => 0, ρ⟩ (fun r => ∀ c : Dev nD,
      r.2.mem ((c.tc : Thread nD τ).loc main_v37) = (pdat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v37 (by decide))).trans (W4_out m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Fr

end
-- ==== Proof.KI.KernelValue.lean ====
/-
  The kernel program's result array as one function of its arguments (at the ideal instance): what the propagation
  region's write-backs leave, with the arrays it found read back to the arguments — the dense adjacency and the degree
  factors from the first host stretch, the scaled support from the support region, the bias row from the reshape.
-/
import proofs.«111453_j27599459844749_1_alg».proof.Proof.KI.PropagateValue
import proofs.«111453_j27599459844749_1_alg».proof.Proof.KI.SupportValue
import proofs.«111453_j27599459844749_1_alg».proof.Proof.KI.HostVals
import proofs.«111453_j27599459844749_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Pay Cert.KernelIdeal.HostVal

variable (m : (ℓ : Loc nD τ sig) → Buf (Elt Ideal) ℓ) (ρ : Dev nD → PrngReg)

/-- THE RESULT: out[r, f] = ((sum over c of A[r, c] · (S[c, f] · D[c])) + S[r, f] · D[r]) · D[r] + bias[f]. -/
theorem kernel_value (c : Dev nD) :
    (pdat (V3 m ρ) c).arrAt 5 cfg1.N
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have e18 : V3 m ρ c main_v18 = adjDense (F := Ideal) (m ((c : Thread nD τ).loc main_arg1)) (m ((c : Thread nD τ).loc main_arg2)) :=
    (W3_adj m ρ c).trans (W1_adj m ρ c)
  have e34 : V3 m ρ c main_v34 = degFactorCol (F := Ideal) (m ((c : Thread nD τ).loc main_arg1)) (m ((c : Thread nD τ).loc main_arg2)) :=
    (W3_dinv m ρ c).trans (W1_dinv m ρ c)
  have e36 : V3 m ρ c main_v36 = biasRow (F := Ideal) (m ((c : Thread nD τ).loc main_arg4)) := W3_bias m ρ c
  have e35 : V3 m ρ c main_v35 = suppG (V1 m ρ) c := (W3_supp m ρ c).trans (sfinal (V1 m ρ) c)
  have a0 : V1 m ρ c main_arg0 = m ((c : Thread nD τ).loc main_arg0) := W1_arg0 m ρ c
  have a3 : V1 m ρ c main_arg3 = m ((c : Thread nD τ).loc main_arg3) := W1_arg3 m ρ c
  have d34 : V1 m ρ c main_v34 = degFactorCol (F := Ideal) (m ((c : Thread nD τ).loc main_arg1)) (m ((c : Thread nD τ).loc main_arg2)) :=
    W1_dinv m ρ c
  rw [pfinal]
  funext i
  unfold propG propAt
  rw [e18, e34, e36, e35]
  unfold suppG
  rw [a0, a3, d34]
  rfl

/-- The kernel program's run at the ideal instance, the result array named as that function of the arguments. -/
theorem kernel_run : θ_run defs (onTc (τ := τ) (main (F := Ideal))) ⟨m, fun _ => 0, ρ⟩ (fun r => ∀ c : Dev nD,
      r.2.mem ((c.tc : Thread nD τ).loc main_v37)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (kernel_value m ρ c), (h c).2⟩) (run_result (F := Ideal) m ρ)

end Cert.KernelIdeal.Fr

end
-- ==== Proof.BridgeAlgebra.lean ====
/-
  Identities of finite sums of real numbers, read inside the extended reals.

  A finite sum of (coerced) reals is the coerced real sum. With a row `a` of an adjacency matrix, supports `S`,
  degree factors `d` (all real) and `δ` the Kronecker symbol,
      ((Σ_c a c · (S c · d c)) + S r · d r) · d r  =  Σ_c ((d r · (a c + δ r c)) · d c) · S c,
  because the δ-term of the right-hand sum is the single summand c = r. Likewise the row sum of a + δ is the row
  sum of a plus one.
-/
import Mathlib.Data.EReal.Inv
import Mathlib.Algebra.BigOperators.Ring.Finset
import Mathlib.Tactic.Ring

noncomputable section

open scoped BigOperators

namespace Cert.Bridge

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty, EReal.coe_zero]
  · intro i s hi ih
    rw [Finset.sum_insert hi, Finset.sum_insert hi, EReal.coe_add, ih]

/-- A finite sum of extended reals each of which is a real is a real. -/
theorem sum_real {ι : Type*} (s : Finset ι) (f : ι → EReal) (hf : ∀ i ∈ s, ∃ a : ℝ, f i = (a : EReal)) :
    ∃ a : ℝ, ∑ i ∈ s, f i = (a : EReal) := by
  classical
  refine ⟨∑ i ∈ s, (f i).toReal, ?_⟩
  rw [coe_sum]
  refine Finset.sum_congr rfl fun i hi => ?_
  obtain ⟨a, ha⟩ := hf i hi
  rw [ha, EReal.toReal_coe]

/-- The Kronecker symbol sums to one along a row. -/
theorem sum_delta {n : ℕ} (r : Fin n) : ∑ k : Fin n, (if r = k then (1 : ℝ) else 0) = 1 := by
  rw [Finset.sum_ite_eq, if_pos (Finset.mem_univ r)]

/-- The real identity behind the bridge. -/
theorem bridge_real {n : ℕ} (a S d : Fin n → ℝ) (r : Fin n) :
    ((∑ c, a c * (S c * d c)) + S r * d r) * d r
      = ∑ c, ((d r * (a c + (if r = c then (1 : ℝ) else 0))) * d c) * S c := by
  have hterm : ∀ c, ((d r * (a c + (if r = c then (1 : ℝ) else 0))) * d c) * S c
      = a c * (S c * d c) * d r + (if r = c then S c * d c * d r else 0) := by
    intro c
    by_cases h : r = c
    · rw [if_pos h, if_pos h]; ring
    · rw [if_neg h, if_neg h]; ring
  rw [Finset.sum_congr rfl fun c _ => hterm c, Finset.sum_add_distrib, Finset.sum_ite_eq,
    if_pos (Finset.mem_univ r), add_mul, Finset.sum_mul]

/-- The same identity among extended reals that are all reals. -/
theorem bridge_ereal {n : ℕ} (a S d : Fin n → ℝ) (r : Fin n) :
    ((∑ c, (a c : EReal) * ((S c : EReal) * (d c : EReal))) + (S r : EReal) * (d r : EReal)) * (d r : EReal)
      = ∑ c, (((d r : EReal) * ((a c : EReal) + ((if r = c then (1 : ℝ) else 0 : ℝ) : EReal))) * (d c : EReal)) * (S c : EReal) := by
  have hl : ∀ c, (a c : EReal) * ((S c : EReal) * (d c : EReal)) = ((a c * (S c * d c) : ℝ) : EReal) := by
    intro c; rw [EReal.coe_mul, EReal.coe_mul]
  have hr : ∀ c, (((d r : EReal) * ((a c : EReal) + ((if r = c then (1 : ℝ) else 0 : ℝ) : EReal))) * (d c : EReal)) * (S c : EReal)
      = ((((d r * (a c + (if r = c then (1 : ℝ) else 0))) * d c) * S c : ℝ) : EReal) := by
    intro c; rw [EReal.coe_mul, EReal.coe_mul, EReal.coe_mul, EReal.coe_add]
  rw [Finset.sum_congr rfl fun c _ => hl c, Finset.sum_congr rfl fun c _ => hr c, ← coe_sum, ← coe_sum,
    ← EReal.coe_mul, ← EReal.coe_add, ← EReal.coe_mul, bridge_real]

/-- Row sums: the row sum of `a + δ` from a zero start, is the row sum of `a` plus one. -/
theorem rowsum_delta {n : ℕ} (a : Fin n → ℝ) (r : Fin n) :
    (0 : EReal) + ∑ k, ((a k : EReal) + ((if r = k then (1 : ℝ) else 0 : ℝ) : EReal)) = (∑ c, (a c : EReal)) + 1 := by
  rw [zero_add, Finset.sum_add_distrib, ← coe_sum Finset.univ (fun k => if r = k then (1 : ℝ) else 0), sum_delta,
    EReal.coe_one]

end Cert.Bridge

end
-- ==== Proof.BridgePre.lean ====
/-
  What the precondition says, element by element.

  The precondition is a conjunction of six `all`-reductions that is stated to be true. Read back: every element of
  the four float arguments has absolute value below +∞, so it is a real number; every entry of the edge list,
  read signed, lies in [0, 8192); and at every row the weighted degree plus one plus eps is positive.
-/
import proofs.«111453_j27599459844749_1_alg».proof.Proof.KernelHost
import proofs.«111453_j27599459844749_1_alg».proof.Pre_finite_inputs
import proofs.«111453_j27599459844749_1_alg».proof.Proof.Gen.Pre_finite_inputs
import Idealize.ShloMosaic.Lib.ValueIdx
import Idealize.ShloMosaic.Lib.ReduceAll
import Idealize.ShloMosaic.Lib.IdealHost
import Idealize.ShloMosaic.PureOps.Ideal.Laws

noncomputable section

namespace Cert.Bridge

open Idealize.ShloMosaic Idealize.ShloMosaic.ValueIdx
open Cert.KernelIdeal.HostVal

/-- A rank-0 array has one index. -/
instance subsingleton_idx0 : Subsingleton (⟨0, ![]⟩ : Shape).Idx := ⟨fun _ _ => funext fun d => d.elim0⟩

/-- An extended real whose absolute value is below the pattern of +∞ is a real number. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  by_cases hb : x = ⊥
  · subst hb; exfalso; revert h; simp [Ideal.cmp]
  by_cases ht : x = ⊤
  · subst ht; exfalso; revert h; simp [Ideal.cmp]
  exact ⟨x.toReal, (EReal.coe_toReal ht hb).symm⟩

/-- A true "greater than" comparison is the strict order. -/
theorem lt_of_cmp_ogt (y z : EReal) (h : Ideal.cmp .ogt y z = 1#1) : z < y := by
  by_cases hlt : z < y
  · exact hlt
  · exfalso; revert h; simp [Ideal.cmp, hlt]

/-- An array all of whose absolute values compare below a broadcast +∞ consists of reals. -/
theorem real_of_all_finite {s : Shape} (x : FVec Ideal s .f32) (hb : (⟨0, ![]⟩ : Shape).BroadcastsInDim s ![]) (i : s.Idx)
    (h : cmpf .olt (Host.absf x) (broadcastInDim s ![] hb (constant (F := Ideal) (⟨0, ![]⟩ : Shape) .f32 0x7F800000#32)) i = 1#1) :
    ∃ a : ℝ, x i = (a : EReal) := by
  rw [cmpf_apply, broadcastInDim_scalar_apply] at h
  exact real_of_abs_lt_inf (x i) h

/-- The precondition, decoded. -/
theorem pre_decode
    (x0 : FVec Ideal Cert.KernelIdeal.S8192x128 .f32) (x1 : IVec Cert.KernelIdeal.S2x262144 32)
    (x2 : FVec Ideal Cert.KernelIdeal.S262144 .f32) (x3 : FVec Ideal Cert.KernelIdeal.S128x128 .f32)
    (x4 : FVec Ideal Cert.KernelIdeal.S128 .f32)
    (hpre : Cert.Pre_finite_inputs.fn (F := Ideal) x0 x1 x2 x3 x4 = fun _ => 1#1) :
    (∀ i, ∃ a : ℝ, x0 i = (a : EReal)) ∧ (∀ i, ∃ a : ℝ, x2 i = (a : EReal)) ∧ (∀ i, ∃ a : ℝ, x3 i = (a : EReal)) ∧
    (∀ i, ∃ a : ℝ, x4 i = (a : EReal)) ∧ (∀ i, 0 ≤ (x1 i).toInt ∧ (x1 i).toInt < 8192) ∧
    (∀ i, (0 : EReal) < degShift (F := Ideal) x1 x2 i) := by
  have h := congrFun hpre ValueIdx.ix0
  dsimp only [Cert.Pre_finite_inputs.fn, Cert.Pre_finite_inputs.fn_part1, Cert.Pre_finite_inputs.fn_part2] at h
  obtain ⟨h, hpos⟩ := IntOp.andi_eq_one.1 h
  obtain ⟨h, hrng⟩ := IntOp.andi_eq_one.1 h
  obtain ⟨h, hf4⟩ := IntOp.andi_eq_one.1 h
  obtain ⟨h, hf3⟩ := IntOp.andi_eq_one.1 h
  obtain ⟨hf0, hf2⟩ := IntOp.andi_eq_one.1 h
  refine ⟨fun i => ?_, fun i => ?_, fun i => ?_, fun i => ?_, fun i => ?_, fun i => ?_⟩
  · exact real_of_all_finite x0 _ i (Host.reduce_andi_all _ _ _ _ _ hf0 i)
  · exact real_of_all_finite x2 _ i (Host.reduce_andi_all _ _ _ _ _ hf2 i)
  · exact real_of_all_finite x3 _ i (Host.reduce_andi_all _ _ _ _ _ hf3 i)
  · exact real_of_all_finite x4 _ i (Host.reduce_andi_all _ _ _ _ _ hf4 i)
  · have e := Host.reduce_andi_all _ _ _ _ _ hrng i
    obtain ⟨e0, e1⟩ := IntOp.andi_eq_one.1 e
    have e0' : IntOp.cmpi .sge (x1 i) (broadcastInDim _ ![] Cert.Pre_finite_inputs.Facts.bcast_S_S2x262144
        (constantI (⟨0, ![]⟩ : Shape) 32 0#32) i) = 1#1 := e0
    have e1' : IntOp.cmpi .slt (x1 i) (broadcastInDim _ ![] Cert.Pre_finite_inputs.Facts.bcast_S_S2x262144
        (constantI (⟨0, ![]⟩ : Shape) 32 8192#32) i) = 1#1 := e1
    rw [broadcastInDim_scalar_apply] at e0' e1'
    exact ⟨IntOp.cmpi_sge.1 e0', IntOp.cmpi_slt.1 e1'⟩
  · have e := Host.reduce_andi_all _ _ _ _ _ hpos i
    rw [cmpf_apply, broadcastInDim_scalar_apply] at e
    have e' := lt_of_cmp_ogt _ _ e
    rw [constant_apply, Ideal.ofBits_zero_f32] at e'
    exact e'

end Cert.Bridge

end
-- ==== Proof.BridgeScatter.lean ====
/-
  The two accumulating scatters of the edge weights, as explicit sums.

  An update (edge) `j` lands at the operand index whose coordinates are the start indices read, signed, from the
  index tensor (all operand axes are inserted window axes, so the window coordinate is zero). Hence the scatter-add
  into a matrix `z` is, at (r, c), `z (r, c)` plus the sum of the weights of the edges whose index pair is (r, c),
  and the scatter-add into a vector is, at r, `z r` plus the sum of the weights of the edges whose index is r.
  When every column index is in range, each edge of row r lies in exactly one column, so summing the matrix sums over
  the columns gives the vector sum (a sum over fibres).
-/
import Idealize.ShloMosaic.Lib.ValueIdx
import Idealize.ShloMosaic.PureOps.Ideal
import proofs.«111453_j27599459844749_1_alg».proof.Proof.BridgeAlgebra

noncomputable section

open scoped BigOperators

namespace Cert.Bridge

open Idealize.ShloMosaic Idealize.ShloMosaic.ValueIdx

abbrev SOp2 : Shape := ⟨2, ![8192, 8192]⟩
abbrev SOp1 : Shape := ⟨1, ![8192]⟩
abbrev SIx2 : Shape := ⟨2, ![262144, 2]⟩
abbrev SIx1 : Shape := ⟨2, ![262144, 1]⟩
abbrev SUp : Shape := ⟨1, ![262144]⟩

/-- The matrix scatter's dimension numbers: no window axes, both operand axes inserted and indexed. -/
abbrev d2 (h : ScatterDims.WF SOp2 SIx2 SUp [] [0, 1] [0, 1] 1) : ScatterDims SOp2 SIx2 SUp := ⟨[], [0, 1], [0, 1], 1, h⟩
/-- The vector scatter's dimension numbers. -/
abbrev d1 (h : ScatterDims.WF SOp1 SIx1 SUp [] [0] [0] 1) : ScatterDims SOp1 SIx1 SUp := ⟨[], [0], [0], 1, h⟩

/-! ## Where an update lands -/

/-- Into a matrix: the update lands at (r, c) exactly when start + window is r on axis 0 and c on axis 1. -/
theorem resultIdx?_rank2 {n0 n1 : ℕ} {si u : Shape} (d : ScatterDims ⟨2, ![n0, n1]⟩ si u) {w : ℕ} (j : u.Idx)
    (idx : IVec si w) (r : Fin n0) (c : Fin n1) :
    d.resultIdx? j idx = some (ix2 r c) ↔
      d.start j idx 0 + d.window j 0 = (r.val : Int) ∧ d.start j idx 1 + d.window j 1 = (c.val : Int) := by
  unfold ScatterDims.resultIdx?
  constructor
  · intro H
    split at H
    · next hh =>
      have H' := Option.some.inj H
      have h0 : (d.start j idx 0 + d.window j 0).toNat = r.val := congrArg (fun f => (f 0).val) H'
      have h1 : (d.start j idx 1 + d.window j 1).toNat = c.val := congrArg (fun f => (f 1).val) H'
      have p0 := (hh 0).1
      have p1 := (hh 1).1
      constructor <;> omega
    · exact absurd H.symm (Option.some_ne_none _)
  · rintro ⟨h0, h1⟩
    split
    · refine congrArg some (funext fun a => Fin.ext ?_)
      match a with
      | ⟨0, _⟩ => show (d.start j idx 0 + d.window j 0).toNat = r.val; omega
      | ⟨1, _⟩ => show (d.start j idx 1 + d.window j 1).toNat = c.val; omega
    · next hh =>
      refine absurd (fun a => ?_) hh
      match a with
      | ⟨0, _⟩ =>
        have := r.isLt
        exact ⟨by show (0 : Int) ≤ d.start j idx 0 + d.window j 0; omega,
          by show d.start j idx 0 + d.window j 0 < ((n0 : ℕ) : Int); omega⟩
      | ⟨1, _⟩ =>
        have := c.isLt
        exact ⟨by show (0 : Int) ≤ d.start j idx 1 + d.window j 1; omega,
          by show d.start j idx 1 + d.window j 1 < ((n1 : ℕ) : Int); omega⟩

/-- Into a vector: the update lands at r exactly when start + window is r. -/
theorem resultIdx?_rank1 {n0 : ℕ} {si u : Shape} (d : ScatterDims ⟨1, ![n0]⟩ si u) {w : ℕ} (j : u.Idx)
    (idx : IVec si w) (r : Fin n0) :
    d.resultIdx? j idx = some (ix1 r) ↔ d.start j idx 0 + d.window j 0 = (r.val : Int) := by
  unfold ScatterDims.resultIdx?
  constructor
  · intro H
    split at H
    · next hh =>
      have H' := Option.some.inj H
      have h0 : (d.start j idx 0 + d.window j 0).toNat = r.val := congrArg (fun f => (f 0).val) H'
      have p0 := (hh 0).1
      omega
    · exact absurd H.symm (Option.some_ne_none _)
  · intro h0
    split
    · refine congrArg some (funext fun a => Fin.ext ?_)
      match a with
      | ⟨0, _⟩ => show (d.start j idx 0 + d.window j 0).toNat = r.val; omega
    · next hh =>
      refine absurd (fun a => ?_) hh
      match a with
      | ⟨0, _⟩ =>
        have := r.isLt
        exact ⟨by show (0 : Int) ≤ d.start j idx 0 + d.window j 0; omega,
          by show d.start j idx 0 + d.window j 0 < ((n0 : ℕ) : Int); omega⟩

/-! ## The start indices and windows of the two scatters -/

theorem start2_0 (h) (j : SUp.Idx) (idx : IVec SIx2 32) : (d2 h).start j idx 0 = (idx (ix2 (j 0) 0)).toInt := by
  unfold ScatterDims.start
  rw [dif_pos (show (0 : Fin SOp2.rank) ∈ ([0, 1] : List (Fin SOp2.rank)) by decide)]
  refine congrArg (fun k => (idx k).toInt) (funext fun b => Fin.ext ?_)
  match b with
  | ⟨0, _⟩ => rfl
  | ⟨1, _⟩ => rfl

theorem start2_1 (h) (j : SUp.Idx) (idx : IVec SIx2 32) : (d2 h).start j idx 1 = (idx (ix2 (j 0) 1)).toInt := by
  unfold ScatterDims.start
  rw [dif_pos (show (1 : Fin SOp2.rank) ∈ ([0, 1] : List (Fin SOp2.rank)) by decide)]
  refine congrArg (fun k => (idx k).toInt) (funext fun b => Fin.ext ?_)
  match b with
  | ⟨0, _⟩ => rfl
  | ⟨1, _⟩ => rfl

theorem window2 (h) (j : SUp.Idx) (a : Fin 2) : (d2 h).window j a = 0 := by
  unfold ScatterDims.window
  rw [dif_neg (show a ∉ SOp2.kept ([0, 1] : List (Fin SOp2.rank)) by revert a; decide)]

theorem start1_0 (h) (j : SUp.Idx) (idx : IVec SIx1 32) : (d1 h).start j idx 0 = (idx (ix2 (j 0) 0)).toInt := by
  unfold ScatterDims.start
  rw [dif_pos (show (0 : Fin SOp1.rank) ∈ ([0] : List (Fin SOp1.rank)) by decide)]
  refine congrArg (fun k => (idx k).toInt) (funext fun b => Fin.ext ?_)
  match b with
  | ⟨0, _⟩ => rfl
  | ⟨1, _⟩ => rfl

theorem window1 (h) (j : SUp.Idx) (a : Fin 1) : (d1 h).window j a = 0 := by
  unfold ScatterDims.window
  rw [dif_neg (show a ∉ SOp1.kept ([0] : List (Fin SOp1.rank)) by revert a; decide)]

/-- An edge lands at (r, c) of the matrix exactly when its index pair, read signed, is (r, c). -/
theorem resultIdx2_iff (h) (j : SUp.Idx) (idx : IVec SIx2 32) (r c : Fin 8192) :
    (d2 h).resultIdx? j idx = some (ix2 r c) ↔
      (idx (ix2 (j 0) 0)).toInt = (r.val : Int) ∧ (idx (ix2 (j 0) 1)).toInt = (c.val : Int) := by
  rw [resultIdx?_rank2, start2_0, start2_1, window2 h j 0, window2 h j 1, Nat.cast_zero, add_zero, add_zero]

/-- An edge lands at r of the vector exactly when its index, read signed, is r. -/
theorem resultIdx1_iff (h) (j : SUp.Idx) (idx : IVec SIx1 32) (r : Fin 8192) :
    (d1 h).resultIdx? j idx = some (ix1 r) ↔ (idx (ix2 (j 0) 0)).toInt = (r.val : Int) := by
  rw [resultIdx?_rank1, start1_0, window1 h j 0, Nat.cast_zero, add_zero]

/-! ## The scatters as sums -/

/-- The matrix scatter-add at (r, c): the operand plus the weights of the edges whose index pair is (r, c). -/
theorem scatter2_apply (h) (z : SOp2.Idx → EReal) (idx : IVec SIx2 32) (upd : SUp.Idx → EReal) (r c : Fin 8192) :
    Ideal.hostScatterAdd (d2 h) z idx upd (ix2 r c) = z (ix2 r c) +
      ∑ j : SUp.Idx, if (idx (ix2 (j 0) 0)).toInt = (r.val : Int) ∧ (idx (ix2 (j 0) 1)).toInt = (c.val : Int) then upd j else 0 := by
  unfold Ideal.hostScatterAdd
  rw [Finset.sum_filter]
  refine congrArg (z (ix2 r c) + ·) (Finset.sum_congr rfl fun j _ => ?_)
  exact if_congr (resultIdx2_iff h j idx r c) rfl rfl

/-- The vector scatter-add at r: the operand plus the weights of the edges whose index is r. -/
theorem scatter1_apply (h) (z : SOp1.Idx → EReal) (idx : IVec SIx1 32) (upd : SUp.Idx → EReal) (r : Fin 8192) :
    Ideal.hostScatterAdd (d1 h) z idx upd (ix1 r) = z (ix1 r) +
      ∑ j : SUp.Idx, if (idx (ix2 (j 0) 0)).toInt = (r.val : Int) then upd j else 0 := by
  unfold Ideal.hostScatterAdd
  rw [Finset.sum_filter]
  refine congrArg (z (ix1 r) + ·) (Finset.sum_congr rfl fun j _ => ?_)
  exact if_congr (resultIdx1_iff h j idx r) rfl rfl

/-- A scatter-add of real weights into a real operand is real everywhere. -/
theorem scatter_real {s si su : Shape} (d : ScatterDims s si su) {w : ℕ} (z : s.Idx → EReal) (idx : IVec si w)
    (upd : su.Idx → EReal) (hz : ∀ i, ∃ a : ℝ, z i = (a : EReal)) (hu : ∀ j, ∃ a : ℝ, upd j = (a : EReal)) (i : s.Idx) :
    ∃ a : ℝ, Ideal.hostScatterAdd d z idx upd i = (a : EReal) := by
  unfold Ideal.hostScatterAdd
  obtain ⟨a, ha⟩ := hz i
  obtain ⟨b, hb⟩ := sum_real (Finset.univ.filter (fun j => d.resultIdx? j idx = some i)) upd (fun j _ => hu j)
  exact ⟨a + b, by rw [ha, hb, EReal.coe_add]⟩

/-- The sum over fibres: when every column index is in range, the edges of row r are split by their column. -/
theorem fiber_sum (idx2 : IVec SIx2 32) (idx1 : IVec SIx1 32) (upd : SUp.Idx → EReal) (r : Fin 8192)
    (hrow : ∀ j : SUp.Idx, (idx2 (ix2 (j 0) 0)).toInt = (idx1 (ix2 (j 0) 0)).toInt)
    (hcol : ∀ j : SUp.Idx, 0 ≤ (idx2 (ix2 (j 0) 1)).toInt ∧ (idx2 (ix2 (j 0) 1)).toInt < 8192) :
    ∑ c : Fin 8192, ∑ j : SUp.Idx,
        (if (idx2 (ix2 (j 0) 0)).toInt = (r.val : Int) ∧ (idx2 (ix2 (j 0) 1)).toInt = (c.val : Int) then upd j else 0)
      = ∑ j : SUp.Idx, if (idx1 (ix2 (j 0) 0)).toInt = (r.val : Int) then upd j else 0 := by
  rw [Finset.sum_comm]
  refine Finset.sum_congr rfl fun j _ => ?_
  obtain ⟨hc0, hc1⟩ := hcol j
  rw [← hrow j]
  by_cases hr : (idx2 (ix2 (j 0) 0)).toInt = (r.val : Int)
  · rw [if_pos hr]
    have hcj : (idx2 (ix2 (j 0) 1)).toInt.toNat < 8192 := by omega
    rw [Finset.sum_eq_single (⟨(idx2 (ix2 (j 0) 1)).toInt.toNat, hcj⟩ : Fin 8192)]
    · rw [if_pos ⟨hr, by show (idx2 (ix2 (j 0) 1)).toInt = (((idx2 (ix2 (j 0) 1)).toInt.toNat : ℕ) : Int); omega⟩]
    · intro c _ hne
      rw [if_neg]
      rintro ⟨_, hc⟩
      exact hne (Fin.ext (by show c.val = (idx2 (ix2 (j 0) 1)).toInt.toNat; omega))
    · intro hn; exact absurd (Finset.mem_univ _) hn
  · rw [if_neg hr]
    exact Finset.sum_eq_zero fun c _ => if_neg (fun hh => hr hh.1)

end Cert.Bridge

end
-- ==== Proof.BridgeKer.lean ====
/-
  The kernel program's host-side values read at an index.

  The index pair of edge e is (row e, column e): the pair tensor is the concatenation of the row and the column
  vectors as columns. A column index in [0, 8192) is left alone by the negative-index normalisation, so the columns of
  the pair tensor are in range. The dense adjacency and the row degrees are then explicit sums over the edges, the
  row degree is the sum of the adjacency's row, every adjacency entry is real, and the degree factor at row r is
  1 / sqrt (degree r + 1 + eps).
-/
import proofs.«111453_j27599459844749_1_alg».proof.Proof.KernelHost
import proofs.«111453_j27599459844749_1_alg».proof.Proof.BridgeScatter
import Idealize.ShloMosaic.Lib.ValueIdx
import Idealize.ShloMosaic.Lib.Pipeline.Value
import Idealize.ShloMosaic.Lib.IdealHost
import Idealize.ShloMosaic.Lib.Affine
import Idealize.ShloMosaic.PureOps.Ideal.Laws

noncomputable section

open scoped BigOperators

namespace Cert.Bridge

open Idealize.ShloMosaic Idealize.ShloMosaic.ValueIdx
open Cert.KernelIdeal Cert.KernelIdeal.Gen Cert.KernelIdeal.HostVal

/-! ## The index tensors -/

/-- Column 0 of the pair tensor is the row vector (as a column). -/
theorem edgePairs_0 (x1 : IVec S2x262144 32) (e : Fin 262144) :
    edgePairs x1 (ix2 e (0 : Fin 2))
      = (broadcastInDim S262144x1 ![0] bcast_S262144_S262144x1_0 (edgeRows x1)) (ix2 e (0 : Fin 1)) := by
  unfold edgePairs
  exact concatenate_pair_apply_left (t := S262144x2) (s₁ := S262144x1) (s₂ := S262144x1) 1 _ _ _ (ix2 e (0 : Fin 2)) rfl
    (ix2 e (0 : Fin 1)) (fun b => match b with | ⟨0, _⟩ => rfl | ⟨1, _⟩ => rfl)

/-- Column 1 of the pair tensor is the column vector. -/
theorem edgePairs_1 (x1 : IVec S2x262144 32) (e : Fin 262144) :
    edgePairs x1 (ix2 e (1 : Fin 2)) = edgeCols x1 (ix1 e) := by
  unfold edgePairs
  refine (concatenate_pair_apply_right (t := S262144x2) (s₁ := S262144x1) (s₂ := S262144x1) 1 _ _ _ (ix2 e (1 : Fin 2)) rfl rfl
    (ix2 e (0 : Fin 1))
    (fun b => match b with | ⟨0, _⟩ => fun _ => rfl | ⟨1, _⟩ => fun h => absurd rfl h) rfl).trans ?_
  exact broadcastInDim_apply _ bcast_S262144_S262144x1_0 (edgeCols x1) (ix2 e (0 : Fin 1)) (ix1 e) (fun a => match a with
    | ⟨0, _⟩ => by show e.val = if (262144 : Nat) = 1 then 0 else e.val; rw [if_neg (by decide)])

/-- Row 1 of the edge list, as a vector. -/
theorem edgeColsRaw_apply (x1 : IVec S2x262144 32) (e : Fin 262144) :
    edgeColsRaw x1 (ix1 e) = x1 (ix2 (1 : Fin 2) e) := by
  unfold edgeColsRaw
  refine (shapeCast_apply _ shapeCasts_S1x262144_S262144 (ix1 e) (ix2 (0 : Fin 1) e)
    (by rewrite [Shape.rowMajor_val_two, Shape.rowMajor_val_one]; show 0 * 262144 + e.val = e.val; omega)).trans ?_
  exact extractStridedSlice_apply ![1, 0] x1 slices_S2x262144_S1x262144_1_0 (ix2 (0 : Fin 1) e) (ix2 (1 : Fin 2) e)
    (fun a => match a with
      | ⟨0, _⟩ => by show 1 = 1 + 0; rfl
      | ⟨1, _⟩ => by show e.val = 0 + e.val; omega)

/-- A nonnegative word is left alone by the negative-index normalisation. -/
theorem wrap_of_nonneg (v : BitVec 32) (h : 0 ≤ v.toInt) :
    Scalar.select (IntOp.cmpi .slt v 0#32) (IntOp.addi v 8192#32) v = v := by
  have hne : ¬ IntOp.cmpi .slt v 0#32 = 1#1 := by
    rw [IntOp.cmpi_slt, show (0#32 : BitVec 32).toInt = 0 from by decide]; omega
  rw [eq_zero_of_ne_one hne, select_zero]

/-- The column of an edge whose entry is nonnegative is the entry itself. -/
theorem edgeCols_apply (x1 : IVec S2x262144 32) (e : Fin 262144) (h : 0 ≤ (x1 (ix2 (1 : Fin 2) e)).toInt) :
    edgeCols x1 (ix1 e) = x1 (ix2 (1 : Fin 2) e) := by
  have e1 : edgeCols x1 (ix1 e) = Scalar.select (IntOp.cmpi .slt (edgeColsRaw x1 (ix1 e))
      (broadcastInDim S262144 ![] bcast_S_S262144 (constantI S_ 32 0#32) (ix1 e)))
      (IntOp.addi (edgeColsRaw x1 (ix1 e)) (broadcastInDim S262144 ![] bcast_S_S262144 (constantI S_ 32 8192#32) (ix1 e)))
      (edgeColsRaw x1 (ix1 e)) := rfl
  rw [e1, broadcastInDim_scalar_apply, broadcastInDim_scalar_apply, edgeColsRaw_apply]
  exact wrap_of_nonneg _ h

/-- With every entry of the edge list in [0, 8192), the columns of the pair tensor are in range. -/
theorem edgePairs_col_range (x1 : IVec S2x262144 32) (hrng : ∀ i, 0 ≤ (x1 i).toInt ∧ (x1 i).toInt < 8192)
    (e : Fin 262144) :
    0 ≤ (edgePairs x1 (ix2 e (1 : Fin 2))).toInt ∧ (edgePairs x1 (ix2 e (1 : Fin 2))).toInt < 8192 := by
  rw [edgePairs_1, edgeCols_apply x1 e (hrng _).1]
  exact hrng _

/-! ## The adjacency and the degrees as sums over the edges -/

/-- The dense adjacency at (r, c): the weights of the edges (r, c), added to zero. -/
theorem adjDense_apply (x1 : IVec S2x262144 32) (x2 : FVec Ideal S262144 .f32) (r c : Fin 8192) :
    adjDense (F := Ideal) x1 x2 (ix2 r c) = Ideal.ofBits .f32 0x00000000#32 +
      ∑ j : SUp.Idx, if (edgePairs x1 (ix2 (j 0) (0 : Fin 2))).toInt = (r.val : Int)
          ∧ (edgePairs x1 (ix2 (j 0) (1 : Fin 2))).toInt = (c.val : Int) then x2 j else 0 := by
  unfold adjDense
  rw [show (scatter_S8192x8192_S262144x2_S262144_n_01_01_1 : ScatterDims S8192x8192 S262144x2 S262144)
    = d2 scatter_S8192x8192_S262144x2_S262144_n_01_01_1_wf from rfl]
  unfold Host.scatterAdd
  rw [Ideal.hostScatterAdd_def, scatter2_apply, broadcastInDim_scalar_apply, constant_apply]

/-- The row degree at r: the weights of the edges of row r, added to zero. -/
theorem degRaw_apply (x1 : IVec S2x262144 32) (x2 : FVec Ideal S262144 .f32) (r : Fin 8192) :
    degRaw (F := Ideal) x1 x2 (ix1 r) = Ideal.ofBits .f32 0x00000000#32 +
      ∑ j : SUp.Idx, if ((broadcastInDim S262144x1 ![0] bcast_S262144_S262144x1_0 (edgeRows x1))
          (ix2 (j 0) (0 : Fin 1))).toInt = (r.val : Int) then x2 j else 0 := by
  unfold degRaw
  rw [show (scatter_S8192_S262144x1_S262144_n_0_0_1 : ScatterDims S8192 S262144x1 S262144)
    = d1 scatter_S8192_S262144x1_S262144_n_0_0_1_wf from rfl]
  unfold Host.scatterAdd
  rw [Ideal.hostScatterAdd_def, scatter1_apply, broadcastInDim_scalar_apply, constant_apply]

/-- Every adjacency entry is real when the weights are. -/
theorem adjDense_real (x1 : IVec S2x262144 32) (x2 : FVec Ideal S262144 .f32)
    (h2 : ∀ j, ∃ a : ℝ, x2 j = (a : EReal)) (i : S8192x8192.Idx) :
    ∃ a : ℝ, adjDense (F := Ideal) x1 x2 i = (a : EReal) := by
  unfold adjDense Host.scatterAdd
  rw [Ideal.hostScatterAdd_def]
  refine scatter_real _ _ _ _ (fun i => ⟨0, ?_⟩) h2 i
  rw [broadcastInDim_scalar_apply, constant_apply, Ideal.ofBits_zero_f32, EReal.coe_zero]

/-- The row degree is the sum of the adjacency's row, when every entry of the edge list is in range. -/
theorem degRaw_eq_rowsum (x1 : IVec S2x262144 32) (x2 : FVec Ideal S262144 .f32)
    (hrng : ∀ i, 0 ≤ (x1 i).toInt ∧ (x1 i).toInt < 8192) (r : Fin 8192) :
    degRaw (F := Ideal) x1 x2 (ix1 r) = ∑ c : Fin 8192, adjDense (F := Ideal) x1 x2 (ix2 r c) := by
  have hA : ∀ c : Fin 8192, adjDense (F := Ideal) x1 x2 (ix2 r c)
      = ∑ j : SUp.Idx, if (edgePairs x1 (ix2 (j 0) (0 : Fin 2))).toInt = (r.val : Int)
          ∧ (edgePairs x1 (ix2 (j 0) (1 : Fin 2))).toInt = (c.val : Int) then x2 j else 0 := fun c => by
    rw [adjDense_apply, Ideal.ofBits_zero_f32, zero_add]
  rw [degRaw_apply, Ideal.ofBits_zero_f32, zero_add, Finset.sum_congr rfl fun c _ => hA c]
  exact (fiber_sum (edgePairs x1) _ x2 r (fun j => congrArg BitVec.toInt (edgePairs_0 x1 (j 0)))
    (fun j => edgePairs_col_range x1 hrng (j 0))).symm

/-! ## The degree factor and the bias at an index -/

/-- The shifted degree at r. -/
theorem degShift_apply (x1 : IVec S2x262144 32) (x2 : FVec Ideal S262144 .f32) (r : Fin 8192) :
    degShift (F := Ideal) x1 x2 (ix1 r)
      = (degRaw (F := Ideal) x1 x2 (ix1 r) + Ideal.ofBits .f32 0x3F800000#32) + Ideal.ofBits .f32 0x2EDBE6FF#32 := by
  unfold degShift
  rw [addf_apply, addf_apply, broadcastInDim_scalar_apply, broadcastInDim_scalar_apply, constant_apply, constant_apply]

/-- The degree factor column at (r, 0) is 1 / sqrt of the shifted degree at r. -/
theorem degFactorCol_apply (x1 : IVec S2x262144 32) (x2 : FVec Ideal S262144 .f32) (r : Fin 8192) :
    degFactorCol (F := Ideal) x1 x2 (ix2 r (0 : Fin 1))
      = Ideal.div (Ideal.ofBits .f32 0x3F800000#32) (Ideal.sqrt (degShift (F := Ideal) x1 x2 (ix1 r))) := by
  unfold degFactorCol
  refine (shapeCast_apply _ shapeCasts_S8192_S8192x1 (ix2 r (0 : Fin 1)) (ix1 r)
    (by rewrite [Shape.rowMajor_val_two, Shape.rowMajor_val_one]; show r.val = r.val * 1 + 0; omega)).trans ?_
  unfold degFactor
  rw [hostDivf_apply, broadcastInDim_scalar_apply, constant_apply]
  exact congrArg (Ideal.div _) (Ideal.hostUnary_sqrt_def _)

/-- The bias row at (0, f) is the bias at f. -/
theorem biasRow_apply (x4 : FVec Ideal S128 .f32) (f : Fin 128) :
    biasRow (F := Ideal) x4 (ix2 (0 : Fin 1) f) = x4 (ix1 f) := by
  unfold biasRow
  exact shapeCast_apply _ shapeCasts_S128_S1x128 (ix2 (0 : Fin 1) f) (ix1 f)
    (by rewrite [Shape.rowMajor_val_two, Shape.rowMajor_val_one]; show f.val = 0 * 128 + f.val; omega)

end Cert.Bridge

end
-- ==== Proof.BridgeRef.lean ====
/-
  The reference's operations read at one element, down to plain sums (ideal instance). The identity matrix is built
  from two iotas: its entry (r, k) is 1 when r = k and 0 otherwise. The row degree is the sum over k of
  (A'[r, k] + identity[r, k]); the degree factor is 1 / sqrt (degree + eps); the result at (r, f) is the sum over k of
  ((D'[r] · (A'[r, k] + identity[r, k])) · D'[k]) · (x W)[k, f], plus the bias.
-/
import proofs.«111453_j27599459844749_1_alg».proof.Proof.Gen.ReferenceIdeal.Read
import proofs.«111453_j27599459844749_1_alg».proof.Proof.KernelHost
import Idealize.ShloMosaic.Lib.ValueIdx
import Idealize.ShloMosaic.Lib.IdealHost
import Idealize.ShloMosaic.Lib.Affine
import Idealize.ShloMosaic.PureOps.Ideal.Laws

noncomputable section

namespace Cert.Bridge

open Idealize.ShloMosaic Idealize.ShloMosaic.ValueIdx Cert.ReferenceIdeal Cert.ReferenceIdeal.Read

/-- The identity's entry (r, k). -/
theorem ref_eye (r k : Fin 8192) :
    val_main_v25 (F := Ideal) (ix2 r k) = (((if r = k then (1 : ℝ) else 0 : ℝ)) : EReal) := by
  have h22 : val_main_v22 (F := Ideal) (ix2 r k) = 0#32 := (val_main_v22_apply (F := Ideal) (ix2 r k)).trans rfl
  show ((((IntOp.cmpi .eq (IntOp.addi (BitVec.ofNat 32 r.val) (val_main_v22 (F := Ideal) (ix2 r k))) (BitVec.ofNat 32 k.val)).toNat : ℝ)) : EReal) = _
  rw [h22]
  show ((((IntOp.cmpi .eq (BitVec.ofNat 32 r.val + 0#32) (BitVec.ofNat 32 k.val)).toNat : ℝ)) : EReal) = _
  rw [BitVec.add_zero]
  by_cases h : r = k
  · subst h
    rw [if_pos rfl, IntOp.cmpi_eq.2 rfl]
    norm_num
  · rw [if_neg h]
    have hne : BitVec.ofNat 32 r.val ≠ BitVec.ofNat 32 k.val := by
      intro e
      have e' := congrArg BitVec.toNat e
      rw [BitVec.toNat_ofNat, BitVec.toNat_ofNat] at e'
      have hr := r.isLt
      have hk := k.isLt
      exact h (Fin.ext (by omega))
    have h0 : IntOp.cmpi .eq (BitVec.ofNat 32 r.val) (BitVec.ofNat 32 k.val) = 0#1 :=
      ValueIdx.eq_zero_of_ne_one (fun e => hne (IntOp.cmpi_eq.1 e))
    rw [h0]
    norm_num

/-- A' + identity at (r, k). -/
theorem ref_B (x1 : IVec S2x262144 32) (x2 : FVec Ideal S262144 .f32) (r k : Fin 8192) :
    val_main_v26 (F := Ideal) x1 x2 (ix2 r k)
      = val_main_v19 (F := Ideal) x1 x2 (ix2 r k) + (((if r = k then (1 : ℝ) else 0 : ℝ)) : EReal) := by
  show val_main_v19 (F := Ideal) x1 x2 (ix2 r k) + val_main_v25 (F := Ideal) (ix2 r k) = _
  rw [ref_eye]

/-- The row degree at r. -/
theorem ref_deg (x1 : IVec S2x262144 32) (x2 : FVec Ideal S262144 .f32) (r : Fin 8192) :
    val_main_v27 (F := Ideal) x1 x2 (ix1 r)
      = Ideal.ofBits .f32 0x00000000#32 + ∑ k : Fin 8192, (val_main_v19 (F := Ideal) x1 x2 (ix2 r k) + (((if r = k then (1 : ℝ) else 0 : ℝ)) : EReal)) := by
  rw [val_main_v27_apply]
  refine congrArg₂ (fun a b : EReal => a + b) rfl (Finset.sum_congr rfl fun k _ => ?_)
  rw [show idx_main_v27 (ix1 r) k = ix2 r k from funext fun a => by match a with | ⟨0, _⟩ => rfl | ⟨1, _⟩ => rfl]
  exact ref_B x1 x2 r k

/-- The degree factor at r. -/
theorem ref_D (x1 : IVec S2x262144 32) (x2 : FVec Ideal S262144 .f32) (r : Fin 8192) :
    val_main_v32 (F := Ideal) x1 x2 (ix1 r)
      = Ideal.div (Ideal.ofBits .f32 0x3F800000#32) (Ideal.sqrt ((Ideal.ofBits .f32 0x00000000#32 + ∑ k : Fin 8192, (val_main_v19 (F := Ideal) x1 x2 (ix2 r k) + (((if r = k then (1 : ℝ) else 0 : ℝ)) : EReal))) + Ideal.ofBits .f32 0x2EDBE6FF#32)) := by
  have h31 : val_main_v31 (F := Ideal) (ix1 r) = Ideal.ofBits .f32 0x3F800000#32 := (val_main_v31_apply (F := Ideal) (ix1 r)).trans rfl
  have h28 : val_main_v28 (F := Ideal) (ix1 r) = Ideal.ofBits .f32 0x2EDBE6FF#32 := (val_main_v28_apply (F := Ideal) (ix1 r)).trans rfl
  show Ideal.div (val_main_v31 (F := Ideal) (ix1 r)) (Ideal.sqrt (val_main_v27 (F := Ideal) x1 x2 (ix1 r) + val_main_v28 (F := Ideal) (ix1 r))) = _
  rw [h31, h28, ref_deg]

/-- The support x · W at (k, f). -/
theorem ref_support (x0 : FVec Ideal S8192x128 .f32) (x3 : FVec Ideal S128x128 .f32) (k : Fin 8192) (f : Fin 128) :
    val_main_v0 (F := Ideal) x0 x3 (ix2 k f) = Cert.KernelIdeal.HostVal.support x0 x3 k f := by
  rw [val_main_v0_apply]
  unfold Cert.KernelIdeal.HostVal.support
  refine Finset.sum_congr rfl fun j _ => ?_
  rw [show lidx_main_v0 (ix2 k f) j = ix2 k j from funext fun a => by match a with | ⟨0, _⟩ => rfl | ⟨1, _⟩ => rfl,
    show ridx_main_v0 (ix2 k f) j = ix2 j f from funext fun a => by match a with | ⟨0, _⟩ => rfl | ⟨1, _⟩ => rfl]

/-- The normalised adjacency at (r, k). -/
theorem ref_norm (x1 : IVec S2x262144 32) (x2 : FVec Ideal S262144 .f32) (r k : Fin 8192) :
    val_main_v38 (F := Ideal) x1 x2 (ix2 r k)
      = (val_main_v32 (F := Ideal) x1 x2 (ix1 r) * (val_main_v19 (F := Ideal) x1 x2 (ix2 r k) + (((if r = k then (1 : ℝ) else 0 : ℝ)) : EReal)))
          * val_main_v32 (F := Ideal) x1 x2 (ix1 k) := by
  have h34 : val_main_v34 (F := Ideal) x1 x2 (ix2 r k) = val_main_v32 (F := Ideal) x1 x2 (ix1 r) := by
    rw [val_main_v34_apply, show idx_main_v34 (ix2 r k) = ix2 r (0 : Fin 1) from funext fun a => by match a with | ⟨0, _⟩ => rfl | ⟨1, _⟩ => rfl,
      val_main_v33_apply, show idx_main_v33 (ix2 r (0 : Fin 1)) = ix1 r from funext fun a => by match a with | ⟨0, _⟩ => rfl]
  have h37 : val_main_v37 (F := Ideal) x1 x2 (ix2 r k) = val_main_v32 (F := Ideal) x1 x2 (ix1 k) := by
    rw [val_main_v37_apply, show idx_main_v37 (ix2 r k) = ix2 (0 : Fin 1) k from funext fun a => by match a with | ⟨0, _⟩ => rfl | ⟨1, _⟩ => rfl,
      val_main_v36_apply, show idx_main_v36 (ix2 (0 : Fin 1) k) = ix1 k from funext fun a => by match a with | ⟨0, _⟩ => rfl]
  show (val_main_v34 (F := Ideal) x1 x2 (ix2 r k) * val_main_v26 (F := Ideal) x1 x2 (ix2 r k)) * val_main_v37 (F := Ideal) x1 x2 (ix2 r k) = _
  rw [h34, h37, ref_B]

/-- The reference's result at (r, f). -/
theorem ref_out (x0 : FVec Ideal S8192x128 .f32) (x1 : IVec S2x262144 32) (x2 : FVec Ideal S262144 .f32)
    (x3 : FVec Ideal S128x128 .f32) (x4 : FVec Ideal S128 .f32) (r : Fin 8192) (f : Fin 128) :
    val_main_v42 (F := Ideal) x0 x1 x2 x3 x4 (ix2 r f)
      = (∑ k : Fin 8192, ((val_main_v32 (F := Ideal) x1 x2 (ix1 r) * (val_main_v19 (F := Ideal) x1 x2 (ix2 r k) + (((if r = k then (1 : ℝ) else 0 : ℝ)) : EReal)))
            * val_main_v32 (F := Ideal) x1 x2 (ix1 k)) * Cert.KernelIdeal.HostVal.support x0 x3 k f) + x4 (ix1 f) := by
  have h41 : val_main_v41 (F := Ideal) x4 (ix2 r f) = x4 (ix1 f) := by
    rw [val_main_v41_apply, show idx_main_v41 (ix2 r f) = ix2 (0 : Fin 1) f from funext fun a => by match a with | ⟨0, _⟩ => rfl | ⟨1, _⟩ => rfl,
      val_main_v40_apply, show idx_main_v40 (ix2 (0 : Fin 1) f) = ix1 f from funext fun a => by match a with | ⟨0, _⟩ => rfl]
  show val_main_v39 (F := Ideal) x0 x1 x2 x3 (ix2 r f) + val_main_v41 (F := Ideal) x4 (ix2 r f) = _
  rw [h41, val_main_v39_apply]
  refine congrArg (fun a : EReal => a + x4 (ix1 f)) (Finset.sum_congr rfl fun k _ => ?_)
  rw [show lidx_main_v39 (ix2 r f) k = ix2 r k from funext fun a => by match a with | ⟨0, _⟩ => rfl | ⟨1, _⟩ => rfl,
    show ridx_main_v39 (ix2 r f) k = ix2 k f from funext fun a => by match a with | ⟨0, _⟩ => rfl | ⟨1, _⟩ => rfl,
    ref_norm, ref_support]

end Cert.Bridge

end
-- ==== Proof.Bridge.lean ====
/-
  The bridge: under the precondition, the kernel program's result is the reference's.

  The precondition makes every float a real, puts every edge index in range and keeps the shifted degrees positive.
  Then both programs scatter the same adjacency A (entrywise real), the reference's row sum of A + I is the row degree
  plus one, so the two degree factors D = 1 / sqrt (degree + 1 + eps) agree and are real, and the reference's
      Σ_k ((D r · (A r k + δ r k)) · D k) · S k f + b f
  equals the kernel's
      ((Σ_c A r c · (S c f · D c)) + S r f · D r) · D r + b f
  by the real identity of the algebra module.
-/
import proofs.«111453_j27599459844749_1_alg».proof.Proof.BridgeAlgebra
import proofs.«111453_j27599459844749_1_alg».proof.Proof.BridgePre
import proofs.«111453_j27599459844749_1_alg».proof.Proof.BridgeKer
import proofs.«111453_j27599459844749_1_alg».proof.Proof.BridgeRef

noncomputable section

open scoped BigOperators

namespace Cert.Bridge

open Idealize.ShloMosaic Idealize.ShloMosaic.ValueIdx
open Cert.KernelIdeal.HostVal

/-- One over the square root of a positive extended real is a real (zero at +∞). -/
theorem div_sqrt_real (y : EReal) (hy : 0 < y) : ∃ t : ℝ, Ideal.div 1 (Ideal.sqrt y) = (t : EReal) := by
  by_cases ht : y = ⊤
  · subst ht
    refine ⟨0, ?_⟩
    rw [Ideal.sqrt_top]
    unfold Ideal.div
    rw [if_neg (by simp), EReal.inv_top, mul_zero, EReal.coe_zero]
  · have hb : y ≠ ⊥ := ne_bot_of_gt hy
    obtain ⟨t, rfl⟩ : ∃ t : ℝ, y = (t : EReal) := ⟨y.toReal, (EReal.coe_toReal ht hb).symm⟩
    have ht0 : 0 < t := by exact_mod_cast hy
    rw [Ideal.sqrt_coe, if_neg (not_lt.2 ht0.le)]
    have hs : 0 < Real.sqrt t := Real.sqrt_pos.2 ht0
    unfold Ideal.div
    rw [if_neg (by exact_mod_cast hs.ne'), ← EReal.coe_inv, one_mul]
    exact ⟨_, rfl⟩

/-- Both programs scatter the same adjacency: the two index computations are the same operations. -/
theorem adjDense_eq_ref (x1 : IVec Cert.KernelIdeal.S2x262144 32) (x2 : FVec Ideal Cert.KernelIdeal.S262144 .f32) :
    Cert.ReferenceIdeal.Read.val_main_v19 (F := Ideal) x1 x2 = adjDense (F := Ideal) x1 x2 := rfl

theorem result_eq_reference
    (x0 : FVec Ideal Cert.KernelIdeal.S8192x128 .f32) (x1 : IVec Cert.KernelIdeal.S2x262144 32)
    (x2 : FVec Ideal Cert.KernelIdeal.S262144 .f32) (x3 : FVec Ideal Cert.KernelIdeal.S128x128 .f32)
    (x4 : FVec Ideal Cert.KernelIdeal.S128 .f32)
    (hpre : Cert.Pre_finite_inputs.fn (F := Ideal) x0 x1 x2 x3 x4 = fun _ => 1#1) :
    Cert.KernelIdeal.HostVal.result x0 x1 x2 x3 x4
      = Cert.ReferenceIdeal.Read.val_main_v42 (F := Ideal) x0 x1 x2 x3 x4 := by
  obtain ⟨h0, h2, h3, _, hrng, hpos⟩ := pre_decode x0 x1 x2 x3 x4 hpre
  -- real witnesses: the adjacency, the supports, the degree factors
  have hA : ∀ r c : Fin 8192, ∃ a : ℝ, adjDense (F := Ideal) x1 x2 (ix2 r c) = (a : EReal) :=
    fun r c => adjDense_real x1 x2 h2 _
  choose a ha using hA
  have hS : ∀ (c : Fin 8192) (f : Fin 128), ∃ s : ℝ, support x0 x3 c f = (s : EReal) := fun c f =>
    sum_real Finset.univ _ (fun j _ => by
      obtain ⟨u, hu⟩ := h0 (ix2 c j)
      obtain ⟨v, hv⟩ := h3 (ix2 j f)
      exact ⟨u * v, by rw [hu, hv, EReal.coe_mul]⟩)
  choose S hS using hS
  have hD : ∀ k : Fin 8192, ∃ d : ℝ, degFactorCol (F := Ideal) x1 x2 (ix2 k (0 : Fin 1)) = (d : EReal) := fun k => by
    rw [degFactorCol_apply, Ideal.ofBits_one_f32]
    exact div_sqrt_real _ (hpos (ix1 k))
  choose d hd using hD
  -- the two degree factors agree
  have hDeq : ∀ k : Fin 8192, Cert.ReferenceIdeal.Read.val_main_v32 (F := Ideal) x1 x2 (ix1 k)
      = degFactorCol (F := Ideal) x1 x2 (ix2 k (0 : Fin 1)) := fun k => by
    rw [ref_D, degFactorCol_apply, degShift_apply, degRaw_eq_rowsum x1 x2 hrng k, adjDense_eq_ref,
      Ideal.ofBits_zero_f32, Ideal.ofBits_one_f32]
    simp only [ha]
    rw [rowsum_delta (a k) k]
  funext i
  obtain ⟨r, f, rfl⟩ : ∃ (r : Fin 8192) (f : Fin 128), i = ix2 r f := ⟨i 0, i 1, eq_ix2 i⟩
  show resultAt (adjDense (F := Ideal) x1 x2) (degFactorCol (F := Ideal) x1 x2) x0 x3 (biasRow (F := Ideal) x4) r f = _
  rw [ref_out, adjDense_eq_ref]
  unfold resultAt
  rw [biasRow_apply]
  refine congrArg (· + x4 (ix1 f)) ?_
  simp only [hDeq, ha, hS, hd]
  exact bridge_ereal (a r) (fun c => S c f) d r

end Cert.Bridge

end
-- ==== Proof.lean ====
/-
  A graph-convolution layer, out = D^(-1/2) (A + I) D^(-1/2) (x W) + bias, computed two ways.

  The kernel program scatters the edge weights into a dense 8192 × 8192 adjacency A and into the row degrees, forms the
  degree factor D[r] = 1 / sqrt (deg[r] + 1 + eps), and runs two grid kernels: the first stores the scaled support
  SS[r, f] = (x W)[r, f] · D[r] tile by tile; the second accumulates A · SS over four column tiles per row tile in a
  scratch accumulator and, at the last column tile, stores ((A · SS)[r, f] + SS[r, f]) · D[r] + bias[f] (the "+ SS" is the
  identity's contribution, never materialised). The reference adds the identity to A, sums its rows for the degrees, scales
  A + I on both sides and multiplies by x W.

  The frames: each program terminates without a fault and leaves its arguments as launched — the kernel programs' by the
  run of their four items (two host stretches, two kernel regions; Proof/K/Run.lean at the word-level instance and
  Proof/KI/Run.lean at the ideal one, one text read at both), the reference's by its run.
  Nothing was rewritten by the idealisation, so there is nothing to preserve.
  The values: at the ideal instance the kernel program's result is the one function `HostVal.result` of the arguments
  (Proof/KI/KernelValue.lean), and the reference's result is the same function (Proof/Bridge.lean) wherever every float
  input is finite, every edge index is in range, and every degree plus one plus eps is positive: then both sides are real
  arithmetic, the row sums of A are the scattered degrees, and D distributes over the sum.
-/
import proofs.«111453_j27599459844749_1_alg».proof.Defs
import proofs.«111453_j27599459844749_1_alg».proof.Proof.Gen.Kernel
import proofs.«111453_j27599459844749_1_alg».proof.Proof.Gen.KernelIdeal
import proofs.«111453_j27599459844749_1_alg».proof.Proof.Gen.ReferenceIdeal
import proofs.«111453_j27599459844749_1_alg».proof.Proof.Gen.ReferenceIdeal.Run
import proofs.«111453_j27599459844749_1_alg».proof.Proof.Gen.ReferenceIdeal.Read
import proofs.«111453_j27599459844749_1_alg».proof.Proof.Gen.Pre_finite_inputs
import proofs.«111453_j27599459844749_1_alg».proof.Proof.K.Run
import proofs.«111453_j27599459844749_1_alg».proof.Proof.KI.KernelValue
import proofs.«111453_j27599459844749_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel program's is `HostVal.result` of the arguments (its run),
    the reference's the composed term of its operations (its run), and under the precondition the two are one function. -/
theorem algebraic : Cert.algebraic_KernelIdeal_ReferenceIdeal := by
  intro m ρ m' ρ' hpre hagree
  refine ⟨fun c => Cert.KernelIdeal.HostVal.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Fr.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1, (hagree c).2.2.2.2]
  exact (Cert.Bridge.result_eq_reference _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
